-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x4x512 : Shape := ⟨4, ![256, 64, 4, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S256x256 : Shape := ⟨2, ![256, 256]⟩
abbrev S_ : Shape := ⟨0, ![]⟩

class Facts : Prop where
  bcast_S_S256x64x4x512 : S_.BroadcastsInDim S256x64x4x512 (![] : Fin 0 → Fin S256x64x4x512.rank)
  reducesTo_S256x64x4x512_S_d0_1_2_3 : S256x64x4x512.ReducesTo [0, 1, 2, 3] S_
  h_S_ : 0 < S_.numel
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S512 .f32) (main_arg5 : FVec F S256x256 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  main_v28

def fn {F : FTy → Type} [FloatOps F] (main_arg0 : FVec F S256x64x4x512 .f32) (main_arg1 : FVec F S1536x512 .f32) (main_arg2 : FVec F S1536 .f32) (main_arg3 : FVec F S512x512 .f32) (main_arg4 : FVec F S512 .f32) (main_arg5 : FVec F S256x256 .f32) : IVec S_ 1 :=
  let main_v0 : FVec F S256x64x4x512 .f32 := Host.absf main_arg0
  let main_cst : FVec F S_ .f32 := constant S_ .f32 0x7F800000#32
  let main_v1 : FVec F S256x64x4x512 .f32 := broadcastInDim S256x64x4x512 ![] bcast_S_S256x64x4x512 main_cst
  let main_v2 : IVec S256x64x4x512 1 := cmpf .olt main_v0 main_v1
  let main_c : IVec S_ 1 := constantI S_ 1 1#1
  let main_v3 : IVec S_ 1 := (fun x v => Host.reduce IntOp.andi x v reducesTo_S256x64x4x512_S_d0_1_2_3 h_S_) main_v2 main_c
  let main_v4 : FVec F S1536x512 .f32 := Host.absf main_arg1
  let main_cst_0 : FVec F S_ .f32 := constant S_ .f32 0x7F800000#32
  let main_v5 : FVec F S1536x512 .f32 := broadcastInDim S1536x512 ![] bcast_S_S1536x512 main_cst_0
  let main_v6 : IVec S1536x512 1 := cmpf .olt main_v4 main_v5
  let main_c_1 : IVec S_ 1 := constantI S_ 1 1#1
  let main_v7 : IVec S_ 1 := (fun x v => Host.reduce IntOp.andi x v reducesTo_S1536x512_S_d0_1 h_S_) main_v6 main_c_1
  let main_v8 : IVec S_ 1 := andi main_v3 main_v7
  let main_v9 : FVec F S1536 .f32 := Host.absf main_arg2
  let main_cst_2 : FVec F S_ .f32 := constant S_ .f32 0x7F800000#32
  let main_v10 : FVec F S1536 .f32 := broadcastInDim S1536 ![] bcast_S_S1536 main_cst_2
  let main_v11 : IVec S1536 1 := cmpf .olt main_v9 main_v10
  let main_c_3 : IVec S_ 1 := constantI S_ 1 1#1
  let main_v12 : IVec S_ 1 := (fun x v => Host.reduce IntOp.andi x v reducesTo_S1536_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_v13 main_v16
-- ==== Kernel.lean ====
abbrev S256x64x4x512 : Shape := ⟨4, ![256, 64, 4, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S256x256 : Shape := ⟨2, ![256, 256]⟩
abbrev S_ : Shape := ⟨0, ![]⟩
abbrev S512x1536 : Shape := ⟨2, ![512, 1536]⟩
abbrev S65536x512 : Shape := ⟨2, ![65536, 512]⟩
abbrev S65536x1536 : Shape := ⟨2, ![65536, 1536]⟩
abbrev S1024x512 : Shape := ⟨2, ![1024, 512]⟩
abbrev S1024x1536 : Shape := ⟨2, ![1024, 1536]⟩
abbrev S1x1536 : Shape := ⟨2, ![1, 1536]⟩
abbrev S256x64x4x1536 : Shape := ⟨4, ![256, 64, 4, 1536]⟩
abbrev S64x4x256x256 : Shape := ⟨4, ![64, 4, 256, 256]⟩
abbrev S256x1x4x1536 : Shape := ⟨4, ![256, 1, 4, 1536]⟩
abbrev S256x1x4x512 : Shape := ⟨4, ![256, 1, 4, 512]⟩
abbrev S1x4x256x256 : Shape := ⟨4, ![1, 4, 256, 256]⟩
abbrev S256x4x512 : Shape := ⟨3, ![256, 4, 512]⟩
abbrev S4x256x256 : Shape := ⟨3, ![4, 256, 256]⟩
abbrev S256x1x4x128 : Shape := ⟨4, ![256, 1, 4, 128]⟩
abbrev S256x4x128 : Shape := ⟨3, ![256, 4, 128]⟩
abbrev S256x4x2x64 : Shape := ⟨4, ![256, 4, 2, 64]⟩
abbrev S4x2x256x64 : Shape := ⟨4, ![4, 2, 256, 64]⟩
abbrev S8x256x64 : Shape := ⟨3, ![8, 256, 64]⟩
abbrev S8x256x256 : Shape := ⟨3, ![8, 256, 256]⟩
abbrev S1x256x256 : Shape := ⟨3, ![1, 256, 256]⟩
abbrev S8x256 : Shape := ⟨2, ![8, 256]⟩
abbrev S8x256x1 : Shape := ⟨3, ![8, 256, 1]⟩
abbrev S4x2x256x256 : Shape := ⟨4, ![4, 2, 256, 256]⟩
abbrev S1x512 : Shape := ⟨2, ![1, 512]⟩

abbrev nBuf : Space → Nat
  | .hbm => 29
  | .vmem => 16
  | .smem => 0
  | _ => 0

abbrev bufTy : (tb : Table) → Fin (tcTables nBuf tb) → BufTy
  | .hbm, ⟨0, _⟩ => ⟨S256x64x4x512, .f32⟩
  | .hbm, ⟨1, _⟩ => ⟨S1536x512, .f32⟩
  | .hbm, ⟨2, _⟩ => ⟨S1536, .f32⟩
  | .hbm, ⟨3, _⟩ => ⟨S512x512, .f32⟩
  | .hbm, ⟨4, _⟩ => ⟨S512, .f32⟩
  | .hbm, ⟨5, _⟩ => ⟨S256x256, .f32⟩
  | .hbm, ⟨6, _⟩ => ⟨S512x512, .f32⟩
  | .hbm, ⟨7, _⟩ => ⟨S_, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S1536x512, .f32⟩
  | .hbm, ⟨13, _⟩ => ⟨S512x1536, .f32⟩
  | .hbm, ⟨14, _⟩ => ⟨S512x1536, .bf16⟩
  | .hbm, ⟨15, _⟩ => ⟨S512, .f32⟩
  | .hbm, ⟨16, _⟩ => ⟨S_, .f32⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S512, .f32⟩
  | .hbm, ⟨21, _⟩ => ⟨S1536, .f32⟩
  | .hbm, ⟨22, _⟩ => ⟨S65536x512, .f32⟩
  | .hbm, ⟨23, _⟩ => ⟨S65536x1536, .bf16⟩
  | .hbm, ⟨24, _⟩ => ⟨S256x64x4x1536, .bf16⟩
  | .hbm, ⟨25, _⟩ => ⟨S512x512, .f32⟩
  | .hbm, ⟨26, _⟩ => ⟨S512x512, .bf16⟩
  | .hbm, ⟨27, _⟩ => ⟨S256x64x4x512, .f32⟩
  | .hbm, ⟨28, _⟩ => ⟨S64x4x256x256, .f32⟩
  | .local _ .vmem, ⟨0, _⟩ => ⟨S1024x512, .f32⟩
  | .local _ .vmem, ⟨1, _⟩ => ⟨S1024x512, .f32⟩
  | .local _ .vmem, ⟨2, _⟩ => ⟨S512x1536, .bf16⟩
  | .local _ .vmem, ⟨3, _⟩ => ⟨S1536, .f32⟩
  | .local _ .vmem, ⟨4, _⟩ => ⟨S1024x1536, .bf16⟩
  | .local _ .vmem, ⟨5, _⟩ => ⟨S1024x1536, .bf16⟩
  | .local _ .vmem, ⟨6, _⟩ => ⟨S256x1x4x1536, .bf16⟩
  | .local _ .vmem, ⟨7, _⟩ => ⟨S256x1x4x1536, .bf16⟩
  | .local _ .vmem, ⟨8, _⟩ => ⟨S256x256, .f32⟩
  | .local _ .vmem, ⟨9, _⟩ => ⟨S512x512, .bf16⟩
  | .local _ .vmem, ⟨10, _⟩ => ⟨S512, .f32⟩
  | .local _ .vmem, ⟨11, _⟩ => ⟨S256x1x4x512, .f32⟩
  | .local _ .vmem, ⟨12, _⟩ => ⟨S256x1x4x512, .f32⟩
  | .local _ .vmem, ⟨13, _⟩ => ⟨S1x4x256x256, .f32⟩
  | .local _ .vmem, ⟨14, _⟩ => ⟨S1x4x256x256, .f32⟩
  | .local _ .vmem, ⟨15, _⟩ => ⟨S256x4x512, .bf16⟩
  | _, _ => ⟨S256x64x4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S256x1x4x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x1x4x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x4x256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S1536x512_S512x512_0_0 : S1536x512.Slices ![0, 0] S512x512
  bcast_S_S512x512 : S_.BroadcastsInDim S512x512 (![] : Fin 0 → Fin S512x512.rank)
  slices_S1536x512_S512x512_512_0 : S1536x512.Slices ![512, 0] S512x512
  slices_S1536x512_S512x512_1024_0 : S1536x512.Slices ![1024, 0] S512x512
  concatenates_S512x512_S512x512_S512x512_S1536x512_d0 : Shape.Concatenates [S512x512, S512x512, S512x512] S1536x512 0
  transposes_S1536x512_S512x1536_1_0 : S1536x512.Transposes [1, 0] S512x1536
  bitsLt_bf16_f32 : FTy.bits .bf16 < FTy.bits .f32
  slices_S1536_S512_0 : S1536.Slices ![0] S512
  bcast_S_S512 : S_.BroadcastsInDim S512 (![] : Fin 0 → Fin S512.rank)
  slices_S1536_S512_512 : S1536.Slices ![512] S512
  slices_S1536_S512_1024 : S1536.Slices ![1024] S512
  concatenates_S512_S512_S512_S1536_d0 : Shape.Concatenates [S512, S512, S512] S1536 0
  shapeCasts_S256x64x4x512_S65536x512 : S256x64x4x512.ShapeCasts S65536x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1536_S1536_0 : ∀ a, (![0] : Fin 1 → Nat) a + S1536.size a ≤ S1536.size a
  h_S1536 : 0 < S1536.numel
  shapeCasts_S1536_S1536 : S1536.ShapeCasts S1536
  shapeCasts_S1536_S1x1536 : S1536.ShapeCasts S1x1536
  broadcasts_S1x1536_S1024x1536 : S1x1536.Broadcasts S1024x1536
  inb_S1024x1536_S1024x1536_0_0 : ∀ a, (![0, 0] : Fin 2 → Nat) a + S1024x1536.size a ≤ S1024x1536.size a
  h_S1024x1536 : 0 < S1024x1536.numel
  packedbf16_S1024x1536_S1024x1536_0_0 : (Rect.unit (s := S1024x1536) ![0, 0] S1024x1536.size inb_S1024x1536_S1024x1536_0_0).PackedRows (EltTy.packing .bf16)
  shapeCasts_S65536x1536_S256x64x4x1536 : S65536x1536.ShapeCasts S256x64x4x1536
  transposes_S512x512_S512x512_1_0 : S512x512.Transposes [1, 0] S512x512
  inb_S256x256_S256x256_0_0 : ∀ a, (![0, 0] : Fin 2 → Nat) a + S256x256.size a ≤ S256x256.size a
  h_S256x256 : 0 < S256x256.numel
  inb_S256x1x4x1536_S256x1x4x128_0_0_0_0 : ∀ a, (![0, 0, 0, 0] : Fin 4 → Nat) a + S256x1x4x128.size a ≤ S256x1x4x1536.size a
  h_S256x1x4x128 : 0 < S256x1x4x128.numel
  shapeCasts_S256x1x4x128_S256x4x128 : S256x1x4x128.ShapeCasts S256x4x128
  inb_S256x1x4x1536_S256x1x4x128_0_0_0_512 : ∀ a, (![0, 0, 0, 512] : Fin 4 → Nat) a + S256x1x4x128.size a ≤ S256x1x4x1536.size a
  inb_S256x1x4x1536_S256x1x4x128_0_0_0_1024 : ∀ a, (![0, 0, 0, 1024] : Fin 4 → Nat) a + S256x1x4x128.size a ≤ S256x1x4x1536.size a
  shapeCasts_S256x4x128_S256x4x2x64 : S256x4x128.ShapeCasts S256x4x2x64
  transposes_S256x4x2x64_p1_2_0_3_S4x2x256x64 : S256x4x2x64.Transposes [1, 2, 0, 3] S4x2x256x64
  shapeCasts_S4x2x256x64_S8x256x64 : S4x2x256x64.ShapeCasts S8x256x64
  shapeCasts_S256x256_S1x256x256 : S256x256.ShapeCasts S1x256x256
  broadcasts_S1x256x256_S8x256x256 : S1x256x256.Broadcasts S8x256x256
  reduces_S8x256x256_S8x256 : S8x256x256.Reduces [2] S8x256
  shapeCasts_S8x256_S8x256x1 : S8x256.ShapeCasts S8x256x1
  broadcasts_S8x256x1_S8x256x256 : S8x256x1.Broadcasts S8x256x256
  shapeCasts_S8x256x64_S4x2x256x64 : S8x256x64.ShapeCasts S4x2x256x64
  transposes_S4x2x256x64_p2_0_1_3_S256x4x2x64 : S4x2x256x64.Transposes [2, 0, 1, 3] S256x4x2x64
  shapeCasts_S256x4x2x64_S256x4x128 : S256x4x2x64.ShapeCasts S256x4x128
  inb_S256x4x512_S256x4x128_0_0_0 : ∀ a, (![0, 0, 0] : Fin 3 → Nat) a + S256x4x128.size a ≤ S256x4x512.size a
  h_S256x4x128 : 0 < S256x4x128.numel
  shapeCasts_S256x4x128_S256x4x128 : S256x4x128.ShapeCasts S256x4x128
  packedbf16_S256x4x512_S256x4x128_0_0_0 : (Rect.unit (s := S256x4x512) ![0, 0, 0] S256x4x128.size inb_S256x4x512_S256x4x128_0_0_0).PackedRows (EltTy.packing .bf16)
  shapeCasts_S8x256x256_S4x2x256x256 : S8x256x256.ShapeCasts S4x2x256x256
  reduces_S4x2x256x256_S4x256x256 : S4x2x256x256.Reduces [1] S4x256x256
  inb_S256x1x4x1536_S256x1x4x128_0_0_0_128 : ∀ a, (![0, 0, 0, 128] : Fin 4 → Nat) a + S256x1x4x128.size a ≤ S256x1x4x1536.size a
  inb_S256x1x4x1536_S256x1x4x128_0_0_0_640 : ∀ a, (![0, 0, 0, 640] : Fin 4 → Nat) a + S256x1x4x128.size a ≤ S256x1x4x1536.size a
  inb_S256x1x4x1536_S256x1x4x128_0_0_0_1152 : ∀ a, (![0, 0, 0, 1152] : Fin 4 → Nat) a + S256x1x4x128.size a ≤ S256x1x4x1536.size a
  inb_S256x4x512_S256x4x128_0_0_128 : ∀ a, (![0, 0, 128] : Fin 3 → Nat) a + S256x4x128.size a ≤ S256x4x512.size a
  packedbf16_S256x4x512_S256x4x128_0_0_128 : (Rect.unit (s := S256x4x512) ![0, 0, 128] S256x4x128.size inb_S256x4x512_S256x4x128_0_0_128).PackedRows (EltTy.packing .bf16)
  inb_S256x1x4x1536_S256x1x4x128_0_0_0_256 : ∀ a, (![0, 0, 0, 256] : Fin 4 → Nat) a + S256x1x4x128.size a ≤ S256x1x4x1536.size a
  inb_S256x1x4x1536_S256x1x4x128_0_0_0_768 : ∀ a, (![0, 0, 0, 768] : Fin 4 → Nat) a + S256x1x4x128.size a ≤ S256x1x4x1536.size a
  inb_S256x1x4x1536_S256x1x4x128_0_0_0_1280 : ∀ a, (![0, 0, 0, 1280] : Fin 4 → Nat) a + S256x1x4x128.size a ≤ S256x1x4x1536.size a
  inb_S256x4x512_S256x4x128_0_0_256 : ∀ a, (![0, 0, 256] : Fin 3 → Nat) a + S256x4x128.size a ≤ S256x4x512.size a
  packedbf16_S256x4x512_S256x4x128_0_0_256 : (Rect.unit (s := S256x4x512) ![0, 0, 256] S256x4x128.size inb_S256x4x512_S256x4x128_0_0_256).PackedRows (EltTy.packing .bf16)
  inb_S256x1x4x1536_S256x1x4x128_0_0_0_384 : ∀ a, (![0, 0, 0, 384] : Fin 4 → Nat) a + S256x1x4x128.size a ≤ S256x1x4x1536.size a
  inb_S256x1x4x1536_S256x1x4x128_0_0_0_896 : ∀ a, (![0, 0, 0, 896] : Fin 4 → Nat) a + S256x1x4x128.size a ≤ S256x1x4x1536.size a
  inb_S256x1x4x1536_S256x1x4x128_0_0_0_1408 : ∀ a, (![0, 0, 0, 1408] : Fin 4 → Nat) a + S256x1x4x128.size a ≤ S256x1x4x1536.size a
  inb_S256x4x512_S256x4x128_0_0_384 : ∀ a, (![0, 0, 384] : Fin 3 → Nat) a + S256x4x128.size a ≤ S256x4x512.size a
  packedbf16_S256x4x512_S256x4x128_0_0_384 : (Rect.unit (s := S256x4x512) ![0, 0, 384] S256x4x128.size inb_S256x4x512_S256x4x128_0_0_384).PackedRows (EltTy.packing .bf16)
  inb_S1x4x256x256_S1x4x256x256_0_0_0_0 : ∀ a, (![0, 0, 0, 0] : Fin 4 → Nat) a + S1x4x256x256.size a ≤ S1x4x256x256.size a
  h_S1x4x256x256 : 0 < S1x4x256x256.numel
  shapeCasts_S1x4x256x256_S4x256x256 : S1x4x256x256.ShapeCasts S4x256x256
  shapeCasts_S4x256x256_S1x4x256x256 : S4x256x256.ShapeCasts S1x4x256x256
  inb_S256x4x512_S256x4x512_0_0_0 : ∀ a, (![0, 0, 0] : Fin 3 → Nat) a + S256x4x512.size a ≤ S256x4x512.size a
  h_S256x4x512 : 0 < S256x4x512.numel
  shapeCasts_S256x4x512_S1024x512 : S256x4x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  shapeCasts_S1024x512_S256x4x512 : S1024x512.ShapeCasts S256x4x512
  inb_S256x1x4x512_S256x1x4x512_0_0_0_0 : ∀ a, (![0, 0, 0, 0] : Fin 4 → Nat) a + S256x1x4x512.size a ≤ S256x1x4x512.size a
  h_S256x1x4x512 : 0 < S256x1x4x512.numel
  shapeCasts_S256x1x4x512_S256x4x512 : S256x1x4x512.ShapeCasts S256x4x512
  shapeCasts_S256x4x512_S256x1x4x512 : S256x4x512.ShapeCasts S256x1x4x512
  dot_S1024x512_S512x1536_S1024x1536_1_0_0_1_n_n_wf : DotDims.WF S1024x512 S512x1536 S1024x1536 [1] [0] [0] [1] [] []
  dot_S8x256x64_S8x256x64_S8x256x256_2_2_1_1_0_0_wf : DotDims.WF S8x256x64 S8x256x64 S8x256x256 [2] [2] [1] [1] [0] [0]
  dot_S8x256x256_S8x256x64_S8x256x64_2_1_1_2_0_0_wf : DotDims.WF S8x256x256 S8x256x64 S8x256x64 [2] [1] [1] [2] [0] [0]
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .bf16 = 32 ∨ (Rect.block (s := S512x1536) S512x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536.size a ≤ S1536.size a
  hwx0_2 : ∀ i : grid0.Coords, EltTy.bits .f32 = 32 ∨ (Rect.block (s := S1536) S1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1536.size a ≤ S65536x1536.size a
  hwx0_3 : ∀ i : grid0.Coords, EltTy.bits .bf16 = 32 ∨ (Rect.block (s := S65536x1536) S1024x1536.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1x4x1536.size a ≤ S256x64x4x1536.size a
  hwx1_0 : ∀ i : grid1.Coords, EltTy.bits .bf16 = 32 ∨ (Rect.block (s := S256x64x4x1536) S256x1x4x1536.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S512.size a
  hwx1_3 : ∀ i : grid1.Coords, EltTy.bits .f32 = 32 ∨ (Rect.block (s := S512) S512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x1x4x512.size a ≤ S256x64x4x512.size a
  hwx1_4 : ∀ i : grid1.Coords, EltTy.bits .f32 = 32 ∨ (Rect.block (s := S256x64x4x512) S256x1x4x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x4x256x256.size a ≤ S64x4x256x256.size a
  hwx1_5 : ∀ i : grid1.Coords, EltTy.bits .f32 = 32 ∨ (Rect.block (s := S64x4x256x256) S1x4x256x256.size (cc1_transform_5 i) (hinb1_5 i)).WholeWords (EltTy.packing .f32)

variable [Facts₀]

def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf
def dot_S8x256x64_S8x256x64_S8x256x256_2_2_1_1_0_0 : DotDims S8x256x64 S8x256x64 S8x256x256 where
  lhsContracting := [2]
  rhsContracting := [2]
  lhsNonContracting := [1]
  rhsNonContracting := [1]
  lhsBatch := [0]
  rhsBatch := [0]
  wf := dot_S8x256x64_S8x256x64_S8x256x256_2_2_1_1_0_0_wf
def dot_S8x256x256_S8x256x64_S8x256x64_2_1_1_2_0_0 : DotDims S8x256x256 S8x256x64 S8x256x64 where
  lhsContracting := [2]
  rhsContracting := [1]
  lhsNonContracting := [1]
  rhsNonContracting := [2]
  lhsBatch := [0]
  rhsBatch := [0]
  wf := dot_S8x256x256_S8x256x64_S8x256x64_2_1_1_2_0_0_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v14) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1024x1536.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S256x1x4x1536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19_0) S256x1x4x512.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v19_1) S1x4x256x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S256x64x4x512 : Shape := ⟨4, ![256, 64, 4, 512]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S256x256 : Shape := ⟨2, ![256, 256]⟩
abbrev S256x64x4x1536 : Shape := ⟨4, ![256, 64, 4, 1536]⟩
abbrev S1x1x1x1536 : Shape := ⟨4, ![1, 1, 1, 1536]⟩
abbrev S_ : Shape := ⟨0, ![]⟩
abbrev S256x2048x64 : Shape := ⟨3, ![256, 2048, 64]⟩
abbrev S2048x256x64 : Shape := ⟨3, ![2048, 256, 64]⟩
abbrev S2048x256x256 : Shape := ⟨3, ![2048, 256, 256]⟩
abbrev S1x256x256 : Shape := ⟨3, ![1, 256, 256]⟩
abbrev S2048x256 : Shape := ⟨2, ![2048, 256]⟩
abbrev S2048x256x1 : Shape := ⟨3, ![2048, 256, 1]⟩
abbrev S1x1x1x512 : Shape := ⟨4, ![1, 1, 1, 512]⟩
abbrev S64x4x8x256x256 : Shape := ⟨5, ![64, 4, 8, 256, 256]⟩
abbrev S64x4x256x256 : Shape := ⟨4, ![64, 4, 256, 256]⟩

abbrev nBuf : Space → Nat
  | .hbm => 53
  | .vmem => 0
  | .smem => 0
  | _ => 0

abbrev bufTy : (tb : Table) → Fin (tcTables nBuf tb) → BufTy
  | .hbm, ⟨0, _⟩ => ⟨S256x64x4x512, .f32⟩
  | .hbm, ⟨1, _⟩ => ⟨S1536x512, .f32⟩
  | .hbm, ⟨2, _⟩ => ⟨S1536, .f32⟩
  | .hbm, ⟨3, _⟩ => ⟨S512x512, .f32⟩
  | .hbm, ⟨4, _⟩ => ⟨S512, .f32⟩
  | .hbm, ⟨5, _⟩ => ⟨S256x256, .f32⟩
  | .hbm, ⟨6, _⟩ => ⟨S256x64x4x1536, .f32⟩
  | .hbm, ⟨7, _⟩ => ⟨S1x1x1x1536, .f32⟩
  | .hbm, ⟨8, _⟩ => ⟨S256x64x4x1536, .f32⟩
  | .hbm, ⟨9, _⟩ => ⟨S256x64x4x1536, .f32⟩
  | .hbm, ⟨10, _⟩ => ⟨S256x64x4x512, .f32⟩
  | .hbm, ⟨11, _⟩ => ⟨S256x64x4x512, .f32⟩
  | .hbm, ⟨12, _⟩ => ⟨S256x64x4x512, .f32⟩
  | .hbm, ⟨13, _⟩ => ⟨S_, .f32⟩
  | .hbm, ⟨14, _⟩ => ⟨S256x64x4x512, .f32⟩
  | .hbm, ⟨15, _⟩ => ⟨S256x64x4x512, .f32⟩
  | .hbm, ⟨16, _⟩ => ⟨S256x2048x64, .f32⟩
  | .hbm, ⟨17, _⟩ => ⟨S2048x256x64, .f32⟩
  | .hbm, ⟨18, _⟩ => ⟨S256x2048x64, .f32⟩
  | .hbm, ⟨19, _⟩ => ⟨S2048x256x64, .f32⟩
  | .hbm, ⟨20, _⟩ => ⟨S256x2048x64, .f32⟩
  | .hbm, ⟨21, _⟩ => ⟨S2048x256x64, .f32⟩
  | .hbm, ⟨22, _⟩ => ⟨S2048x256x256, .f32⟩
  | .hbm, ⟨23, _⟩ => ⟨S1x256x256, .f32⟩
  | .hbm, ⟨24, _⟩ => ⟨S2048x256x256, .f32⟩
  | .hbm, ⟨25, _⟩ => ⟨S2048x256x256, .f32⟩
  | .hbm, ⟨26, _⟩ => ⟨S_, .f32⟩
  | .hbm, ⟨27, _⟩ => ⟨S2048x256, .f32⟩
  | .hbm, ⟨28, _⟩ => ⟨S_, .f32⟩
  | .hbm, ⟨29, _⟩ => ⟨S2048x256, .f32⟩
  | .hbm, ⟨30, _⟩ => ⟨S2048x256, .f32⟩
  | .hbm, ⟨31, _⟩ => ⟨S2048x256x1, .f32⟩
  | .hbm, ⟨32, _⟩ => ⟨S2048x256x256, .f32⟩
  | .hbm, ⟨33, _⟩ => ⟨S2048x256x256, .f32⟩
  | .hbm, ⟨34, _⟩ => ⟨S2048x256x256, .f32⟩
  | .hbm, ⟨35, _⟩ => ⟨S_, .f32⟩
  | .hbm, ⟨36, _⟩ => ⟨S2048x256, .f32⟩
  | .hbm, ⟨37, _⟩ => ⟨S2048x256x1, .f32⟩
  | .hbm, ⟨38, _⟩ => ⟨S2048x256x256, .f32⟩
  | .hbm, ⟨39, _⟩ => ⟨S2048x256x256, .f32⟩
  | .hbm, ⟨40, _⟩ => ⟨S2048x256x64, .f32⟩
  | .hbm, ⟨41, _⟩ => ⟨S256x2048x64, .f32⟩
  | .hbm, ⟨42, _⟩ => ⟨S256x64x4x512, .f32⟩
  | .hbm, ⟨43, _⟩ => ⟨S256x64x4x512, .f32⟩
  | .hbm, ⟨44, _⟩ => ⟨S1x1x1x512, .f32⟩
  | .hbm, ⟨45, _⟩ => ⟨S256x64x4x512, .f32⟩
  | .hbm, ⟨46, _⟩ => ⟨S256x64x4x512, .f32⟩
  | .hbm, ⟨47, _⟩ => ⟨S64x4x8x256x256, .f32⟩
  | .hbm, ⟨48, _⟩ => ⟨S_, .f32⟩
  | .hbm, ⟨49, _⟩ => ⟨S64x4x256x256, .f32⟩
  | .hbm, ⟨50, _⟩ => ⟨S_, .f32⟩
  | .hbm, ⟨51, _⟩ => ⟨S64x4x256x256, .f32⟩
  | .hbm, ⟨52, _⟩ => ⟨S64x4x256x256, .f32⟩
  | _, _ => ⟨S256x64x4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]

class Facts₀ : Prop where
  bcast_S1536_S1x1x1x1536_3 : S1536.BroadcastsInDim S1x1x1x1536 (![3] : Fin 1 → Fin S1x1x1x1536.rank)
  bcast_S1x1x1x1536_S256x64x4x1536_0_1_2_3 : S1x1x1x1536.BroadcastsInDim S256x64x4x1536 (![0, 1, 2, 3] : Fin 4 → Fin S256x64x4x1536.rank)
  slices_S256x64x4x1536_S256x64x4x512_0_0_0_0 : S256x64x4x1536.Slices ![0, 0, 0, 0] S256x64x4x512
  slices_S256x64x4x1536_S256x64x4x512_0_0_0_512 : S256x64x4x1536.Slices ![0, 0, 0, 512] S256x64x4x512
  slices_S256x64x4x1536_S256x64x4x512_0_0_0_1024 : S256x64x4x1536.Slices ![0, 0, 0, 1024] S256x64x4x512
  bcast_S_S256x64x4x512 : S_.BroadcastsInDim S256x64x4x512 (![] : Fin 0 → Fin S256x64x4x512.rank)
  shapeCasts_S256x64x4x512_S256x2048x64 : S256x64x4x512.ShapeCasts S256x2048x64
  transposes_S256x2048x64_S2048x256x64_1_0_2 : S256x2048x64.Transposes [1, 0, 2] S2048x256x64
  bcast_S256x256_S1x256x256_1_2 : S256x256.BroadcastsInDim S1x256x256 (![1, 2] : Fin 2 → Fin S1x256x256.rank)
  bcast_S1x256x256_S2048x256x256_0_1_2 : S1x256x256.BroadcastsInDim S2048x256x256 (![0, 1, 2] : Fin 3 → Fin S2048x256x256.rank)
  reducesTo_S2048x256x256_S2048x256_d2 : S2048x256x256.ReducesTo [2] S2048x256
  h_S_ : 0 < S_.numel
  bcast_S_S2048x256 : S_.BroadcastsInDim S2048x256 (![] : Fin 0 → Fin S2048x256.rank)
  bcast_S2048x256_S2048x256x1_0_1 : S2048x256.BroadcastsInDim S2048x256x1 (![0, 1] : Fin 2 → Fin S2048x256x1.rank)
  bcast_S2048x256x1_S2048x256x256_0_1_2 : S2048x256x1.BroadcastsInDim S2048x256x256 (![0, 1, 2] : Fin 3 → Fin S2048x256x256.rank)
  transposes_S2048x256x64_S256x2048x64_1_0_2 : S2048x256x64.Transposes [1, 0, 2] S256x2048x64
  shapeCasts_S256x2048x64_S256x64x4x512 : S256x2048x64.ShapeCasts S256x64x4x512
  bcast_S512_S1x1x1x512_3 : S512.BroadcastsInDim S1x1x1x512 (![3] : Fin 1 → Fin S1x1x1x512.rank)
  bcast_S1x1x1x512_S256x64x4x512_0_1_2_3 : S1x1x1x512.BroadcastsInDim S256x64x4x512 (![0, 1, 2, 3] : Fin 4 → Fin S256x64x4x512.rank)
  shapeCasts_S2048x256x256_S64x4x8x256x256 : S2048x256x256.ShapeCasts S64x4x8x256x256
  reducesTo_S64x4x8x256x256_S64x4x256x256_d2 : S64x4x8x256x256.ReducesTo [2] S64x4x256x256
  bcast_S_S64x4x256x256 : S_.BroadcastsInDim S64x4x256x256 (![] : Fin 0 → Fin S64x4x256x256.rank)
  dot_S256x64x4x512_S1536x512_S256x64x4x1536_3_1_012_0_n_n_wf : DotDims.WF S256x64x4x512 S1536x512 S256x64x4x1536 [3] [1] [0, 1, 2] [0] [] []
  dot_S2048x256x64_S2048x256x64_S2048x256x256_2_2_1_1_0_0_wf : DotDims.WF S2048x256x64 S2048x256x64 S2048x256x256 [2] [2] [1] [1] [0] [0]
  dot_S2048x256x256_S2048x256x64_S2048x256x64_2_1_1_2_0_0_wf : DotDims.WF S2048x256x256 S2048x256x64 S2048x256x64 [2] [1] [1] [2] [0] [0]
  dot_S256x64x4x512_S512x512_S256x64x4x512_3_1_012_0_n_n_wf : DotDims.WF S256x64x4x512 S512x512 S256x64x4x512 [3] [1] [0, 1, 2] [0] [] []

variable [Facts₀]

def dot_S256x64x4x512_S1536x512_S256x64x4x1536_3_1_012_0_n_n : DotDims S256x64x4x512 S1536x512 S256x64x4x1536 where
  lhsContracting := [3]
  rhsContracting := [1]
  lhsNonContracting := [0, 1, 2]
  rhsNonContracting := [0]
  lhsBatch := []
  rhsBatch := []
  wf := dot_S256x64x4x512_S1536x512_S256x64x4x1536_3_1_012_0_n_n_wf
def dot_S2048x256x64_S2048x256x64_S2048x256x256_2_2_1_1_0_0 : DotDims S2048x256x64 S2048x256x64 S2048x256x256 where
  lhsContracting := [2]
  rhsContracting := [2]
  lhsNonContracting := [1]
  rhsNonContracting := [1]
  lhsBatch := [0]
  rhsBatch := [0]
  wf := dot_S2048x256x64_S2048x256x64_S2048x256x256_2_2_1_1_0_0_wf
def dot_S2048x256x256_S2048x256x64_S2048x256x64_2_1_1_2_0_0 : DotDims S2048x256x256 S2048x256x64 S2048x256x64 where
  lhsContracting := [2]
  rhsContracting := [1]
  lhsNonContracting := [1]
  rhsNonContracting := [2]
  lhsBatch := [0]
  rhsBatch := [0]
  wf := dot_S2048x256x256_S2048x256x64_S2048x256x64_2_1_1_2_0_0_wf
def dot_S256x64x4x512_S512x512_S256x64x4x512_3_1_012_0_n_n : DotDims S256x64x4x512 S512x512 S256x64x4x512 where
  lhsContracting := [3]
  rhsContracting := [1]
  lhsNonContracting := [0, 1, 2]
  rhsNonContracting := [0]
  lhsBatch := []
  rhsBatch := []
  wf := dot_S256x64x4x512_S512x512_S256x64x4x512_3_1_012_0_n_n_wf

class Facts : Prop extends Facts₀ where

variable [Facts]
-- ==== Proof.KRegion0.lean ====
/-
  Region 0 of the program (the fused input projection, first pallas_call), stated at a PARAMETER V: the contents
  of the core's buffers when the region is entered. Nothing here depends on what V is; the run instantiates it.

  The region's pipeline has four windows over a grid of 64 row tiles:
    window 0  the activations [65536, 512], one tile of 1024 rows per point (fetched at every point);
    window 1  the transposed, scaled weight [512, 1536], whole (fetched once);
    window 2  the scaled bias [1536], whole (fetched once);
    window 3  the result [65536, 1536], one tile of 1024 rows per point (written back at every point).
  The body reads the three input buffers whole, reads the output buffer once (a value it never uses) and then
  overwrites the whole output buffer with ONE value: the payload of the three values read. So after the body
  the inputs' buffers are as found, and the output's buffer is that payload, whatever it held before.
-/
import proofs.«124428_j35424890257735_2_alg».proof.Proof.Gen.Kernel.Launch
import proofs.«124428_j35424890257735_2_alg».proof.Proof.Gen.Kernel.Skeleton
import proofs.«124428_j35424890257735_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers at the region's entry
variable (V : (c : Dev nD) → (b : Ref sig .tc) → Buf (Elt F) ((c : Thread nD τ).loc b))

/-! ## The blocks the windows show -/

/-- The block of window w at grid point t: the part of the window's array (as V has it) that the point's
    block index selects. For windows 1 and 2 this is the whole array at every point. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- When the body runs at point t, the staging buffer of input window 0 holds the window's block at t. This is
    so for any proof data whose array is V's and whose body leaves the block where it is: either the point
    fetches the block, or it does not and then the block index is the previous point's, whose block the body
    left in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1 (the weight, fetched at the first point only: at every later point the buffer
    still holds what the body left, which is the same whole array). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for input window 2 (the bias, fetched at the first point only). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is its whole buffer -/

abbrev r0_0 : Rect S1024x512 := Rect.unit (s := S1024x512) ![0, 0] S1024x512.size inb_S1024x512_S1024x512_0_0
abbrev r0_1 : Rect S512x1536 := Rect.unit (s := S512x1536) ![0, 0] S512x1536.size inb_S512x1536_S512x1536_0_0
abbrev r0_2 : Rect S1536 := Rect.unit (s := S1536) ![0] S1536.size inb_S1536_S1536_0
abbrev r0_3 : Rect S1024x1536 := Rect.unit (s := S1024x1536) ![0, 0] S1024x1536.size inb_S1024x1536_S1024x1536_0_0

/-! ## What the body leaves in the output window's buffer -/

/-- The output buffer after the body, as a function of the three input buffers: the single store, whose value
    is the payload of the three whole-buffer reads, laid over the buffer. -/
def out0_3 (x0 : Vec F S1024x512 .f32) (x1 : Vec F S512x1536 .bf16) (x2 : Vec F S1536 .f32) : Vec F S1024x1536 .bf16 :=
  View.canon [⟨r0_3, k0_pay1 (View.ld x0 r0_0) (View.ld x1 r0_1) (View.ld x2 r0_2)⟩]

/-- The single store's rectangle is the whole buffer, so every index of the buffer lies in it. -/
theorem cover0_3 (p0 : Vec F S1024x1536 .bf16) (y : S1024x1536.Idx) :
    ∃ pc ∈ ([⟨r0_3, p0⟩] : List (View.Piece (Elt F) S1024x1536 .bf16)), y ∈ pc.1.set :=
  View.cover_of_tiled [⟨r0_3, p0⟩] S1024x1536.size (by rfl) y

/-! ## The body's triple -/

set_option maxHeartbeats 1000000 in
/-- The body, run on whole staging buffers: the three inputs' at known contents x0 x1 x2, the output's at
    unknown contents. It reads the three inputs, reads the output buffer (the value is dropped), and stores the
    payload over the whole output buffer. It ends with the inputs' buffers unchanged and the output's at
    out0_3 x0 x1 x2: the unknown old contents are nowhere in the result because the store covers the buffer. -/
theorem sound_kernel0 (c : Dev nD) (E : Set ℕ) (i : grid0.Coords)
    (arg1 : Memref sig .tc .vmem S1024x512 .f32) (harg1 : arg1.IsWhole)
    (arg2 : Memref sig .tc .vmem S512x1536 .bf16) (harg2 : arg2.IsWhole)
    (arg3 : Memref sig .tc .vmem S1536 .f32) (harg3 : arg3.IsWhole)
    (arg4 : Memref sig .tc .vmem S1024x1536 .bf16) (harg4 : arg4.IsWhole)
    (x0 : Vec F S1024x512 .f32) (x1 : Vec F S512x1536 .bf16) (x2 : Vec F S1536 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__qkv_linear_kernel i arg1 harg1 arg2 harg2 arg3 harg3 arg4 harg4) K := by
  simp only [cc0__qkv_linear_kernel_eq_skeleton]; unfold cc0__qkv_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region's pipeline on core c. The arrays are what the region finds (V). After the body
    at point t each input window's buffer holds its block at t and the output window's buffer holds out0_3 of
    the three input blocks. The invariant carried from point to point is the one of a body that touches nothing
    else (the other scoped buffers at some contents, the generator register at some state); the core owes
    nothing; every share is the full one. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input window's staging buffer holds its block when the body runs, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a generic point -/

/-- What the body is called with at point t: the invariant, the core's debts (none), and each window's current
    staging buffer at what the pipeline has put there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it must hand back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point. The three input buffers hold their blocks, so the body's triple applies with those
    blocks as x0 x1 x2; the invariant and the debts are not touched and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KRegion1.lean ====
/-
  Region 1 of the kernel program: what its body leaves in the two output windows, as functions of the point's input
  blocks; the body's triple; the pipeline's proof data over them and the body obligation at every grid point.
-/
import proofs.«124428_j35424890257735_2_alg».proof.Proof.Gen.Kernel.Launch
import proofs.«124428_j35424890257735_2_alg».proof.Proof.Gen.Kernel.Skeleton
import proofs.«124428_j35424890257735_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the attention and output-projection call), at the entry contents `V`

One grid point per source index. The body reads the point's block of the projected activations (queries, keys and
values side by side along the last axis), the mask, the output weight and bias; for each of four chunks of two heads it
forms the chunk's attention weights and attended values, parks the attended values in a band of a scratch buffer and
adds the chunk's weights into a running head sum; it then stores the head average and the output projection of the
scratch, whose four bands together are rewritten at every point. -/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

abbrev rM : Rect S256x256 := Rect.unit (s := S256x256) ![0, 0] S256x256.size inb_S256x256_S256x256_0_0
abbrev rq0 : Rect S256x1x4x1536 := Rect.unit (s := S256x1x4x1536) ![0, 0, 0, 0] S256x1x4x128.size inb_S256x1x4x1536_S256x1x4x128_0_0_0_0
abbrev rk0 : Rect S256x1x4x1536 := Rect.unit (s := S256x1x4x1536) ![0, 0, 0, 512] S256x1x4x128.size inb_S256x1x4x1536_S256x1x4x128_0_0_0_512
abbrev rv0 : Rect S256x1x4x1536 := Rect.unit (s := S256x1x4x1536) ![0, 0, 0, 1024] S256x1x4x128.size inb_S256x1x4x1536_S256x1x4x128_0_0_0_1024
abbrev rq1 : Rect S256x1x4x1536 := Rect.unit (s := S256x1x4x1536) ![0, 0, 0, 128] S256x1x4x128.size inb_S256x1x4x1536_S256x1x4x128_0_0_0_128
abbrev rk1 : Rect S256x1x4x1536 := Rect.unit (s := S256x1x4x1536) ![0, 0, 0, 640] S256x1x4x128.size inb_S256x1x4x1536_S256x1x4x128_0_0_0_640
abbrev rv1 : Rect S256x1x4x1536 := Rect.unit (s := S256x1x4x1536) ![0, 0, 0, 1152] S256x1x4x128.size inb_S256x1x4x1536_S256x1x4x128_0_0_0_1152
abbrev rq2 : Rect S256x1x4x1536 := Rect.unit (s := S256x1x4x1536) ![0, 0, 0, 256] S256x1x4x128.size inb_S256x1x4x1536_S256x1x4x128_0_0_0_256
abbrev rk2 : Rect S256x1x4x1536 := Rect.unit (s := S256x1x4x1536) ![0, 0, 0, 768] S256x1x4x128.size inb_S256x1x4x1536_S256x1x4x128_0_0_0_768
abbrev rv2 : Rect S256x1x4x1536 := Rect.unit (s := S256x1x4x1536) ![0, 0, 0, 1280] S256x1x4x128.size inb_S256x1x4x1536_S256x1x4x128_0_0_0_1280
abbrev rq3 : Rect S256x1x4x1536 := Rect.unit (s := S256x1x4x1536) ![0, 0, 0, 384] S256x1x4x128.size inb_S256x1x4x1536_S256x1x4x128_0_0_0_384
abbrev rk3 : Rect S256x1x4x1536 := Rect.unit (s := S256x1x4x1536) ![0, 0, 0, 896] S256x1x4x128.size inb_S256x1x4x1536_S256x1x4x128_0_0_0_896
abbrev rv3 : Rect S256x1x4x1536 := Rect.unit (s := S256x1x4x1536) ![0, 0, 0, 1408] S256x1x4x128.size inb_S256x1x4x1536_S256x1x4x128_0_0_0_1408
abbrev rs0 : Rect S256x4x512 := Rect.unit (s := S256x4x512) ![0, 0, 0] S256x4x128.size inb_S256x4x512_S256x4x128_0_0_0
abbrev rs1 : Rect S256x4x512 := Rect.unit (s := S256x4x512) ![0, 0, 128] S256x4x128.size inb_S256x4x512_S256x4x128_0_0_128
abbrev rs2 : Rect S256x4x512 := Rect.unit (s := S256x4x512) ![0, 0, 256] S256x4x128.size inb_S256x4x512_S256x4x128_0_0_256
abbrev rs3 : Rect S256x4x512 := Rect.unit (s := S256x4x512) ![0, 0, 384] S256x4x128.size inb_S256x4x512_S256x4x128_0_0_384
abbrev rsW : Rect S256x4x512 := Rect.unit (s := S256x4x512) ![0, 0, 0] S256x4x512.size inb_S256x4x512_S256x4x512_0_0_0
abbrev rW : Rect S512x512 := Rect.unit (s := S512x512) ![0, 0] S512x512.size inb_S512x512_S512x512_0_0
abbrev rB : Rect S512 := Rect.unit (s := S512) ![0] S512.size inb_S512_S512_0
abbrev rO : Rect S256x1x4x512 := Rect.unit (s := S256x1x4x512) ![0, 0, 0, 0] S256x1x4x512.size inb_S256x1x4x512_S256x1x4x512_0_0_0_0
abbrev rT : Rect S1x4x256x256 := Rect.unit (s := S1x4x256x256) ![0, 0, 0, 0] S1x4x256x256.size inb_S1x4x256x256_S1x4x256x256_0_0_0_0

/-! ## What the body computes, from the projected block `x0` and the mask `x1` -/

/-- Chunk `c`'s attention weights (two heads, all four batch entries). -/
def pr0 (x0 : Vec F S256x1x4x1536 .bf16) (x1 : Vec F S256x256 .f32) : FVec F S8x256x256 .f32 := k1_pay5 (View.ld x1 rM) (View.ld x0 rq0) (View.ld x0 rk0)
def pr1 (x0 : Vec F S256x1x4x1536 .bf16) (x1 : Vec F S256x256 .f32) : FVec F S8x256x256 .f32 := k1_pay9 (View.ld x1 rM) (View.ld x0 rq1) (View.ld x0 rk1)
def pr2 (x0 : Vec F S256x1x4x1536 .bf16) (x1 : Vec F S256x256 .f32) : FVec F S8x256x256 .f32 := k1_pay13 (View.ld x1 rM) (View.ld x0 rq2) (View.ld x0 rk2)
def pr3 (x0 : Vec F S256x1x4x1536 .bf16) (x1 : Vec F S256x256 .f32) : FVec F S8x256x256 .f32 := k1_pay17 (View.ld x1 rM) (View.ld x0 rq3) (View.ld x0 rk3)
/-- Chunk `c`'s attended values, as the band of 128 channels it fills. -/
def at0 (x0 : Vec F S256x1x4x1536 .bf16) (x1 : Vec F S256x256 .f32) : FVec F S256x4x128 .bf16 := k1_pay6 (View.ld x1 rM) (View.ld x0 rq0) (View.ld x0 rk0) (View.ld x0 rv0)
def at1 (x0 : Vec F S256x1x4x1536 .bf16) (x1 : Vec F S256x256 .f32) : FVec F S256x4x128 .bf16 := k1_pay10 (View.ld x1 rM) (View.ld x0 rq1) (View.ld x0 rk1) (View.ld x0 rv1)
def at2 (x0 : Vec F S256x1x4x1536 .bf16) (x1 : Vec F S256x256 .f32) : FVec F S256x4x128 .bf16 := k1_pay14 (View.ld x1 rM) (View.ld x0 rq2) (View.ld x0 rk2) (View.ld x0 rv2)
def at3 (x0 : Vec F S256x1x4x1536 .bf16) (x1 : Vec F S256x256 .f32) : FVec F S256x4x128 .bf16 := k1_pay18 (View.ld x1 rM) (View.ld x0 rq3) (View.ld x0 rk3) (View.ld x0 rv3)
/-- The running head sum after the first three chunks. -/
def hs3 (x0 : Vec F S256x1x4x1536 .bf16) (x1 : Vec F S256x256 .f32) : FVec F S4x256x256 .f32 :=
  k1_pay16 (k1_pay12 (k1_pay8 k1_pay4 (pr0 x0 x1)) (pr1 x0 x1)) (pr2 x0 x1)
/-- The scratch after the four band stores, last store first. -/
def scr (x0 : Vec F S256x1x4x1536 .bf16) (x1 : Vec F S256x256 .f32) : Vec F S256x4x512 .bf16 :=
  View.canon [⟨rs3, k1_pay1 (at3 x0 x1)⟩, ⟨rs2, k1_pay15 (at2 x0 x1)⟩, ⟨rs1, k1_pay11 (at1 x0 x1)⟩, ⟨rs0, k1_pay7 (at0 x0 x1)⟩]

/-! ## What the body leaves in each output window's buffer -/

/-- Window 5 (the head-averaged weights) after the body: its one store. -/
def out1_5 (x0 : Vec F S256x1x4x1536 .bf16) (x1 : Vec F S256x256 .f32) : Vec F S1x4x256x256 .f32 :=
  View.canon [⟨rT, k1_pay2 (hs3 x0 x1) (pr3 x0 x1)⟩]
/-- Window 4 (the projected output) after the body: its one store, of the scratch's projection. -/
def out1_4 (x0 : Vec F S256x1x4x1536 .bf16) (x1 : Vec F S256x256 .f32) (x2 : Vec F S512x512 .bf16) (x3 : Vec F S512 .f32) : Vec F S256x1x4x512 .f32 :=
  View.canon [⟨rO, k1_pay3 (View.ld (scr x0 x1) rsW) (View.ld x2 rW) (View.ld x3 rB)⟩]

/-! ## The pipeline's proof data -/

/-- The proof data of pipeline 1 on core `c`: the arrays as the region finds them; after the body at point `t` each
    input's buffer at its block, each output's at the body's result on the input blocks; the invariant the class's
    (the scoped rest — the scratch among it, at some contents — and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) := by dsimp only [dat1]

/-! ## The input windows hold their blocks -/

/-- An input window's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body's triple -/

/-- Each output's one store fills its buffer. -/
theorem cover1_4 (p0 : Vec F S256x1x4x512 .f32) (y : S256x1x4x512.Idx) :
    ∃ pc ∈ ([⟨rO, p0⟩] : List (View.Piece (Elt F) S256x1x4x512 .f32)), y ∈ pc.1.set :=
  View.cover_of_tiled [⟨rO, p0⟩] S256x1x4x512.size (by rfl) y
theorem cover1_5 (p0 : Vec F S1x4x256x256 .f32) (y : S1x4x256x256.Idx) :
    ∃ pc ∈ ([⟨rT, p0⟩] : List (View.Piece (Elt F) S1x4x256x256 .f32)), y ∈ pc.1.set :=
  View.cover_of_tiled [⟨rT, p0⟩] S1x4x256x256.size (by rfl) y

set_option maxHeartbeats 1000000 in
/-- The body on whole staging memrefs — the four inputs' at read contents `x0 … x3`, the two outputs' and the scratch at
    anything — runs to the continuation holding the inputs' as they were, each output's at its function of the inputs',
    and the scratch at something: the whole-scratch load after the four band stores reads the bands back. -/
theorem sound_kernel1 (c : Dev nD) (E : Set ℕ) (i : grid1.Coords)
    (arg1 : Memref sig .tc .vmem S256x1x4x1536 .bf16) (harg1 : arg1.IsWhole) (arg2 : Memref sig .tc .vmem S256x256 .f32) (harg2 : arg2.IsWhole)
    (arg3 : Memref sig .tc .vmem S512x512 .bf16) (harg3 : arg3.IsWhole) (arg4 : Memref sig .tc .vmem S512 .f32) (harg4 : arg4.IsWhole)
    (arg5 : Memref sig .tc .vmem S256x1x4x512 .f32) (harg5 : arg5.IsWhole) (arg6 : Memref sig .tc .vmem S1x4x256x256 .f32) (harg6 : arg6.IsWhole)
    (arg7 : Memref sig .tc .vmem S256x4x512 .bf16) (harg7 : arg7.IsWhole)
    (x0 : Vec F S256x1x4x1536 .bf16) (x1 : Vec F S256x256 .f32) (x2 : Vec F S512x512 .bf16) (x3 : Vec F S512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)
            ∗ owns (c : Thread nD τ) arg6 fullShare (out1_5 x0 x1) ∗ (∃ d, owns (c : Thread nD τ) arg7 fullShare d)) -∗ K ⟨⟩))
      ⊢ wp frame (wpE (defs₀ (F := F)) Variants.none c none) E (cc1_kernel i arg1 harg1 arg2 harg2 arg3 harg3 arg4 harg4 arg5 harg5 arg6 harg6 arg7 harg7) K := by
  simp only [cc1_kernel_eq_skeleton]; unfold cc1_kernel_skel
  simp only [k1_part1_eq_skeleton, k1_part2_eq_skeleton, k1_part3_eq_skeleton, k1_part4_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover1_4 _), View.readCov_eq_canon']
    rfl
  isplitl [H5]
  · iexists _; isplitr
    swap; · iexact H5
    ipureintro
    rw [View.read_writes_eq_canon _ _ _ (cover1_5 _)]
    rfl
  iexists _; iexists _; isplitr
  swap; · iexact H6
  ipureintro; rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The class invariant with the scratch as a whole memref owned at some contents: what the body borrows and returns. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg3_0), ((c : Thread nD τ).loc cc0_stg3_0) ↦{fullShare} f)
          ∗ (∃ f : Buf (Elt F) ((c : Thread nD τ).loc cc0_stg3_1), ((c : Thread nD τ).loc cc0_stg3_1) ↦{fullShare} f)
          ∗ (∃ d, owns (c : Thread nD τ) (Memref.whole cc1_scratch0 : Memref sig .tc .vmem S256x4x512 .bf16) fullShare d))
        ∗ (∃ r, prngReg c r)) := by
  unfold Pipeline.ΦA; rw [scopedRest1_eq]; simp only [owns_whole]; try rfl

/-- The body at any point: the inputs' memrefs hold their blocks, the scratch comes out of the invariant and goes back
    into it, the rest of the invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5,
    show (dat1 V c).Φ t.castSucc = Pipeline.ΦA spec1 c from rfl, PhiA1_eq]
  iintro ⟨⟨⟨Hs0, Hs1, Hs2, Hs3, Hs4, Hs5, Hscr⟩, Hp⟩, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [Hscr]; · iexact Hscr
  iintro ⟨H0, H1, H2, H3, H4, H5, Hscr⟩
  isplitl [Hs0 Hs1 Hs2 Hs3 Hs4 Hs5 Hscr Hp]
  · isplitr [Hp]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hscr
    iexact Hp
  isplitl [Ho]; · iexact Ho
  isplitl [H0]; · iexact H0
  isplitl [H1]; · iexact H1
  isplitl [H2]; · iexact H2
  isplitl [H3]; · iexact H3
  isplitl [H4]; · iexact H4
  iexact H5

/-- The body obligation, at every point of the grid. -/
theorem body_obligation1 (c : Dev nD) : BodyObligation (dat1 (F := F) V c) (defs₀ (F := F)) Variants.none () Set.univ := fun t => by
  rw [bigSep_W1, bigSep_W1]
  exact sound_body1 V c t

end Region1

end Cert.Kernel.Fr

end
-- ==== Proof.KRun.lean ====
/-
  The run of the whole program on the TensorCores: @main is four segments in order,
      17 host operations ; region 0 ; 3 host operations ; region 1,
  and between two segments every buffer of the core that is not scoped to a region holds known contents. Those
  contents are a fold from the launch memory: a stretch of host operations changes exactly what its operations
  compute; a region changes exactly its windows' arrays, to what its pipeline leaves in them (an input's array
  stays, an output's array receives the body's results block by block). The launch theorem for a list of such
  segments then gives: every weakly fair execution terminates without a fault, and at the end every such buffer
  holds the last boundary's contents. The six argument arrays are not written by anything on the way, so the
  fold at an argument walks back to the launch memory.
-/
import proofs.«124428_j35424890257735_2_alg».proof.Proof.KRegion0
import proofs.«124428_j35424890257735_2_alg».proof.Proof.KRegion1
import proofs.«124428_j35424890257735_2_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between segments -/

/-- Core c's buffers at launch. -/
abbrev W0 : Dev nD → Valuation τ sig (Elt F) := fun c b => (s₀ m ρ).mem ((c : Dev nD), b)
/-- After the first stretch of host operations: what region 0 is entered from. -/
abbrev W1 : Dev nD → Valuation τ sig (Elt F) := fun c => StableHlo.after hostOps0 (W0 m ρ c)
/-- The same contents, read at the core's own references (the form a region's proof data take). -/
abbrev V1 : (c : Dev nD) → (b : Ref sig .tc) → Buf (Elt F) ((c : Thread nD τ).loc b) := fun c b => W1 m ρ c b
/-- At region 0's exit: each of its windows' arrays at what the pipeline leaves after the last point (an input's
    array as entered; the output's array with every point's block written back), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
/-- The exit contents agree with the pipeline on the region's arrays, and with the entry contents elsewhere. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations: what region 1 is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit, which is the end of the program: its windows' arrays at what its pipeline leaves, every
    other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched

No host operation writes an argument (each writes a fresh intermediate), region 0 has no argument among its
windows, and region 1 has two (the mask and the output bias) but only as INPUT windows, whose arrays a pipeline
leaves as entered. So the fold, read at an argument, is the launch memory. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 3).trans (((dat1 (V3 m ρ) c).arrAt_in 3 rfl _).trans (A_eq1 (V3 m ρ) c 3))
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 1).trans (((dat1 (V3 m ρ) c).arrAt_in 1 rfl _).trans (A_eq1 (V3 m ρ) c 1))
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-! ## The proof data of both pipelines, and what the thread carries between segments -/

/-- Neither pipeline has a prefetched table. -/
abbrev adm : (p : Fin 2) → (pcfgs (F := F) p).Adm := fun p => (cfgs p).toPCfg_adm
/-- Each pipeline's proof data, at its own region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core ever owes another a signal here, so no semaphore carries a level. -/
abbrev L : GSem nD τ sig → Finset Unit := fun _ => ∅
abbrev lv : GSem nD τ sig → Unit → ℕ := fun _ _ => 0
/-- Beside the buffers, the thread carries its generator register (at some state: a region's invariant takes
    it and returns it) and the record that it owes nothing. -/
abbrev R (c : Dev nD) : sProp 𝕄 := iprop((∃ r, prngReg c r) ∗ ∃ W, owes (c : Thread nD τ) (0 : CellTallies nD τ sig Unit) W)
/-- A stretch of host operations as a segment: from the unscoped buffers at W to the same buffers at what the
    operations make of W, R riding along untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A reference of the core that is not scoped to a region is among the buffers the thread holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The thread's state at the end, without the debt record: every unscoped buffer at the last boundary's
    contents, the generator register at some state. -/
abbrev Tₙ (c : Dev nD) : sProp 𝕄 := iprop(StableHlo.held (c : Thread nD τ) (Pipeline.ucRefs τ sig) (W4 m ρ c) ∗ ∃ r, prngReg c r)

/-! ## The two regions as segments

A region is entered from the thread's state: its windows' arrays are split off the unscoped buffers, the
generator register goes into the region's invariant, the other unscoped buffers wait outside. At the exit the
arrays come back at what the pipeline left, are put together with the buffers that waited, and this is the next
boundary's contents by the two facts above (hF, hrest). Nothing is owed, and the kernel has no semaphore of
its own. -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the four segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the four segments: the printed sequence is the chain of its items, and the segments' run
    is that chain. -/
theorem main_run (c : Dev nD) : main (F := F) c = Pipeline.Seg.run (segs m ρ) := (main_chain c).trans (by chain_rfl)

set_option backward.isDefEq.respectTransparency.types false in
/-- THE RUN. From any memory with every semaphore at zero, every weakly fair execution of @main on the
    TensorCores terminates without a fault, and in the final state every unscoped buffer of every core holds the
    last boundary's contents W4. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the program runs and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs (onTc (τ := τ) (main (F := F))) ⟨m, fun _ => 0, ρ⟩).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.Kernel.Fr

end
-- ==== Proof.Region0.lean ====
/-
  Region 0 of the program (the fused input projection, first pallas_call), stated at a PARAMETER V: the contents
  of the core's buffers when the region is entered. Nothing here depends on what V is; the run instantiates it.

  The region's pipeline has four windows over a grid of 64 row tiles:
    window 0  the activations [65536, 512], one tile of 1024 rows per point (fetched at every point);
    window 1  the transposed, scaled weight [512, 1536], whole (fetched once);
    window 2  the scaled bias [1536], whole (fetched once);
    window 3  the result [65536, 1536], one tile of 1024 rows per point (written back at every point).
  The body reads the three input buffers whole, reads the output buffer once (a value it never uses) and then
  overwrites the whole output buffer with ONE value: the payload of the three values read. So after the body
  the inputs' buffers are as found, and the output's buffer is that payload, whatever it held before.
-/
import proofs.«124428_j35424890257735_2_alg».proof.Proof.Gen.KernelIdeal.Launch
import proofs.«124428_j35424890257735_2_alg».proof.Proof.Gen.KernelIdeal.Skeleton
import proofs.«124428_j35424890257735_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers at the region's entry
variable (V : (c : Dev nD) → (b : Ref sig .tc) → Buf (Elt F) ((c : Thread nD τ).loc b))

/-! ## The blocks the windows show -/

/-- The block of window w at grid point t: the part of the window's array (as V has it) that the point's
    block index selects. For windows 1 and 2 this is the whole array at every point. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- When the body runs at point t, the staging buffer of input window 0 holds the window's block at t. This is
    so for any proof data whose array is V's and whose body leaves the block where it is: either the point
    fetches the block, or it does not and then the block index is the previous point's, whose block the body
    left in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1 (the weight, fetched at the first point only: at every later point the buffer
    still holds what the body left, which is the same whole array). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for input window 2 (the bias, fetched at the first point only). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each is its whole buffer -/

abbrev r0_0 : Rect S1024x512 := Rect.unit (s := S1024x512) ![0, 0] S1024x512.size inb_S1024x512_S1024x512_0_0
abbrev r0_1 : Rect S512x1536 := Rect.unit (s := S512x1536) ![0, 0] S512x1536.size inb_S512x1536_S512x1536_0_0
abbrev r0_2 : Rect S1536 := Rect.unit (s := S1536) ![0] S1536.size inb_S1536_S1536_0
abbrev r0_3 : Rect S1024x1536 := Rect.unit (s := S1024x1536) ![0, 0] S1024x1536.size inb_S1024x1536_S1024x1536_0_0

/-! ## What the body leaves in the output window's buffer -/

/-- The output buffer after the body, as a function of the three input buffers: the single store, whose value
    is the payload of the three whole-buffer reads, laid over the buffer. -/
def out0_3 (x0 : Vec F S1024x512 .f32) (x1 : Vec F S512x1536 .bf16) (x2 : Vec F S1536 .f32) : Vec F S1024x1536 .bf16 :=
  View.canon [⟨r0_3, k0_pay1 (View.ld x0 r0_0) (View.ld x1 r0_1) (View.ld x2 r0_2)⟩]

/-- The single store's rectangle is the whole buffer, so every index of the buffer lies in it. -/
theorem cover0_3 (p0 : Vec F S1024x1536 .bf16) (y : S1024x1536.Idx) :
    ∃ pc ∈ ([⟨r0_3, p0⟩] : List (View.Piece (Elt F) S1024x1536 .bf16)), y ∈ pc.1.set :=
  View.cover_of_tiled [⟨r0_3, p0⟩] S1024x1536.size (by rfl) y

/-! ## The body's triple -/

set_option maxHeartbeats 1000000 in
/-- The body, run on whole staging buffers: the three inputs' at known contents x0 x1 x2, the output's at
    unknown contents. It reads the three inputs, reads the output buffer (the value is dropped), and stores the
    payload over the whole output buffer. It ends with the inputs' buffers unchanged and the output's at
    out0_3 x0 x1 x2: the unknown old contents are nowhere in the result because the store covers the buffer. -/
theorem sound_kernel0 (c : Dev nD) (E : Set ℕ) (i : grid0.Coords)
    (arg1 : Memref sig .tc .vmem S1024x512 .f32) (harg1 : arg1.IsWhole)
    (arg2 : Memref sig .tc .vmem S512x1536 .bf16) (harg2 : arg2.IsWhole)
    (arg3 : Memref sig .tc .vmem S1536 .f32) (harg3 : arg3.IsWhole)
    (arg4 : Memref sig .tc .vmem S1024x1536 .bf16) (harg4 : arg4.IsWhole)
    (x0 : Vec F S1024x512 .f32) (x1 : Vec F S512x1536 .bf16) (x2 : Vec F S1536 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__qkv_linear_kernel i arg1 harg1 arg2 harg2 arg3 harg3 arg4 harg4) K := by
  simp only [cc0__qkv_linear_kernel_eq_skeleton]; unfold cc0__qkv_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the region's pipeline on core c. The arrays are what the region finds (V). After the body
    at point t each input window's buffer holds its block at t and the output window's buffer holds out0_3 of
    the three input blocks. The invariant carried from point to point is the one of a body that touches nothing
    else (the other scoped buffers at some contents, the generator register at some state); the core owes
    nothing; every share is the full one. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input window's staging buffer holds its block when the body runs, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a generic point -/

/-- What the body is called with at point t: the invariant, the core's debts (none), and each window's current
    staging buffer at what the pipeline has put there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it must hand back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point. The three input buffers hold their blocks, so the body's triple applies with those
    blocks as x0 x1 x2; the invariant and the debts are not touched and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.Region1.lean ====
/-
  Region 1 of the kernel program: what its body leaves in the two output windows, as functions of the point's input
  blocks; the body's triple; the pipeline's proof data over them and the body obligation at every grid point.
-/
import proofs.«124428_j35424890257735_2_alg».proof.Proof.Gen.KernelIdeal.Launch
import proofs.«124428_j35424890257735_2_alg».proof.Proof.Gen.KernelIdeal.Skeleton
import proofs.«124428_j35424890257735_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1 (the attention and output-projection call), at the entry contents `V`

One grid point per source index. The body reads the point's block of the projected activations (queries, keys and
values side by side along the last axis), the mask, the output weight and bias; for each of four chunks of two heads it
forms the chunk's attention weights and attended values, parks the attended values in a band of a scratch buffer and
adds the chunk's weights into a running head sum; it then stores the head average and the output projection of the
scratch, whose four bands together are rewritten at every point. -/

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

abbrev rM : Rect S256x256 := Rect.unit (s := S256x256) ![0, 0] S256x256.size inb_S256x256_S256x256_0_0
abbrev rq0 : Rect S256x1x4x1536 := Rect.unit (s := S256x1x4x1536) ![0, 0, 0, 0] S256x1x4x128.size inb_S256x1x4x1536_S256x1x4x128_0_0_0_0
abbrev rk0 : Rect S256x1x4x1536 := Rect.unit (s := S256x1x4x1536) ![0, 0, 0, 512] S256x1x4x128.size inb_S256x1x4x1536_S256x1x4x128_0_0_0_512
abbrev rv0 : Rect S256x1x4x1536 := Rect.unit (s := S256x1x4x1536) ![0, 0, 0, 1024] S256x1x4x128.size inb_S256x1x4x1536_S256x1x4x128_0_0_0_1024
abbrev rq1 : Rect S256x1x4x1536 := Rect.unit (s := S256x1x4x1536) ![0, 0, 0, 128] S256x1x4x128.size inb_S256x1x4x1536_S256x1x4x128_0_0_0_128
abbrev rk1 : Rect S256x1x4x1536 := Rect.unit (s := S256x1x4x1536) ![0, 0, 0, 640] S256x1x4x128.size inb_S256x1x4x1536_S256x1x4x128_0_0_0_640
abbrev rv1 : Rect S256x1x4x1536 := Rect.unit (s := S256x1x4x1536) ![0, 0, 0, 1152] S256x1x4x128.size inb_S256x1x4x1536_S256x1x4x128_0_0_0_1152
abbrev rq2 : Rect S256x1x4x1536 := Rect.unit (s := S256x1x4x1536) ![0, 0, 0, 256] S256x1x4x128.size inb_S256x1x4x1536_S256x1x4x128_0_0_0_256
abbrev rk2 : Rect S256x1x4x1536 := Rect.unit (s := S256x1x4x1536) ![0, 0, 0, 768] S256x1x4x128.size inb_S256x1x4x1536_S256x1x4x128_0_0_0_768
abbrev rv2 : Rect S256x1x4x1536 := Rect.unit (s := S256x1x4x1536) ![0, 0, 0, 1280] S256x1x4x128.size inb_S256x1x4x1536_S256x1x4x128_0_0_0_1280
abbrev rq3 : Rect S256x1x4x1536 := Rect.unit (s := S256x1x4x1536) ![0, 0, 0, 384] S256x1x4x128.size inb_S256x1x4x1536_S256x1x4x128_0_0_0_384
abbrev rk3 : Rect S256x1x4x1536 := Rect.unit (s := S256x1x4x1536) ![0, 0, 0, 896] S256x1x4x128.size inb_S256x1x4x1536_S256x1x4x128_0_0_0_896
abbrev rv3 : Rect S256x1x4x1536 := Rect.unit (s := S256x1x4x1536) ![0, 0, 0, 1408] S256x1x4x128.size inb_S256x1x4x1536_S256x1x4x128_0_0_0_1408
abbrev rs0 : Rect S256x4x512 := Rect.unit (s := S256x4x512) ![0, 0, 0] S256x4x128.size inb_S256x4x512_S256x4x128_0_0_0
abbrev rs1 : Rect S256x4x512 := Rect.unit (s := S256x4x512) ![0, 0, 128] S256x4x128.size inb_S256x4x512_S256x4x128_0_0_128
abbrev rs2 : Rect S256x4x512 := Rect.unit (s := S256x4x512) ![0, 0, 256] S256x4x128.size inb_S256x4x512_S256x4x128_0_0_256
abbrev rs3 : Rect S256x4x512 := Rect.unit (s := S256x4x512) ![0, 0, 384] S256x4x128.size inb_S256x4x512_S256x4x128_0_0_384
abbrev rsW : Rect S256x4x512 := Rect.unit (s := S256x4x512) ![0, 0, 0] S256x4x512.size inb_S256x4x512_S256x4x512_0_0_0
abbrev rW : Rect S512x512 := Rect.unit (s := S512x512) ![0, 0] S512x512.size inb_S512x512_S512x512_0_0
abbrev rB : Rect S512 := Rect.unit (s := S512) ![0] S512.size inb_S512_S512_0
abbrev rO : Rect S256x1x4x512 := Rect.unit (s := S256x1x4x512) ![0, 0, 0, 0] S256x1x4x512.size inb_S256x1x4x512_S256x1x4x512_0_0_0_0
abbrev rT : Rect S1x4x256x256 := Rect.unit (s := S1x4x256x256) ![0, 0, 0, 0] S1x4x256x256.size inb_S1x4x256x256_S1x4x256x256_0_0_0_0

/-! ## What the body computes, from the projected block `x0` and the mask `x1` -/

/-- Chunk `c`'s attention weights (two heads, all four batch entries). -/
def pr0 (x0 : Vec F S256x1x4x1536 .bf16) (x1 : Vec F S256x256 .f32) : FVec F S8x256x256 .f32 := k1_pay5 (View.ld x1 rM) (View.ld x0 rq0) (View.ld x0 rk0)
def pr1 (x0 : Vec F S256x1x4x1536 .bf16) (x1 : Vec F S256x256 .f32) : FVec F S8x256x256 .f32 := k1_pay9 (View.ld x1 rM) (View.ld x0 rq1) (View.ld x0 rk1)
def pr2 (x0 : Vec F S256x1x4x1536 .bf16) (x1 : Vec F S256x256 .f32) : FVec F S8x256x256 .f32 := k1_pay13 (View.ld x1 rM) (View.ld x0 rq2) (View.ld x0 rk2)
def pr3 (x0 : Vec F S256x1x4x1536 .bf16) (x1 : Vec F S256x256 .f32) : FVec F S8x256x256 .f32 := k1_pay17 (View.ld x1 rM) (View.ld x0 rq3) (View.ld x0 rk3)
/-- Chunk `c`'s attended values, as the band of 128 channels it fills. -/
def at0 (x0 : Vec F S256x1x4x1536 .bf16) (x1 : Vec F S256x256 .f32) : FVec F S256x4x128 .bf16 := k1_pay6 (View.ld x1 rM) (View.ld x0 rq0) (View.ld x0 rk0) (View.ld x0 rv0)
def at1 (x0 : Vec F S256x1x4x1536 .bf16) (x1 : Vec F S256x256 .f32) : FVec F S256x4x128 .bf16 := k1_pay10 (View.ld x1 rM) (View.ld x0 rq1) (View.ld x0 rk1) (View.ld x0 rv1)
def at2 (x0 : Vec F S256x1x4x1536 .bf16) (x1 : Vec F S256x256 .f32) : FVec F S256x4x128 .bf16 := k1_pay14 (View.ld x1 rM) (View.ld x0 rq2) (View.ld x0 rk2) (View.ld x0 rv2)
def at3 (x0 : Vec F S256x1x4x1536 .bf16) (x1 : Vec F S256x256 .f32) : FVec F S256x4x128 .bf16 := k1_pay18 (View.ld x1 rM) (View.ld x0 rq3) (View.ld x0 rk3) (View.ld x0 rv3)
/-- The running head sum after the first three chunks. -/
def hs3 (x0 : Vec F S256x1x4x1536 .bf16) (x1 : Vec F S256x256 .f32) : FVec F S4x256x256 .f32 :=
  k1_pay16 (k1_pay12 (k1_pay8 k1_pay4 (pr0 x0 x1)) (pr1 x0 x1)) (pr2 x0 x1)
/-- The scratch after the four band stores, last store first. -/
def scr (x0 : Vec F S256x1x4x1536 .bf16) (x1 : Vec F S256x256 .f32) : Vec F S256x4x512 .bf16 :=
  View.canon [⟨rs3, k1_pay1 (at3 x0 x1)⟩, ⟨rs2, k1_pay15 (at2 x0 x1)⟩, ⟨rs1, k1_pay11 (at1 x0 x1)⟩, ⟨rs0, k1_pay7 (at0 x0 x1)⟩]

/-! ## What the body leaves in each output window's buffer -/

/-- Window 5 (the head-averaged weights) after the body: its one store. -/
def out1_5 (x0 : Vec F S256x1x4x1536 .bf16) (x1 : Vec F S256x256 .f32) : Vec F S1x4x256x256 .f32 :=
  View.canon [⟨rT, k1_pay2 (hs3 x0 x1) (pr3 x0 x1)⟩]
/-- Window 4 (the projected output) after the body: its one store, of the scratch's projection. -/
def out1_4 (x0 : Vec F S256x1x4x1536 .bf16) (x1 : Vec F S256x256 .f32) (x2 : Vec F S512x512 .bf16) (x3 : Vec F S512 .f32) : Vec F S256x1x4x512 .f32 :=
  View.canon [⟨rO, k1_pay3 (View.ld (scr x0 x1) rsW) (View.ld x2 rW) (View.ld x3 rB)⟩]

/-! ## The pipeline's proof data -/

/-- The proof data of pipeline 1 on core `c`: the arrays as the region finds them; after the body at point `t` each
    input's buffer at its block, each output's at the body's result on the input blocks; the invariant the class's
    (the scoped rest — the scratch among it, at some contents — and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) := by dsimp only [dat1]

/-! ## The input windows hold their blocks -/

/-- An input window's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body's triple -/

/-- Each output's one store fills its buffer. -/
theorem cover1_4 (p0 : Vec F S256x1x4x512 .f32) (y : S256x1x4x512.Idx) :
    ∃ pc ∈ ([⟨rO, p0⟩] : List (View.Piece (Elt F) S256x1x4x512 .f32)), y ∈ pc.1.set :=
  View.cover_of_tiled [⟨rO, p0⟩] S256x1x4x512.size (by rfl) y
theorem cover1_5 (p0 : Vec F S1x4x256x256 .f32) (y : S1x4x256x256.Idx) :
    ∃ pc ∈ ([⟨rT, p0⟩] : List (View.Piece (Elt F) S1x4x256x256 .f32)), y ∈ pc.1.set :=
  View.cover_of_tiled [⟨rT, p0⟩] S1x4x256x256.size (by rfl) y

set_option maxHeartbeats 1000000 in
/-- The body on whole staging memrefs — the four inputs' at read contents `x0 … x3`, the two outputs' and the scratch at
    anything — runs to the continuation holding the inputs' as they were, each output's at its function of the inputs',
    and the scratch at something: the whole-scratch load after the four band stores reads the bands back. -/
theorem sound_kernel1 (c : Dev nD) (E : Set ℕ) (i : grid1.Coords)
    (arg1 : Memref sig .tc .vmem S256x1x4x1536 .bf16) (harg1 : arg1.IsWhole) (arg2 : Memref sig .tc .vmem S256x256 .f32) (harg2 : arg2.IsWhole)
    (arg3 : Memref sig .tc .vmem S512x512 .bf16) (harg3 : arg3.IsWhole) (arg4 : Memref sig .tc .vmem S512 .f32) (harg4 : arg4.IsWhole)
    (arg5 : Memref sig .tc .vmem S256x1x4x512 .f32) (harg5 : arg5.IsWhole) (arg6 : Memref sig .tc .vmem S1x4x256x256 .f32) (harg6 : arg6.IsWhole)
    (arg7 : Memref sig .tc .vmem S256x4x512 .bf16) (harg7 : arg7.IsWhole)
    (x0 : Vec F S256x1x4x1536 .bf16) (x1 : Vec F S256x256 .f32) (x2 : Vec F S512x512 .bf16) (x3 : Vec F S512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)
            ∗ owns (c : Thread nD τ) arg6 fullShare (out1_5 x0 x1) ∗ (∃ d, owns (c : Thread nD τ) arg7 fullShare d)) -∗ K ⟨⟩))
      ⊢ wp frame (wpE (defs₀ (F := F)) Variants.none c none) E (cc1_kernel i arg1 harg1 arg2 harg2 arg3 harg3 arg4 harg4 arg5 harg5 arg6 harg6 arg7 harg7) K := by
  simp only [cc1_kernel_eq_skeleton]; unfold cc1_kernel_skel
  simp only [k1_part1_eq_skeleton, k1_part2_eq_skeleton, k1_part3_eq_skeleton, k1_part4_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  sl_unfold_run_names
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover1_4 _), View.readCov_eq_canon']
    rfl
  isplitl [H5]
  · iexists _; isplitr
    swap; · iexact H5
    ipureintro
    rw [View.read_writes_eq_canon _ _ _ (cover1_5 _)]
    rfl
  iexists _; iexists _; isplitr
  swap; · iexact H6
  ipureintro; rfl

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The class invariant with the scratch as a whole memref owned at some contents: what the body borrows and returns. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg3_0), ((c : Thread nD τ).loc cc0_stg3_0) ↦{fullShare} f)
          ∗ (∃ f : Buf (Elt F) ((c : Thread nD τ).loc cc0_stg3_1), ((c : Thread nD τ).loc cc0_stg3_1) ↦{fullShare} f)
          ∗ (∃ d, owns (c : Thread nD τ) (Memref.whole cc1_scratch0 : Memref sig .tc .vmem S256x4x512 .bf16) fullShare d))
        ∗ (∃ r, prngReg c r)) := by
  unfold Pipeline.ΦA; rw [scopedRest1_eq]; simp only [owns_whole]; try rfl

/-- The body at any point: the inputs' memrefs hold their blocks, the scratch comes out of the invariant and goes back
    into it, the rest of the invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5,
    show (dat1 V c).Φ t.castSucc = Pipeline.ΦA spec1 c from rfl, PhiA1_eq]
  iintro ⟨⟨⟨Hs0, Hs1, Hs2, Hs3, Hs4, Hs5, Hscr⟩, Hp⟩, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [Hscr]; · iexact Hscr
  iintro ⟨H0, H1, H2, H3, H4, H5, Hscr⟩
  isplitl [Hs0 Hs1 Hs2 Hs3 Hs4 Hs5 Hscr Hp]
  · isplitr [Hp]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hscr
    iexact Hp
  isplitl [Ho]; · iexact Ho
  isplitl [H0]; · iexact H0
  isplitl [H1]; · iexact H1
  isplitl [H2]; · iexact H2
  isplitl [H3]; · iexact H3
  isplitl [H4]; · iexact H4
  iexact H5

/-- The body obligation, at every point of the grid. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Fr

end
-- ==== Proof.Run.lean ====
/-
  The run of the whole program on the TensorCores: @main is four segments in order,
      17 host operations ; region 0 ; 3 host operations ; region 1,
  and between two segments every buffer of the core that is not scoped to a region holds known contents. Those
  contents are a fold from the launch memory: a stretch of host operations changes exactly what its operations
  compute; a region changes exactly its windows' arrays, to what its pipeline leaves in them (an input's array
  stays, an output's array receives the body's results block by block). The launch theorem for a list of such
  segments then gives: every weakly fair execution terminates without a fault, and at the end every such buffer
  holds the last boundary's contents. The six argument arrays are not written by anything on the way, so the
  fold at an argument walks back to the launch memory.
-/
import proofs.«124428_j35424890257735_2_alg».proof.Proof.Region0
import proofs.«124428_j35424890257735_2_alg».proof.Proof.Region1
import proofs.«124428_j35424890257735_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between segments -/

/-- Core c's buffers at launch. -/
abbrev W0 : Dev nD → Valuation τ sig (Elt F) := fun c b => (s₀ m ρ).mem ((c : Dev nD), b)
/-- After the first stretch of host operations: what region 0 is entered from. -/
abbrev W1 : Dev nD → Valuation τ sig (Elt F) := fun c => StableHlo.after hostOps0 (W0 m ρ c)
/-- The same contents, read at the core's own references (the form a region's proof data take). -/
abbrev V1 : (c : Dev nD) → (b : Ref sig .tc) → Buf (Elt F) ((c : Thread nD τ).loc b) := fun c b => W1 m ρ c b
/-- At region 0's exit: each of its windows' arrays at what the pipeline leaves after the last point (an input's
    array as entered; the output's array with every point's block written back), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
/-- The exit contents agree with the pipeline on the region's arrays, and with the entry contents elsewhere. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations: what region 1 is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit, which is the end of the program: its windows' arrays at what its pipeline leaves, every
    other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched

No host operation writes an argument (each writes a fresh intermediate), region 0 has no argument among its
windows, and region 1 has two (the mask and the output bias) but only as INPUT windows, whose arrays a pipeline
leaves as entered. So the fold, read at an argument, is the launch memory. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := (W4_arr m ρ c 3).trans (((dat1 (V3 m ρ) c).arrAt_in 3 rfl _).trans (A_eq1 (V3 m ρ) c 3))
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_arr m ρ c 1).trans (((dat1 (V3 m ρ) c).arrAt_in 1 rfl _).trans (A_eq1 (V3 m ρ) c 1))
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-! ## The proof data of both pipelines, and what the thread carries between segments -/

/-- Neither pipeline has a prefetched table. -/
abbrev adm : (p : Fin 2) → (pcfgs (F := F) p).Adm := fun p => (cfgs p).toPCfg_adm
/-- Each pipeline's proof data, at its own region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core ever owes another a signal here, so no semaphore carries a level. -/
abbrev L : GSem nD τ sig → Finset Unit := fun _ => ∅
abbrev lv : GSem nD τ sig → Unit → ℕ := fun _ _ => 0
/-- Beside the buffers, the thread carries its generator register (at some state: a region's invariant takes
    it and returns it) and the record that it owes nothing. -/
abbrev R (c : Dev nD) : sProp 𝕄 := iprop((∃ r, prngReg c r) ∗ ∃ W, owes (c : Thread nD τ) (0 : CellTallies nD τ sig Unit) W)
/-- A stretch of host operations as a segment: from the unscoped buffers at W to the same buffers at what the
    operations make of W, R riding along untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A reference of the core that is not scoped to a region is among the buffers the thread holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The thread's state at the end, without the debt record: every unscoped buffer at the last boundary's
    contents, the generator register at some state. -/
abbrev Tₙ (c : Dev nD) : sProp 𝕄 := iprop(StableHlo.held (c : Thread nD τ) (Pipeline.ucRefs τ sig) (W4 m ρ c) ∗ ∃ r, prngReg c r)

/-! ## The two regions as segments

A region is entered from the thread's state: its windows' arrays are split off the unscoped buffers, the
generator register goes into the region's invariant, the other unscoped buffers wait outside. At the exit the
arrays come back at what the pipeline left, are put together with the buffers that waited, and this is the next
boundary's contents by the two facts above (hF, hrest). Nothing is owed, and the kernel has no semaphore of
its own. -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the four segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the four segments: the printed sequence is the chain of its items, and the segments' run
    is that chain. -/
theorem main_run (c : Dev nD) : main (F := F) c = Pipeline.Seg.run (segs m ρ) := (main_chain c).trans (by chain_rfl)

set_option backward.isDefEq.respectTransparency.types false in
/-- THE RUN. From any memory with every semaphore at zero, every weakly fair execution of @main on the
    TensorCores terminates without a fault, and in the final state every unscoped buffer of every core holds the
    last boundary's contents W4. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the program runs and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs (onTc (τ := τ) (main (F := F))) ⟨m, fun _ => 0, ρ⟩).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.KernelIdeal.Fr

end
-- ==== Proof.WalkBack.lean ====
/-
  Which buffers the segments of the run leave alone, and where the regions' results sit: each a short walk along the
  boundaries' contents. A stretch of host operations changes only the buffers its operations write; a region changes
  only its windows' arrays, and of those only the outputs'.
-/
import proofs.«124428_j35424890257735_2_alg».proof.Proof.Run

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The boundaries' contents, one step back -/

/-- Region 0 is entered from what the first stretch of host operations makes of the launch memory. -/
theorem V1_eq (c : Dev nD) (b : Ref sig .tc) : V1 m ρ c b = StableHlo.after hostOps0 (W0 m ρ c) (Proc.devRef .tc b) := rfl
/-- Region 1 is entered from what the second stretch makes of region 0's exit contents. -/
theorem V3_eq (c : Dev nD) (b : Ref sig .tc) : V3 m ρ c b = StableHlo.after hostOps1 (W2 m ρ c) (Proc.devRef .tc b) := rfl

/-! ## The launch contents of the arguments the first stretch reads -/

theorem W0_main_arg0 (c : Dev nD) : W0 m ρ c (Proc.devRef .tc main_arg0) = m ((c : Thread nD τ).loc main_arg0) := rfl
theorem W0_main_arg1 (c : Dev nD) : W0 m ρ c (Proc.devRef .tc main_arg1) = m ((c : Thread nD τ).loc main_arg1) := rfl
theorem W0_main_arg2 (c : Dev nD) : W0 m ρ c (Proc.devRef .tc main_arg2) = m ((c : Thread nD τ).loc main_arg2) := rfl

/-! ## Arguments that reach a later segment untouched -/

/-- The output weight reaches the second stretch of host operations as launched: the first stretch does not write it
    and it is no window of region 0. -/
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

/-- The output bias reaches region 1 as launched: neither stretch writes it and it is no window of region 0. -/
theorem V3_main_arg4 (c : Dev nD) : V3 m ρ c main_arg4 = m ((c : Thread nD τ).loc main_arg4) :=
  calc V3 m ρ c main_arg4
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

/-- The mask reaches region 1 as launched, likewise. -/
theorem V3_main_arg5 (c : Dev nD) : V3 m ρ c main_arg5 = m ((c : Thread nD τ).loc main_arg5) :=
  calc V3 m ρ c main_arg5
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

/-! ## Where the regions' results sit -/

/-- At region 0's exit its result array holds what the pipeline's write-backs made of it. -/
theorem W2_main_v15 (c : Dev nD) : W2 m ρ c (Proc.devRef .tc main_v15) = (dat0 (V1 m ρ) c).arrAt 3 cfg0.N :=
  W2_arr m ρ c 3

/-- At the end of the program the two result arrays hold what region 1's write-backs made of them. -/
theorem W4_main_v19_0 (c : Dev nD) : W4 m ρ c (Proc.devRef .tc main_v19_0) = (dat1 (V3 m ρ) c).arrAt 4 cfg1.N :=
  W4_arr m ρ c 4
theorem W4_main_v19_1 (c : Dev nD) : W4 m ρ c (Proc.devRef .tc main_v19_1) = (dat1 (V3 m ρ) c).arrAt 5 cfg1.N :=
  W4_arr m ρ c 5

end Cert.KernelIdeal.Fr

end
-- ==== Proof.LibPlainDot.lean ====
/-
  Two general facts about sums, used wherever a matrix product is read entry by entry.

  * A product of an [a, K] matrix with a [K, b] matrix on the matrix unit, accumulated into the zero array, has at
    entry (p, q) the value  ∑ k < K, lhs (p, k) · rhs (k, q)  on the extended reals. The dimension numbers enter only
    through four facts about where the contraction reads its operands, each of which is decided by unfolding for a
    literal record: it contracts the left operand's axis 1 with the right operand's axis 0, and carries the output's
    row to the left operand and the output's column to the right one.
  * A sum over  n = a + b + c  consecutive positions is the sum over the first a, plus the sum over the next b, plus
    the sum over the last c. This holds in any commutative monoid, so on the extended reals it needs no finiteness:
    only the order and grouping of the terms change.
-/
import Idealize.ShloMosaic.PureOps.Ideal.Laws
import Idealize.ShloMosaic.Lib.ValueIdx

noncomputable section

namespace Idealize.ShloMosaic.PlainDot

open Idealize.ShloMosaic Idealize.ShloMosaic.ValueIdx

/-- A sum over `a + b + c` consecutive positions, cut into its three consecutive bands. -/
theorem sum_three_bands {M : Type} [AddCommMonoid M] {a b c n : ℕ} (hn : a + b + c = n) (f : Fin n → M) :
    ∑ k : Fin n, f k
      = (∑ k : Fin a, f ⟨k.val, by omega⟩) + (∑ k : Fin b, f ⟨a + k.val, by omega⟩)
        + ∑ k : Fin c, f ⟨a + b + k.val, by omega⟩ := by
  subst hn
  rw [Fin.sum_univ_add, Fin.sum_univ_add]
  rfl

/-- Entry (p, q) of an [a, K] × [K, b] product into the zero accumulator is the sum over the contracted position
    of the row's entry times the column's entry. -/
theorem matmul_zero_ix2 {a K b : ℕ} {φ₁ φ₂ : FTy}
    (d : DotDims (⟨2, ![a, K]⟩ : Shape) (⟨2, ![K, b]⟩ : Shape) (⟨2, ![a, b]⟩ : Shape))
    (hr : d.contr.rank = 1) (hs : d.contr.size ⟨0, by omega⟩ = K)
    (hlc : d.lhsContracting = [1]) (hrc : d.rhsContracting = [0])
    (hl0 : ∀ (j : (⟨2, ![a, b]⟩ : Shape).Idx) (q : d.contr.Idx), (d.lhsIdx j q 0).val = (j 0).val)
    (hr1 : ∀ (j : (⟨2, ![a, b]⟩ : Shape).Idx) (q : d.contr.Idx), (d.rhsIdx j q 1).val = (j 1).val)
    (prec : Option ContractPrecision)
    (lhs : FVec Ideal (⟨2, ![a, K]⟩ : Shape) φ₁) (rhs : FVec Ideal (⟨2, ![K, b]⟩ : Shape) φ₂) (p : Fin a) (q : Fin b) :
    FloatOps.matmul d prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun ax => Fin.ext (by
    match ax with
    | ⟨0, _⟩ => exact hl0 _ _
    | ⟨1, _⟩ => exact (d.lhsIdx_val_of_single hlc _ _).trans hk)
  have er : d.rhsIdx (ix2 p q) ((contrEquiv1 d K hr hs).symm k) = ix2 k q := funext fun ax => Fin.ext (by
    match ax with
    | ⟨0, _⟩ => exact (d.rhsIdx_val_of_single hrc _ _).trans hk
    | ⟨1, _⟩ => exact hr1 _ _)
  rw [el, er]

end Idealize.ShloMosaic.PlainDot

end
-- ==== Proof.KerProj.lean ====
/-
  The two plain matrix products of the kernel read entry by entry: the fused input projection of a tile of 1024 rows,
  and the output projection of the 256 × 4 attended rows of one source index. Each is a product into a zero
  accumulator plus a bias row broadcast over the rows; format changes are the identity on the extended reals.
-/
import proofs.«124428_j35424890257735_2_alg».proof.Proof.Gen.KernelIdeal.Skeleton
import proofs.«124428_j35424890257735_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KerValue

open Idealize.ShloMosaic Idealize.ShloMosaic.ValueIdx Cert.KernelIdeal Cert.KernelIdeal.Gen

/-- Entry (r, f) of a tile of the fused projection: row r of the activation tile against column f of the transposed
    weight, plus the bias entry f. -/
theorem k0_pay1_apply (v0 : Vec Ideal S1024x512 .f32) (v3 : Vec Ideal S512x1536 .bf16) (v6 : Vec Ideal S1536 .f32)
    (r : Fin 1024) (f : Fin 1536) :
    k0_pay1 (F := Ideal) v0 v3 v6 (ix2 r f) = (∑ e : Fin 512, v0 (ix2 r e) * v3 (ix2 e f)) + v6 (ix1 f) := by
  unfold k0_pay1
  refine congrArg₂ (fun a b : EReal => a + b) ?_ ?_
  · refine (PlainDot.matmul_zero_ix2 dot_S1024x512_S512x1536_S1024x1536_1_0_0_1_n_n rfl rfl rfl rfl
      (fun j q => ?_) (fun j q => ?_) none _ _ r f).trans ?_
    · unfold DotDims.lhsIdx
      rw [dif_neg (show ¬(0 : Fin S1024x512.rank) ∈ dot_S1024x512_S512x1536_S1024x1536_1_0_0_1_n_n.lhsBatch by decide),
        dif_pos (show (0 : Fin S1024x512.rank) ∈ dot_S1024x512_S512x1536_S1024x1536_1_0_0_1_n_n.lhsNonContracting by decide)]
      rfl
    · unfold DotDims.rhsIdx
      rw [dif_neg (show ¬(1 : Fin S512x1536.rank) ∈ dot_S1024x512_S512x1536_S1024x1536_1_0_0_1_n_n.rhsBatch by decide),
        dif_pos (show (1 : Fin S512x1536.rank) ∈ dot_S1024x512_S512x1536_S1024x1536_1_0_0_1_n_n.rhsNonContracting by decide)]
      rfl
    · refine Finset.sum_congr rfl fun e _ => ?_
      rw [shapeCast_self, shapeCast_self]
      rfl
  · refine (broadcastTo_1b_ab_apply _ _ r f).trans ?_
    refine (shapeCast_a_1a_apply _ _ (0 : Fin 1) f).trans ?_
    rw [shapeCast_self]

/-- A [256, 4, 512] array cast to [1024, 512] reads, at row o·4 + b, the operand at (o, b). -/
theorem shapeCast_256x4x512_1024x512_apply {α : Type} (x : S256x4x512.Idx → α) (h : S256x4x512.ShapeCasts S1024x512)
    (o : Fin 256) (b : Fin 4) (e : Fin 512) :
    shapeCast S1024x512 x h (ix2 (⟨o.val * 4 + b.val, by omega⟩ : Fin 1024) e) = x (ix3 o b e) :=
  shapeCast_apply x h _ _ (by
    rw [Shape.rowMajor_val_three, Shape.rowMajor_val_two]
    rfl)

/-- A [1024, 512] array cast to [256, 4, 512] reads, at (o, b), the operand's row o·4 + b. -/
theorem shapeCast_1024x512_256x4x512_apply {α : Type} (x : S1024x512.Idx → α) (h : S1024x512.ShapeCasts S256x4x512)
    (o : Fin 256) (b : Fin 4) (e : Fin 512) :
    shapeCast S256x4x512 x h (ix3 o b e) = x (ix2 (⟨o.val * 4 + b.val, by omega⟩ : Fin 1024) e) :=
  shapeCast_apply x h _ _ (by
    rw [Shape.rowMajor_val_three, Shape.rowMajor_val_two]
    rfl)

/-- A [256, 4, 512] array cast to [256, 1, 4, 512] reads, at (o, u, b, f), the operand at (o, b, f). -/
theorem shapeCast_256x4x512_256x1x4x512_apply {α : Type} (x : S256x4x512.Idx → α) (h : S256x4x512.ShapeCasts S256x1x4x512)
    (o : Fin 256) (u : Fin 1) (b : Fin 4) (f : Fin 512) :
    shapeCast S256x1x4x512 x h (ix4 o u b f) = x (ix3 o b f) :=
  shapeCast_apply x h _ _ (by
    have hu : u.val = 0 := by omega
    rw [Shape.rowMajor_val_three, Shape.rowMajor_val_four]
    show (o.val * 4 + b.val) * 512 + f.val = ((o.val * 1 + u.val) * 4 + b.val) * 512 + f.val
    rw [hu, Nat.mul_one, Nat.add_zero])

/-- Entry (o, ·, b, f) of the output projection: the attended row (o, b) against column f of the transposed output
    weight, plus the bias entry f. -/
theorem k1_pay3_apply (v167 : Vec Ideal S256x4x512 .bf16) (v169 : Vec Ideal S512x512 .bf16) (v172 : Vec Ideal S512 .f32)
    (o : Fin 256) (b : Fin 4) (f : Fin 512) :
    k1_pay3 (F := Ideal) v167 v169 v172 (ix4 o (0 : Fin 1) b f)
      = (∑ e : Fin 512, v167 (ix3 o b e) * v169 (ix2 e f)) + v172 (ix1 f) := by
  unfold k1_pay3
  refine (shapeCast_256x4x512_256x1x4x512_apply _ _ o 0 b f).trans ?_
  refine (shapeCast_1024x512_256x4x512_apply _ _ o b f).trans ?_
  refine congrArg₂ (fun a b : EReal => a + b) ?_ ?_
  · refine (PlainDot.matmul_zero_ix2 dot_S1024x512_S512x512_S1024x512_1_0_0_1_n_n rfl rfl rfl rfl
      (fun j q => ?_) (fun j q => ?_) none _ _ _ f).trans ?_
    · unfold DotDims.lhsIdx
      rw [dif_neg (show ¬(0 : Fin S1024x512.rank) ∈ dot_S1024x512_S512x512_S1024x512_1_0_0_1_n_n.lhsBatch by decide),
        dif_pos (show (0 : Fin S1024x512.rank) ∈ dot_S1024x512_S512x512_S1024x512_1_0_0_1_n_n.lhsNonContracting by decide)]
      rfl
    · unfold DotDims.rhsIdx
      rw [dif_neg (show ¬(1 : Fin S512x512.rank) ∈ dot_S1024x512_S512x512_S1024x512_1_0_0_1_n_n.rhsBatch by decide),
        dif_pos (show (1 : Fin S512x512.rank) ∈ dot_S1024x512_S512x512_S1024x512_1_0_0_1_n_n.rhsNonContracting by decide)]
      rfl
    · refine Finset.sum_congr rfl fun e _ => ?_
      rw [shapeCast_256x4x512_1024x512_apply, shapeCast_self]
  · refine (broadcastTo_1b_ab_apply _ _ _ f).trans ?_
    exact shapeCast_a_1a_apply _ _ (0 : Fin 1) f

end Cert.KernelIdeal.KerValue

end
-- ==== Proof.Arrays0.lean ====
/-
  From the blocks of region 0 to its result array. At every grid point the body writes, over the point's tile of
  1024 rows, the fused projection of the same rows of the activations; the 64 tiles are disjoint and fill the
  array. So after the region the result array is ONE function of the three arrays the region read, entry by entry:
      result(r, f) = (Σ_e activations(r, e) · weightᵀ(e, f)) + bias(f).
-/
import proofs.«124428_j35424890257735_2_alg».proof.Proof.Run
import proofs.«124428_j35424890257735_2_alg».proof.Proof.KerProj
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx Idealize.SL.Sem
open Idealize.ShloMosaic.Pipeline (Dat)

theorem zeros2 : (![0, 0] : Fin 2 → Nat) = fun _ => 0 := funext fun a => by fin_cases a <;> rfl
theorem zeros1 : (![0] : Fin 1 → Nat) = fun _ => 0 := funext fun a => by fin_cases a; rfl

/-! ## One point's result, entry by entry -/

/-- The body's result on input buffers x0 x1 x2, at row r and column f of the tile: the three reads are of whole
    buffers and the one store covers the whole buffer, so this is the payload's entry. -/
theorem out0_3_apply (x0 : Vec Ideal S1024x512 .f32) (x1 : Vec Ideal S512x1536 .bf16) (x2 : Vec Ideal S1536 .f32)
    (r : Fin 1024) (f : Fin 1536) :
    out0_3 (F := Ideal) x0 x1 x2 (ix2 r f) = (∑ e : Fin 512, x0 (ix2 r e) * x1 (ix2 e f)) + x2 (ix1 f) := by
  unfold out0_3
  rw [View.canon_unit_zero zeros2]
  rw [View.ld_unit_zero (S := S1024x512) zeros2, View.ld_unit_zero (S := S512x1536) zeros2, View.ld_unit_zero (S := S1536) zeros1]
  exact KerValue.k0_pay1_apply x0 x1 x2 r f

/-! ## Where the windows' blocks sit in their arrays -/

/-- The block indices over the 64 points: the activations' and the result's tile index is the point's number along
    the rows and 0 along the columns; the weight's and the bias' is 0 (their block is the whole array). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

section Blocks

variable (V : (c : Dev nD) → (b : Ref sig .tc) → Buf (Elt Ideal) ((c : Thread nD τ).loc b))

/-- Row r of the activations' block at point t is row t·1024 + r of the array. -/
theorem iblk0_0_apply (c : Dev nD) (t : Fin cfg0.N) (r : Fin 1024) (e : Fin 512) (k : Fin 65536) (hk : k.val = t.val * 1024 + r.val) :
    (iblk0 V c 0 t : Vec Ideal S1024x512 .f32) (ix2 r e) = (V c main_v14 : S65536x512.Idx → EReal) (ix2 k e) := by
  obtain ⟨e0, e1, -⟩ := idx0 t
  unfold iblk0
  rw [View.read_apply]
  show (V c main_v14 : S65536x512.Idx → EReal) _ = (V c main_v14 : S65536x512.Idx → EReal) _
  refine congrArg _ ?_
  funext a
  apply Fin.ext
  match a with
  | ⟨0, _⟩ => show win0_0.index t (0 : Fin 2) * 1024 + 1 * r.val = k.val; rw [e0, hk]; omega
  | ⟨1, _⟩ => show win0_0.index t (1 : Fin 2) * 512 + 1 * e.val = e.val; rw [e1]; omega

/-- The weight's block at any point is the whole array. -/
theorem iblk0_1_apply (c : Dev nD) (t : Fin cfg0.N) (e : Fin 512) (f : Fin 1536) :
    (iblk0 V c 1 t : Vec Ideal S512x1536 .bf16) (ix2 e f) = (V c main_v7 : S512x1536.Idx → EReal) (ix2 e f) := by
  obtain ⟨-, -, e0, e1, -⟩ := idx0 t
  unfold iblk0
  rw [View.read_apply]
  show (V c main_v7 : S512x1536.Idx → EReal) _ = (V c main_v7 : S512x1536.Idx → EReal) _
  refine congrArg _ ?_
  funext a
  apply Fin.ext
  match a with
  | ⟨0, _⟩ => show win0_1.index t (0 : Fin 2) * 512 + 1 * e.val = e.val; rw [e0]; omega
  | ⟨1, _⟩ => show win0_1.index t (1 : Fin 2) * 1536 + 1 * f.val = f.val; rw [e1]; omega

/-- The bias' block at any point is the whole array. -/
theorem iblk0_2_apply (c : Dev nD) (t : Fin cfg0.N) (f : Fin 1536) :
    (iblk0 V c 2 t : Vec Ideal S1536 .f32) (ix1 f) = (V c main_v13 : S1536.Idx → EReal) (ix1 f) := by
  obtain ⟨-, -, -, -, e0, -⟩ := idx0 t
  unfold iblk0
  rw [View.read_apply]
  show (V c main_v13 : S1536.Idx → EReal) _ = (V c main_v13 : S1536.Idx → EReal) _
  refine congrArg _ ?_
  funext a
  apply Fin.ext
  match a with
  | ⟨0, _⟩ => show win0_2.index t (0 : Fin 1) * 1536 + 1 * f.val = f.val; rw [e0]; omega

/-! ## The result array as one function of the three arrays read -/

/-- The fused projection of arrays a0 (rows), a1 (transposed weight), a2 (bias), entry by entry. -/
def proj0 (a0 : S65536x512.Idx → EReal) (a1 : S512x1536.Idx → EReal) (a2 : S1536.Idx → EReal) : S65536x1536.Idx → EReal :=
  fun i => (∑ e : Fin 512, a0 (ix2 (⟨(i 0).val, idx2_lt0 i⟩ : Fin 65536) e) * a1 (ix2 e (⟨(i 1).val, idx2_lt1 i⟩ : Fin 1536)))
    + a2 (ix1 (⟨(i 1).val, idx2_lt1 i⟩ : Fin 1536))

/-- What point t writes back is the point's tile of proj0 of the arrays as the region finds them. -/
theorem flushed0_3_eq (c : Dev nD) (t : Fin cfg0.N) :
    (dat0 V c).flushed 3 t = ((cfg0.win 3).blk t).view.read (Elt Ideal) (proj0 (V c main_v14) (V c main_v7) (V c main_v13)) := by
  show (cfg0.win 3).cut (grid0.coords t) ((dat0 V c).after 3 t) = _
  rw [after0_3]
  obtain ⟨-, -, -, -, -, e0, e1⟩ := idx0 t
  have hN : cfg0.N = 64 := N_0
  have ht : t.val < 64 := hN ▸ t.isLt
  funext j
  obtain ⟨r, f, rfl⟩ : ∃ (r : Fin 1024) (f : Fin 1536), j = ix2 r f := ⟨j 0, j 1, eq_ix2 j⟩
  show out0_3 (F := Ideal) (iblk0 V c 0 t) (iblk0 V c 1 t) (iblk0 V c 2 t) (ix2 r f)
    = proj0 (V c main_v14) (V c main_v7) (V c main_v13) (((cfg0.win 3).blk t).view.emb (ix2 r f))
  rw [out0_3_apply]
  have hr : ((((cfg0.win 3).blk t).view.emb (ix2 r f) : S65536x1536.Idx) 0).val = t.val * 1024 + r.val := by
    show win0_3.index t (0 : Fin 2) * 1024 + 1 * r.val = _; rw [e0]; omega
  have hf : ((((cfg0.win 3).blk t).view.emb (ix2 r f) : S65536x1536.Idx) 1).val = f.val := by
    show win0_3.index t (1 : Fin 2) * 1536 + 1 * f.val = _; rw [e1]; omega
  unfold proj0
  have hf' : (⟨((((cfg0.win 3).blk t).view.emb (ix2 r f) : S65536x1536.Idx) 1).val, idx2_lt1 _⟩ : Fin 1536) = f := Fin.ext hf
  rw [hf']
  refine congrArg₂ (fun a b : EReal => a + b) (Finset.sum_congr rfl fun e _ => congrArg₂ (fun a b : EReal => a * b) ?_ ?_) ?_
  · exact iblk0_0_apply V c t r e _ hr
  · exact iblk0_1_apply V c t e f
  · exact iblk0_2_apply V c t f

/-- An index of the result array is in point t's tile iff each coordinate is in the tile's range. -/
theorem mem_blk0_3 (t : Fin cfg0.N) (i : S65536x1536.Idx) :
    i ∈ ((cfg0.win 3).blk t).view.set ↔ ∀ a : Fin 2, win0_3.index t a * S1024x1536.size a ≤ (i a).val ∧ (i a).val < win0_3.index t a * S1024x1536.size a + S1024x1536.size a := by
  show i ∈ ((View.whole main_v15).slice (win0_3.rect t)).set ↔ _
  rw [View.set_slice_whole, Rect.mem_set_unit]
  exact Iff.rfl

/-- Every row r lies in the tile of point r / 1024, and every point writes its tile back. -/
theorem cover0_3_arr (i : S65536x1536.Idx) :
    ∃ t : Fin cfg0.N, (cfg0.win 3).flush t = true ∧ i ∈ ((cfg0.win 3).blk t).view.set := by
  have hi0 : (i 0).val < 65536 := idx2_lt0 i
  have hi1 : (i 1).val < 1536 := idx2_lt1 i
  have hN : cfg0.N = 64 := N_0
  obtain ⟨t, ht⟩ : ∃ t : Fin cfg0.N, t.val = (i 0).val / 1024 := ⟨⟨(i 0).val / 1024, by rw [hN]; omega⟩, rfl⟩
  obtain ⟨-, -, -, -, -, e0, e1⟩ := idx0 t
  refine ⟨t, flush0_3 t, ?_⟩
  rw [mem_blk0_3]
  intro a
  match a with
  | ⟨0, _⟩ => show win0_3.index t (0 : Fin 2) * 1024 ≤ (i 0).val ∧ (i 0).val < win0_3.index t (0 : Fin 2) * 1024 + 1024; rw [e0, ht]; omega
  | ⟨1, _⟩ => show win0_3.index t (1 : Fin 2) * 1536 ≤ (i 1).val ∧ (i 1).val < win0_3.index t (1 : Fin 2) * 1536 + 1536; rw [e1]; omega

/-- The result array after the region, entry by entry: X, Wt, bI name the contents of the three arrays the region
    read (the activations, the transposed weight, the bias) as functions on their index sets. -/
theorem final0_3_of (c : Dev nD) (X : S65536x512.Idx → EReal) (Wt : S512x1536.Idx → EReal) (bI : S1536.Idx → EReal)
    (hX : X = V c main_v14) (hW : Wt = V c main_v7) (hb : bI = V c main_v13) (r : Fin 65536) (f : Fin 1536) :
    (dat0 V c).arrAt 3 cfg0.N (ix2 r f) = (∑ e : Fin 512, X (ix2 r e) * Wt (ix2 e f)) + bI (ix1 f) := by
  subst hX hW hb
  exact congrFun ((dat0 V c).arrAt_eq_of_cover 3 (proj0 (V c main_v14) (V c main_v7) (V c main_v13))
    (fun t _ => flushed0_3_eq V c t) (cover0_3_arr)) (ix2 r f)

end Blocks

variable (m : (ℓ : Loc nD τ sig) → Buf (Elt Ideal) ℓ) (ρ : Dev nD → PrngReg)

/-- The result array of region 0 in the run: the fused projection of what the first stretch of host operations
    left in the activations', the weight's and the bias' buffers (named X, Wt, bI). -/
theorem final0_3 (c : Dev nD) (X : S65536x512.Idx → EReal) (Wt : S512x1536.Idx → EReal) (bI : S1536.Idx → EReal)
    (hX : X = V1 m ρ c main_v14) (hW : Wt = V1 m ρ c main_v7) (hb : bI = V1 m ρ c main_v13) (r : Fin 65536) (f : Fin 1536) :
    (dat0 (V1 m ρ) c).arrAt 3 cfg0.N (ix2 r f) = (∑ e : Fin 512, X (ix2 r e) * Wt (ix2 e f)) + bI (ix1 f) :=
  final0_3_of (V1 m ρ) c X Wt bI hX hW hb r f

end Cert.KernelIdeal.Fr

end
-- ==== Proof.Spec.lean ====
/-
  Multi-head self-attention over a [256, 64, 4, 512] activation (position, source, batch, channel; 8 heads of 64
  channels), as functions of coordinates on the extended reals: what the kernel and the reference both compute.

  From the input X, the fused projection weight W [1536, 512] and bias bI [1536]:
    proj(o,s,b,f) = (Σ_e X(o,s,b,e) · W(f,e)) + bI(f),
  the queries are columns 0..511 scaled by 1/8 = 64^(-1/2), the keys columns 512..1023, the values columns 1024..1535.
  For head h (channels h·64 .. h·64+63) and a (source, batch) pair:
    score(o,i) = (Σ_d q(o,·,h·64+d) · k(i,·,h·64+d)) + M(o,i),      prob(o,·) = softmax over i of score(o,·)
  (`softmax`: the maximum taken from -∞, exp of the difference, divided by the sum),
    attn(o,·,e) = Σ_i prob_{head of e}(o,i) · v(i,·,e),       out(o,·,f) = (Σ_e attn(o,·,e) · Wo(f,e)) + bo(f),
    wt(s,b,o,i) = (Σ_h prob_h(o,i)) · 1/8   (the head average).
  The two programs differ in where the 1/8 of the queries sits: the reference scales the projected query, the kernel
  scales the weight rows and the bias entries before projecting. On finite inputs the two agree (`qK_eq_qR`): this is the
  one place distributivity is used, hence the one place finiteness is needed.
-/
import Idealize.ShloMosaic.PureOps.Ideal

noncomputable section

namespace Cert.Attn

open Idealize.ShloMosaic

/-- An activation [256, 64, 4, 512] by coordinates: (position, source, batch, channel). -/
abbrev Tok := Fin 256 → Fin 64 → Fin 4 → Fin 512 → EReal

/-- The float 0.125 as both programs spell it. -/
abbrev c8 : EReal := Ideal.ofBits .f32 0x3E000000#32
/-- The float 8.0 (the reference's divisor of the head average). -/
abbrev eight : EReal := Ideal.ofBits .f32 0x41000000#32
/-- The float -∞ the row maxima start from. -/
abbrev ninf : EReal := Ideal.ofBits .f32 0xFF800000#32

theorem c8_eq : c8 = (((1 / 8 : ℝ)) : EReal) := by
  simp [c8, Ideal.ofBits, Ideal.ieee, -EReal.coe_mul]; norm_num
theorem eight_eq : eight = ((8 : ℝ) : EReal) := by
  simp [eight, Ideal.ofBits, Ideal.ieee, -EReal.coe_mul]; norm_num
theorem zero_eq : Ideal.ofBits .f32 0x00000000#32 = 0 := by
  simp [Ideal.ofBits, Ideal.ieee]

/-- Channel `h·64 + d` of head `h`. -/
def col (h : Fin 8) (d : Fin 64) : Fin 512 := ⟨h.val * 64 + d.val, by omega⟩
/-- The head a channel belongs to. -/
def headOf (e : Fin 512) : Fin 8 := ⟨e.val / 64, by omega⟩

/-! ## From queries, keys and values to the two results -/

section core

variable (q k v : Tok) (M : Fin 256 → Fin 256 → EReal) (Wo : Fin 512 → Fin 512 → EReal) (bo : Fin 512 → EReal)

/-- The masked score of query position `o` against key position `i` in head `h`. -/
def score (s : Fin 64) (b : Fin 4) (h : Fin 8) (o i : Fin 256) : EReal :=
  (∑ d : Fin 64, q o s b (col h d) * k i s b (col h d)) + M o i

/-- The softmax of one row of scores: the maximum taken from -∞, the exponentials of the differences, each divided
    by their sum. -/
def softmax (sc : Fin 256 → EReal) (i : Fin 256) : EReal :=
  Ideal.div (Ideal.exp (sc i - (Finset.univ : Finset (Fin 256)).fold max ninf sc))
    (∑ i' : Fin 256, Ideal.exp (sc i' - (Finset.univ : Finset (Fin 256)).fold max ninf sc))

/-- The softmax weight of key position `i` for query position `o`. -/
def prob (s : Fin 64) (b : Fin 4) (h : Fin 8) (o i : Fin 256) : EReal :=
  softmax (fun i' => score q k M s b h o i') i

/-- The attended value at channel `e`: the weights of `e`'s head against the values' channel `e`. -/
def attn (o : Fin 256) (s : Fin 64) (b : Fin 4) (e : Fin 512) : EReal :=
  ∑ i : Fin 256, prob q k M s b (headOf e) o i * v i s b e

/-- The first result: the output projection of the attended values. -/
def out (o : Fin 256) (s : Fin 64) (b : Fin 4) (f : Fin 512) : EReal :=
  (∑ e : Fin 512, attn q k v M o s b e * Wo f e) + bo f

/-- The second result: the attention weights averaged over the eight heads. -/
def wt (s : Fin 64) (b : Fin 4) (o i : Fin 256) : EReal :=
  (∑ h : Fin 8, prob q k M s b h o i) * c8

end core

/-! ## From the inputs to queries, keys and values -/

section proj

variable (X : Tok) (W : Fin 1536 → Fin 512 → EReal) (bI : Fin 1536 → EReal)

/-- The fused projection. -/
def proj (o : Fin 256) (s : Fin 64) (b : Fin 4) (f : Fin 1536) : EReal :=
  (∑ e : Fin 512, X o s b e * W f e) + bI f

/-- Column `j` of the query / key / value band of the fused projection. -/
def qcol (j : Fin 512) : Fin 1536 := ⟨j.val, by omega⟩
def kcol (j : Fin 512) : Fin 1536 := ⟨512 + j.val, by omega⟩
def vcol (j : Fin 512) : Fin 1536 := ⟨1024 + j.val, by omega⟩

/-- The reference's queries: projected, then scaled. -/
def qR : Tok := fun o s b j => proj X W bI o s b (qcol j) * c8
/-- The kernel's queries: the weight rows and the bias entries scaled, then projected. -/
def qK : Tok := fun o s b j => (∑ e : Fin 512, X o s b e * (W (qcol j) e * c8)) + bI (qcol j) * c8
def kk : Tok := fun o s b j => proj X W bI o s b (kcol j)
def vv : Tok := fun o s b j => proj X W bI o s b (vcol j)

end proj

/-- A real sum is the sum of the reals, on the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On finite inputs, scaling the weight rows and the bias before projecting is scaling the projection:
    c·(Σ x·w + β) = Σ x·(w·c) + β·c over the reals. -/
theorem qK_eq_qR (X : Tok) (W : Fin 1536 → Fin 512 → EReal) (bI : Fin 1536 → EReal)
    (hX : ∀ o s b e, X o s b e ≠ ⊤ ∧ X o s b e ≠ ⊥) (hW : ∀ f e, W f e ≠ ⊤ ∧ W f e ≠ ⊥)
    (hb : ∀ f, bI f ≠ ⊤ ∧ bI f ≠ ⊥) : qK X W bI = qR X W bI := by
  funext o s b j
  have hx : ∀ e, ∃ r : ℝ, X o s b e = (r : EReal) :=
    fun e => ⟨(X o s b e).toReal, (EReal.coe_toReal (hX o s b e).1 (hX o s b e).2).symm⟩
  have hw : ∀ e, ∃ r : ℝ, W (qcol j) e = (r : EReal) :=
    fun e => ⟨(W (qcol j) e).toReal, (EReal.coe_toReal (hW _ e).1 (hW _ e).2).symm⟩
  obtain ⟨β, hβ⟩ : ∃ r : ℝ, bI (qcol j) = (r : EReal) :=
    ⟨(bI (qcol j)).toReal, (EReal.coe_toReal (hb _).1 (hb _).2).symm⟩
  choose x hx using hx
  choose w hw using hw
  unfold qK qR proj
  simp only [hx, hw, hβ, c8_eq]
  simp only [← EReal.coe_mul, ← coe_sum, ← EReal.coe_add]
  refine congrArg _ ?_
  rw [add_mul, Finset.sum_mul]
  refine congrArg₂ _ (Finset.sum_congr rfl fun e _ => ?_) rfl
  ring

end Cert.Attn

end
-- ==== Proof.KerLayout.lean ====
/-
  Re-layouts and lane reductions of the attention kernel read at an index written by coordinates, at the literal
  shapes the kernel uses: the split of the 128 channels of a chunk into 2 heads of 64 and the move of (batch, head) to
  the front, the merge of (batch, head) into one axis of 8, the mask given a unit leading axis and broadcast over the 8
  (batch, head) pairs, a per-row statistic given a unit last axis and broadcast back along the row, and the row
  maximum, row sum and head-pair sum as a fold or a sum over that axis's coordinate.
-/
import proofs.«124428_j35424890257735_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KerValue

open Idealize.ShloMosaic Idealize.ShloMosaic.ValueIdx Cert.KernelIdeal Cert.KernelIdeal.Gen

variable {α : Type}

/-- The (batch, head-in-chunk) pair a merged coordinate β = b·2 + hh stands for. -/
abbrev bOf (β : Fin 8) : Fin 4 := ⟨β.val / 2, by omega⟩
abbrev hOf (β : Fin 8) : Fin 2 := ⟨β.val % 2, by omega⟩
/-- The merged coordinate of batch b and head-in-chunk hh. -/
abbrev mrg (b : Fin 4) (hh : Fin 2) : Fin 8 := ⟨b.val * 2 + hh.val, by omega⟩
/-- Channel hh·64 + d of a chunk of 128. -/
abbrev ch (hh : Fin 2) (d : Fin 64) : Fin 128 := ⟨hh.val * 64 + d.val, by omega⟩

/-! ## The head split and merge -/

/-- A [256, 1, 4, 128] block with its unit axis dropped. -/
theorem shapeCast_256x1x4x128_256x4x128_apply (x : S256x1x4x128.Idx → α) (h : S256x1x4x128.ShapeCasts S256x4x128)
    (o : Fin 256) (b : Fin 4) (c : Fin 128) :
    shapeCast S256x4x128 x h (ix3 o b c) = x (ix4 o (0 : Fin 1) b c) :=
  shapeCast_apply x h _ _ (by
    rw [Shape.rowMajor_val_three, Shape.rowMajor_val_four]
    show ((o.val * 1 + 0) * 4 + b.val) * 128 + c.val = (o.val * 4 + b.val) * 128 + c.val
    rw [Nat.mul_one, Nat.add_zero])

/-- The 128 channels split into 2 heads of 64. -/
theorem shapeCast_256x4x128_256x4x2x64_apply (x : S256x4x128.Idx → α) (h : S256x4x128.ShapeCasts S256x4x2x64)
    (o : Fin 256) (b : Fin 4) (hh : Fin 2) (d : Fin 64) :
    shapeCast S256x4x2x64 x h (ix4 o b hh d) = x (ix3 o b (ch hh d)) :=
  shapeCast_apply x h _ _ (by
    rw [Shape.rowMajor_val_three, Shape.rowMajor_val_four]
    show (o.val * 4 + b.val) * 128 + (hh.val * 64 + d.val) = ((o.val * 4 + b.val) * 2 + hh.val) * 64 + d.val
    omega)

/-- 2 heads of 64 channels joined into 128. -/
theorem shapeCast_256x4x2x64_256x4x128_apply (x : S256x4x2x64.Idx → α) (h : S256x4x2x64.ShapeCasts S256x4x128)
    (o : Fin 256) (b : Fin 4) (hh : Fin 2) (d : Fin 64) :
    shapeCast S256x4x128 x h (ix3 o b (ch hh d)) = x (ix4 o b hh d) :=
  shapeCast_apply x h _ _ (by
    rw [Shape.rowMajor_val_three, Shape.rowMajor_val_four]
    show ((o.val * 4 + b.val) * 2 + hh.val) * 64 + d.val = (o.val * 4 + b.val) * 128 + (hh.val * 64 + d.val)
    omega)

/-- (batch, head) moved in front of the position. -/
theorem transpose_1203_apply (x : S256x4x2x64.Idx → α) (h : S256x4x2x64.Transposes [1, 2, 0, 3] S4x2x256x64)
    (b : Fin 4) (hh : Fin 2) (o : Fin 256) (d : Fin 64) :
    transpose S4x2x256x64 [1, 2, 0, 3] x h (ix4 b hh o d) = x (ix4 o b hh d) :=
  transpose_apply _ x h _ _ fun e => match e with | ⟨0, _⟩ => rfl | ⟨1, _⟩ => rfl | ⟨2, _⟩ => rfl | ⟨3, _⟩ => rfl

/-- The position moved back in front of (batch, head). -/
theorem transpose_2013_apply (x : S4x2x256x64.Idx → α) (h : S4x2x256x64.Transposes [2, 0, 1, 3] S256x4x2x64)
    (o : Fin 256) (b : Fin 4) (hh : Fin 2) (d : Fin 64) :
    transpose S256x4x2x64 [2, 0, 1, 3] x h (ix4 o b hh d) = x (ix4 b hh o d) :=
  transpose_apply _ x h _ _ fun e => match e with | ⟨0, _⟩ => rfl | ⟨1, _⟩ => rfl | ⟨2, _⟩ => rfl | ⟨3, _⟩ => rfl

/-- (batch, head) merged into one axis of 8, read at a merged coordinate. -/
theorem shapeCast_4x2x256x64_8x256x64_apply (x : S4x2x256x64.Idx → α) (h : S4x2x256x64.ShapeCasts S8x256x64)
    (β : Fin 8) (o : Fin 256) (d : Fin 64) :
    shapeCast S8x256x64 x h (ix3 β o d) = x (ix4 (bOf β) (hOf β) o d) :=
  shapeCast_apply x h _ _ (by
    rw [Shape.rowMajor_val_three, Shape.rowMajor_val_four]
    show ((β.val / 2 * 2 + β.val % 2) * 256 + o.val) * 64 + d.val = (β.val * 256 + o.val) * 64 + d.val
    have : β.val / 2 * 2 + β.val % 2 = β.val := by omega
    rw [this])

/-- The axis of 8 split into (batch, head). -/
theorem shapeCast_8x256x64_4x2x256x64_apply (x : S8x256x64.Idx → α) (h : S8x256x64.ShapeCasts S4x2x256x64)
    (b : Fin 4) (hh : Fin 2) (o : Fin 256) (d : Fin 64) :
    shapeCast S4x2x256x64 x h (ix4 b hh o d) = x (ix3 (mrg b hh) o d) :=
  shapeCast_apply x h _ _ (by
    rw [Shape.rowMajor_val_three, Shape.rowMajor_val_four]
    rfl)

/-- The axis of 8 split into (batch, head), for the [8, 256, 256] weights. -/
theorem shapeCast_8x256x256_4x2x256x256_apply (x : S8x256x256.Idx → α) (h : S8x256x256.ShapeCasts S4x2x256x256)
    (b : Fin 4) (hh : Fin 2) (o i : Fin 256) :
    shapeCast S4x2x256x256 x h (ix4 b hh o i) = x (ix3 (mrg b hh) o i) :=
  shapeCast_apply x h _ _ (by
    rw [Shape.rowMajor_val_three, Shape.rowMajor_val_four]
    rfl)

/-- A block [256, 1, 4, 128] with its channels split into heads, (batch, head) moved to the front and merged: at
    (β, o, d) it is the block at position o, batch β / 2, channel (β % 2)·64 + d. -/
theorem heads_apply (x : S256x1x4x128.Idx → α) (β : Fin 8) (o : Fin 256) (d : Fin 64) :
    shapeCast S8x256x64 (transpose S4x2x256x64 [1, 2, 0, 3]
      (shapeCast S256x4x2x64 (shapeCast S256x4x128 x shapeCasts_S256x1x4x128_S256x4x128) shapeCasts_S256x4x128_S256x4x2x64)
      transposes_S256x4x2x64_p1_2_0_3_S4x2x256x64) shapeCasts_S4x2x256x64_S8x256x64 (ix3 β o d)
      = x (ix4 o (0 : Fin 1) (bOf β) (ch (hOf β) d)) := by
  rw [shapeCast_4x2x256x64_8x256x64_apply, transpose_1203_apply, shapeCast_256x4x128_256x4x2x64_apply,
    shapeCast_256x1x4x128_256x4x128_apply]

/-! ## The mask over the (batch, head) pairs; a row statistic along its row -/

/-- The mask given a unit leading axis and broadcast over the 8 pairs. -/
theorem mask_apply (x : S256x256.Idx → α) (β : Fin 8) (o i : Fin 256) :
    broadcastTo S8x256x256 (shapeCast S1x256x256 x shapeCasts_S256x256_S1x256x256) broadcasts_S1x256x256_S8x256x256 (ix3 β o i)
      = x (ix2 o i) := by
  refine (broadcastTo_apply _ broadcasts_S1x256x256_S8x256x256 (ix3 β o i) (ix3 (0 : Fin 1) o i) fun ax => ?_).trans ?_
  · match ax with
    | ⟨0, _⟩ => rfl
    | ⟨1, _⟩ => rfl
    | ⟨2, _⟩ => rfl
  · exact shapeCast_ab_1ab_apply x _ 0 o i

/-- A per-row value [8, 256] given a unit last axis and broadcast along the row of 256. -/
theorem keepdims_apply (x : S8x256.Idx → α) (β : Fin 8) (o i : Fin 256) :
    broadcastTo S8x256x256 (shapeCast S8x256x1 x shapeCasts_S8x256_S8x256x1) broadcasts_S8x256x1_S8x256x256 (ix3 β o i)
      = x (ix2 β o) := by
  refine (broadcastTo_apply _ broadcasts_S8x256x1_S8x256x256 (ix3 β o i) (ix3 β o (0 : Fin 1)) fun ax => ?_).trans ?_
  · match ax with
    | ⟨0, _⟩ => rfl
    | ⟨1, _⟩ => rfl
    | ⟨2, _⟩ => rfl
  · exact shapeCast_apply x _ _ _ (by
      rw [Shape.rowMajor_val_three, Shape.rowMajor_val_two]
      show β.val * 256 + o.val = (β.val * 256 + o.val) * 1 + 0
      omega)

/-! ## Reductions, at the ideal values -/

/-- The row sum of an [8, 256, 256] array. -/
theorem rowSum_apply (src : FVec Ideal S8x256x256 .f32) (h : S8x256x256.Reduces [2] S8x256) (hφ : FKind.Formats FTy.f32)
    (hacc : (0x00000000#32 : BitVec FTy.f32.bits) = FKind.add.neutral .f32 hφ) (β : Fin 8) (o : Fin 256) :
    multiReduction (F := Ideal) .add [2] S8x256 src 0x00000000#32 h hφ hacc (ix2 β o) = ∑ i : Fin 256, src (ix3 β o i) := by
  refine (Ideal.multiReduction_add_single src _ h hφ hacc (ix2 β o)).trans ?_
  refine Finset.sum_congr rfl fun k _ => congrArg src ?_
  funext e; apply Fin.ext
  match e with | ⟨0, _⟩ => rfl | ⟨1, _⟩ => rfl | ⟨2, _⟩ => rfl

/-- The row maximum of an [8, 256, 256] array, taken from -∞. -/
theorem rowMax_apply (src : FVec Ideal S8x256x256 .f32) (h : S8x256x256.Reduces [2] S8x256) (hφ : FKind.Formats FTy.f32)
    (hacc : (0xFF800000#32 : BitVec FTy.f32.bits) = FKind.maximumf.neutral .f32 hφ) (β : Fin 8) (o : Fin 256) :
    multiReduction (F := Ideal) .maximumf [2] S8x256 src 0xFF800000#32 h hφ hacc (ix2 β o)
      = (Finset.univ : Finset (Fin 256)).fold max (Ideal.ofBits .f32 0xFF800000#32) (fun i => src (ix3 β o i)) := by
  refine (Ideal.multiReduction_maximumf_single src _ h hφ hacc (ix2 β o)).trans ?_
  refine congrArg (fun g => (Finset.univ : Finset (Fin 256)).fold max (Ideal.ofBits .f32 0xFF800000#32) g) ?_
  funext k
  refine congrArg src ?_
  funext e; apply Fin.ext
  match e with | ⟨0, _⟩ => rfl | ⟨1, _⟩ => rfl | ⟨2, _⟩ => rfl

/-- The sum over the two heads of a chunk of a [4, 2, 256, 256] array. -/
theorem headPairSum_apply (src : FVec Ideal S4x2x256x256 .f32) (h : S4x2x256x256.Reduces [1] S4x256x256) (hφ : FKind.Formats FTy.f32)
    (hacc : (0x00000000#32 : BitVec FTy.f32.bits) = FKind.add.neutral .f32 hφ) (b : Fin 4) (o i : Fin 256) :
    multiReduction (F := Ideal) .add [1] S4x256x256 src 0x00000000#32 h hφ hacc (ix3 b o i) = ∑ hh : Fin 2, src (ix4 b hh o i) := by
  refine (Ideal.multiReduction_add_single src _ h hφ hacc (ix3 b o i)).trans ?_
  refine Finset.sum_congr rfl fun k _ => congrArg src ?_
  funext e; apply Fin.ext
  match e with | ⟨0, _⟩ => rfl | ⟨1, _⟩ => rfl | ⟨2, _⟩ => rfl | ⟨3, _⟩ => rfl

end Cert.KernelIdeal.KerValue

end
-- ==== Proof.KerHeadSum.lean ====
/-
  The running sum of the attention weights over the heads, read at an index: it starts at zero, each chunk of two heads
  adds its two weight matrices to the entry of its batch, and after the last chunk the sum is scaled by 1/8, the head
  average. Also: the re-casts of an attended block to its own shape are the identity.
-/
import proofs.«124428_j35424890257735_2_alg».proof.Proof.KerLayout
import proofs.«124428_j35424890257735_2_alg».proof.Proof.Spec

noncomputable section

namespace Cert.KernelIdeal.KerValue

open Idealize.ShloMosaic Idealize.ShloMosaic.ValueIdx Cert.KernelIdeal Cert.KernelIdeal.Gen

/-- The sum over the two heads of a chunk, of the weights merged over (batch, head). -/
theorem chunkSum_apply (v : FVec Ideal S8x256x256 .f32) (b : Fin 4) (o i : Fin 256) :
    multiReduction (F := Ideal) .add [1] S4x256x256 (shapeCast S4x2x256x256 v shapeCasts_S8x256x256_S4x2x256x256)
      0x00000000#32 reduces_S4x2x256x256_S4x256x256 (.inl rfl) rfl (ix3 b o i)
      = ∑ hh : Fin 2, v (ix3 (mrg b hh) o i) := by
  refine (headPairSum_apply _ _ _ _ b o i).trans ?_
  refine Finset.sum_congr rfl fun hh _ => ?_
  exact shapeCast_8x256x256_4x2x256x256_apply _ _ b hh o i

/-- The running sum starts at zero. -/
theorem k1_pay4_apply (b : Fin 4) (o i : Fin 256) : k1_pay4 (F := Ideal) (ix3 b o i) = 0 :=
  Ideal.ofBits_zero_f32

/-- A chunk adds its two heads' weights. -/
theorem k1_pay8_apply (v1 : FVec Ideal S4x256x256 .f32) (v29 : FVec Ideal S8x256x256 .f32) (b : Fin 4) (o i : Fin 256) :
    k1_pay8 (F := Ideal) v1 v29 (ix3 b o i) = v1 (ix3 b o i) + ∑ hh : Fin 2, v29 (ix3 (mrg b hh) o i) := by
  unfold k1_pay8
  exact congrArg (fun a : EReal => v1 (ix3 b o i) + a) (chunkSum_apply v29 b o i)

theorem k1_pay12_apply (v41 : FVec Ideal S4x256x256 .f32) (v69 : FVec Ideal S8x256x256 .f32) (b : Fin 4) (o i : Fin 256) :
    k1_pay12 (F := Ideal) v41 v69 (ix3 b o i) = v41 (ix3 b o i) + ∑ hh : Fin 2, v69 (ix3 (mrg b hh) o i) := by
  unfold k1_pay12
  exact congrArg (fun a : EReal => v41 (ix3 b o i) + a) (chunkSum_apply v69 b o i)

theorem k1_pay16_apply (v81 : FVec Ideal S4x256x256 .f32) (v109 : FVec Ideal S8x256x256 .f32) (b : Fin 4) (o i : Fin 256) :
    k1_pay16 (F := Ideal) v81 v109 (ix3 b o i) = v81 (ix3 b o i) + ∑ hh : Fin 2, v109 (ix3 (mrg b hh) o i) := by
  unfold k1_pay16
  exact congrArg (fun a : EReal => v81 (ix3 b o i) + a) (chunkSum_apply v109 b o i)

/-- The last chunk's sum, scaled by 1/8. -/
theorem k1_pay2_apply (v121 : FVec Ideal S4x256x256 .f32) (v149 : FVec Ideal S8x256x256 .f32) (b : Fin 4) (o i : Fin 256) :
    k1_pay2 (F := Ideal) v121 v149 (ix4 (0 : Fin 1) b o i)
      = (v121 (ix3 b o i) + ∑ hh : Fin 2, v149 (ix3 (mrg b hh) o i)) * Cert.Attn.c8 := by
  unfold k1_pay2
  refine (shapeCast_abc_1abc_apply _ _ (0 : Fin 1) b o i).trans ?_
  exact congrArg (fun a : EReal => (v121 (ix3 b o i) + a) * Cert.Attn.c8) (chunkSum_apply v149 b o i)

/-- The re-casts of an attended block to its own shape. -/
theorem k1_pay1_eq (v : FVec Ideal S256x4x128 .bf16) : k1_pay1 (F := Ideal) v = v := by
  unfold k1_pay1; exact shapeCast_self _ _
theorem k1_pay7_eq (v : FVec Ideal S256x4x128 .bf16) : k1_pay7 (F := Ideal) v = v := by
  unfold k1_pay7; exact shapeCast_self _ _
theorem k1_pay11_eq (v : FVec Ideal S256x4x128 .bf16) : k1_pay11 (F := Ideal) v = v := by
  unfold k1_pay11; exact shapeCast_self _ _
theorem k1_pay15_eq (v : FVec Ideal S256x4x128 .bf16) : k1_pay15 (F := Ideal) v = v := by
  unfold k1_pay15; exact shapeCast_self _ _

end Cert.KernelIdeal.KerValue

end
-- ==== Proof.KerSoftmax.lean ====
/-
  The attention of one chunk of two heads read at an index. The scores of the 8 (batch, head) pairs are a batched
  product of the head-split queries and keys into a zero accumulator plus the mask; the weights are their row softmax
  (row maximum from -∞, exponential of the difference, division by the row sum); the attended values are the batched
  product of the weights with the head-split values, laid back out as 4 batches of 128 channels.
-/
import proofs.«124428_j35424890257735_2_alg».proof.Proof.KerLayout
import proofs.«124428_j35424890257735_2_alg».proof.Proof.Spec

noncomputable section

namespace Cert.KernelIdeal.KerValue

open Idealize.ShloMosaic Idealize.ShloMosaic.ValueIdx Cert.KernelIdeal Cert.KernelIdeal.Gen

/-! ## The two batched products -/

local notation "DQK" => dot_S8x256x64_S8x256x64_S8x256x256_2_2_1_1_0_0
local notation "DPV" => dot_S8x256x256_S8x256x64_S8x256x64_2_1_1_2_0_0

theorem dqk_lhs0 (j : S8x256x256.Idx) (q : DotDims.contr DQK |>.Idx) : (DotDims.lhsIdx DQK j q 0).val = (j 0).val := by
  unfold DotDims.lhsIdx
  rw [dif_pos (show (0 : Fin S8x256x64.rank) ∈ DotDims.lhsBatch DQK by decide)]
  rfl
theorem dqk_lhs1 (j : S8x256x256.Idx) (q : DotDims.contr DQK |>.Idx) : (DotDims.lhsIdx DQK j q 1).val = (j 1).val := by
  unfold DotDims.lhsIdx
  rw [dif_neg (show ¬(1 : Fin S8x256x64.rank) ∈ DotDims.lhsBatch DQK by decide),
    dif_pos (show (1 : Fin S8x256x64.rank) ∈ DotDims.lhsNonContracting DQK by decide)]
  rfl
theorem dqk_rhs0 (j : S8x256x256.Idx) (q : DotDims.contr DQK |>.Idx) : (DotDims.rhsIdx DQK j q 0).val = (j 0).val := by
  unfold DotDims.rhsIdx
  rw [dif_pos (show (0 : Fin S8x256x64.rank) ∈ DotDims.rhsBatch DQK by decide)]
  rfl
theorem dqk_rhs1 (j : S8x256x256.Idx) (q : DotDims.contr DQK |>.Idx) : (DotDims.rhsIdx DQK j q 1).val = (j 2).val := by
  unfold DotDims.rhsIdx
  rw [dif_neg (show ¬(1 : Fin S8x256x64.rank) ∈ DotDims.rhsBatch DQK by decide),
    dif_pos (show (1 : Fin S8x256x64.rank) ∈ DotDims.rhsNonContracting DQK by decide)]
  rfl

/-- Entry (β, o, i) of the batched query–key product into the zero accumulator: the sum over the 64 channels of the
    pair β of query o's entry times key i's entry. -/
theorem scoreDot_apply {φ₁ φ₂ : FTy} (l : FVec Ideal S8x256x64 φ₁) (r : FVec Ideal S8x256x64 φ₂) (β : Fin 8) (o i : Fin 256) :
    FloatOps.matmul DQK none l r (constant S8x256x256 .f32 0x00000000#32) (ix3 β o i)
      = ∑ d : Fin 64, l (ix3 β o d) * r (ix3 β i d) := by
  rw [Ideal.matmul_constant_zero_apply, ← Equiv.sum_comp (contrEquiv1 DQK 64 rfl rfl).symm]
  refine Finset.sum_congr rfl fun k _ => ?_
  have hk := contrEquiv1_symm_val DQK 64 rfl rfl k
  have el : DotDims.lhsIdx DQK (ix3 β o i) ((contrEquiv1 DQK 64 rfl rfl).symm k) = ix3 β o k := funext fun a => Fin.ext (by
    match a with
    | ⟨0, _⟩ => exact dqk_lhs0 _ _
    | ⟨1, _⟩ => exact dqk_lhs1 _ _
    | ⟨2, _⟩ => exact (DotDims.lhsIdx_val_of_single DQK rfl _ _).trans hk)
  have er : DotDims.rhsIdx DQK (ix3 β o i) ((contrEquiv1 DQK 64 rfl rfl).symm k) = ix3 β i k := funext fun a => Fin.ext (by
    match a with
    | ⟨0, _⟩ => exact dqk_rhs0 _ _
    | ⟨1, _⟩ => exact dqk_rhs1 _ _
    | ⟨2, _⟩ => exact (DotDims.rhsIdx_val_of_single DQK rfl _ _).trans hk)
  rw [el, er]

theorem dpv_lhs0 (j : S8x256x64.Idx) (q : DotDims.contr DPV |>.Idx) : (DotDims.lhsIdx DPV j q 0).val = (j 0).val := by
  unfold DotDims.lhsIdx
  rw [dif_pos (show (0 : Fin S8x256x256.rank) ∈ DotDims.lhsBatch DPV by decide)]
  rfl
theorem dpv_lhs1 (j : S8x256x64.Idx) (q : DotDims.contr DPV |>.Idx) : (DotDims.lhsIdx DPV j q 1).val = (j 1).val := by
  unfold DotDims.lhsIdx
  rw [dif_neg (show ¬(1 : Fin S8x256x256.rank) ∈ DotDims.lhsBatch DPV by decide),
    dif_pos (show (1 : Fin S8x256x256.rank) ∈ DotDims.lhsNonContracting DPV by decide)]
  rfl
theorem dpv_rhs0 (j : S8x256x64.Idx) (q : DotDims.contr DPV |>.Idx) : (DotDims.rhsIdx DPV j q 0).val = (j 0).val := by
  unfold DotDims.rhsIdx
  rw [dif_pos (show (0 : Fin S8x256x64.rank) ∈ DotDims.rhsBatch DPV by decide)]
  rfl
theorem dpv_rhs2 (j : S8x256x64.Idx) (q : DotDims.contr DPV |>.Idx) : (DotDims.rhsIdx DPV j q 2).val = (j 2).val := by
  unfold DotDims.rhsIdx
  rw [dif_neg (show ¬(2 : Fin S8x256x64.rank) ∈ DotDims.rhsBatch DPV by decide),
    dif_pos (show (2 : Fin S8x256x64.rank) ∈ DotDims.rhsNonContracting DPV by decide)]
  rfl

/-- Entry (β, o, d) of the batched weight–value product into the zero accumulator: the sum over the 256 key
    positions of the weight (o, i) of the pair β times value i's entry d. -/
theorem valueDot_apply {φ₁ φ₂ : FTy} (l : FVec Ideal S8x256x256 φ₁) (r : FVec Ideal S8x256x64 φ₂) (β : Fin 8) (o : Fin 256) (d : Fin 64) :
    FloatOps.matmul DPV none l r (constant S8x256x64 .f32 0x00000000#32) (ix3 β o d)
      = ∑ i : Fin 256, l (ix3 β o i) * r (ix3 β i d) := by
  rw [Ideal.matmul_constant_zero_apply, ← Equiv.sum_comp (contrEquiv1 DPV 256 rfl rfl).symm]
  refine Finset.sum_congr rfl fun k _ => ?_
  have hk := contrEquiv1_symm_val DPV 256 rfl rfl k
  have el : DotDims.lhsIdx DPV (ix3 β o d) ((contrEquiv1 DPV 256 rfl rfl).symm k) = ix3 β o k := funext fun a => Fin.ext (by
    match a with
    | ⟨0, _⟩ => exact dpv_lhs0 _ _
    | ⟨1, _⟩ => exact dpv_lhs1 _ _
    | ⟨2, _⟩ => exact (DotDims.lhsIdx_val_of_single DPV rfl _ _).trans hk)
  have er : DotDims.rhsIdx DPV (ix3 β o d) ((contrEquiv1 DPV 256 rfl rfl).symm k) = ix3 β k d := funext fun a => Fin.ext (by
    match a with
    | ⟨0, _⟩ => exact dpv_rhs0 _ _
    | ⟨1, _⟩ => exact (DotDims.rhsIdx_val_of_single DPV rfl _ _).trans hk
    | ⟨2, _⟩ => exact dpv_rhs2 _ _)
  rw [el, er]

/-! ## The row softmax of an [8, 256, 256] array of scores -/

/-- The row maximum (from -∞), repeated along its row. -/
def rowMaxB (x : FVec Ideal S8x256x256 .f32) : FVec Ideal S8x256x256 .f32 :=
  broadcastTo S8x256x256 (shapeCast S8x256x1
    (multiReduction (F := Ideal) .maximumf [2] S8x256 x 0xFF800000#32 reduces_S8x256x256_S8x256 (.inl rfl) rfl)
    shapeCasts_S8x256_S8x256x1) broadcasts_S8x256x1_S8x256x256

/-- The row sum, repeated along its row. -/
def rowSumB (y : FVec Ideal S8x256x256 .f32) : FVec Ideal S8x256x256 .f32 :=
  broadcastTo S8x256x256 (shapeCast S8x256x1
    (multiReduction (F := Ideal) .add [2] S8x256 y 0x00000000#32 reduces_S8x256x256_S8x256 (.inl rfl) rfl)
    shapeCasts_S8x256_S8x256x1) broadcasts_S8x256x1_S8x256x256

/-- The exponentials of the scores less their row maximum. -/
def expShift (x : FVec Ideal S8x256x256 .f32) : FVec Ideal S8x256x256 .f32 := exp (subf x (rowMaxB x))

/-- The row softmax as the kernel's operations spell it. -/
def softmaxRows (x : FVec Ideal S8x256x256 .f32) : FVec Ideal S8x256x256 .f32 := divf (expShift x) (rowSumB (expShift x))

theorem rowMaxB_apply (x : FVec Ideal S8x256x256 .f32) (β : Fin 8) (o i : Fin 256) :
    rowMaxB x (ix3 β o i) = (Finset.univ : Finset (Fin 256)).fold max Cert.Attn.ninf (fun i' => x (ix3 β o i')) := by
  unfold rowMaxB
  refine (keepdims_apply _ β o i).trans ?_
  exact rowMax_apply x _ _ _ β o

theorem rowSumB_apply (y : FVec Ideal S8x256x256 .f32) (β : Fin 8) (o i : Fin 256) :
    rowSumB y (ix3 β o i) = ∑ i' : Fin 256, y (ix3 β o i') := by
  unfold rowSumB
  refine (keepdims_apply _ β o i).trans ?_
  exact rowSum_apply y _ _ _ β o

theorem expShift_apply (x : FVec Ideal S8x256x256 .f32) (β : Fin 8) (o i : Fin 256) :
    expShift x (ix3 β o i)
      = Ideal.exp (x (ix3 β o i) - (Finset.univ : Finset (Fin 256)).fold max Cert.Attn.ninf (fun i' => x (ix3 β o i'))) := by
  show Ideal.exp (x (ix3 β o i) - rowMaxB x (ix3 β o i)) = _
  rw [rowMaxB_apply]

/-- The kernel's row softmax at (β, o, i) is the softmax of row (β, o) at i. -/
theorem softmaxRows_apply (x : FVec Ideal S8x256x256 .f32) (β : Fin 8) (o i : Fin 256) :
    softmaxRows x (ix3 β o i) = Cert.Attn.softmax (fun i' => x (ix3 β o i')) i := by
  show Ideal.div (expShift x (ix3 β o i)) (rowSumB (expShift x) (ix3 β o i)) = _
  rw [rowSumB_apply]
  simp only [expShift_apply]
  rfl

/-! ## A chunk's weights and attended values -/

/-- A [256, 1, 4, 128] block of a chunk as 8 (batch, head) matrices [256, 64]. -/
def headsOf (x : Vec Ideal S256x1x4x128 .bf16) : FVec Ideal S8x256x64 .bf16 :=
  shapeCast S8x256x64 (transpose S4x2x256x64 [1, 2, 0, 3]
    (shapeCast S256x4x2x64 (shapeCast S256x4x128 x shapeCasts_S256x1x4x128_S256x4x128) shapeCasts_S256x4x128_S256x4x2x64)
    transposes_S256x4x2x64_p1_2_0_3_S4x2x256x64) shapeCasts_S4x2x256x64_S8x256x64

theorem headsOf_apply (x : Vec Ideal S256x1x4x128 .bf16) (β : Fin 8) (o : Fin 256) (d : Fin 64) :
    headsOf x (ix3 β o d) = x (ix4 o (0 : Fin 1) (bOf β) (ch (hOf β) d)) :=
  heads_apply x β o d

/-- The masked scores of the 8 pairs. -/
def scoresOf (v0 : Vec Ideal S256x256 .f32) (q k : Vec Ideal S256x1x4x128 .bf16) : FVec Ideal S8x256x256 .f32 :=
  addf (matmul DQK none (headsOf q) (headsOf k) (constant S8x256x256 .f32 0x00000000#32))
    (broadcastTo S8x256x256 (shapeCast S1x256x256 v0 shapeCasts_S256x256_S1x256x256) broadcasts_S1x256x256_S8x256x256)

theorem scoresOf_apply (v0 : Vec Ideal S256x256 .f32) (q k : Vec Ideal S256x1x4x128 .bf16) (β : Fin 8) (o i : Fin 256) :
    scoresOf v0 q k (ix3 β o i)
      = (∑ d : Fin 64, q (ix4 o (0 : Fin 1) (bOf β) (ch (hOf β) d)) * k (ix4 i (0 : Fin 1) (bOf β) (ch (hOf β) d))) + v0 (ix2 o i) := by
  unfold scoresOf
  refine congrArg₂ (fun a b : EReal => a + b) ?_ (mask_apply v0 β o i)
  refine (scoreDot_apply _ _ β o i).trans ?_
  refine Finset.sum_congr rfl fun d _ => ?_
  rw [headsOf_apply, headsOf_apply]

theorem k1_pay5_eq (v0 : Vec Ideal S256x256 .f32) (v2 v4 : Vec Ideal S256x1x4x128 .bf16) :
    k1_pay5 (F := Ideal) v0 v2 v4 = softmaxRows (scoresOf v0 v2 v4) := rfl

/-- The weights of a chunk: for the pair β = batch·2 + head, query position o and key position i, the softmax over the
    key positions of the masked scores of that pair's 64 channels. -/
theorem k1_pay5_apply (v0 : Vec Ideal S256x256 .f32) (v2 v4 : Vec Ideal S256x1x4x128 .bf16) (β : Fin 8) (o i : Fin 256) :
    k1_pay5 (F := Ideal) v0 v2 v4 (ix3 β o i)
      = Cert.Attn.softmax (fun i' => (∑ d : Fin 64, v2 (ix4 o (0 : Fin 1) (bOf β) (ch (hOf β) d))
          * v4 (ix4 i' (0 : Fin 1) (bOf β) (ch (hOf β) d))) + v0 (ix2 o i')) i := by
  rw [k1_pay5_eq, softmaxRows_apply]
  refine congrArg (fun sc => Cert.Attn.softmax sc i) (funext fun i' => ?_)
  exact scoresOf_apply v0 v2 v4 β o i'

theorem k1_pay9_eq (v0 : Vec Ideal S256x256 .f32) (v42 v44 : Vec Ideal S256x1x4x128 .bf16) :
    k1_pay9 (F := Ideal) v0 v42 v44 = softmaxRows (scoresOf v0 v42 v44) := rfl

/-- The same for the next chunk: the operations are the first chunk's. -/
theorem k1_pay9_apply (v0 : Vec Ideal S256x256 .f32) (v42 v44 : Vec Ideal S256x1x4x128 .bf16) (β : Fin 8) (o i : Fin 256) :
    k1_pay9 (F := Ideal) v0 v42 v44 (ix3 β o i)
      = Cert.Attn.softmax (fun i' => (∑ d : Fin 64, v42 (ix4 o (0 : Fin 1) (bOf β) (ch (hOf β) d))
          * v44 (ix4 i' (0 : Fin 1) (bOf β) (ch (hOf β) d))) + v0 (ix2 o i')) i := by
  rw [k1_pay9_eq, softmaxRows_apply]
  refine congrArg (fun sc => Cert.Attn.softmax sc i) (funext fun i' => ?_)
  exact scoresOf_apply v0 v42 v44 β o i'

theorem k1_pay13_eq (v0 : Vec Ideal S256x256 .f32) (v82 v84 : Vec Ideal S256x1x4x128 .bf16) :
    k1_pay13 (F := Ideal) v0 v82 v84 = softmaxRows (scoresOf v0 v82 v84) := rfl

/-- The same for the next chunk: the operations are the first chunk's. -/
theorem k1_pay13_apply (v0 : Vec Ideal S256x256 .f32) (v82 v84 : Vec Ideal S256x1x4x128 .bf16) (β : Fin 8) (o i : Fin 256) :
    k1_pay13 (F := Ideal) v0 v82 v84 (ix3 β o i)
      = Cert.Attn.softmax (fun i' => (∑ d : Fin 64, v82 (ix4 o (0 : Fin 1) (bOf β) (ch (hOf β) d))
          * v84 (ix4 i' (0 : Fin 1) (bOf β) (ch (hOf β) d))) + v0 (ix2 o i')) i := by
  rw [k1_pay13_eq, softmaxRows_apply]
  refine congrArg (fun sc => Cert.Attn.softmax sc i) (funext fun i' => ?_)
  exact scoresOf_apply v0 v82 v84 β o i'

theorem k1_pay17_eq (v0 : Vec Ideal S256x256 .f32) (v122 v124 : Vec Ideal S256x1x4x128 .bf16) :
    k1_pay17 (F := Ideal) v0 v122 v124 = softmaxRows (scoresOf v0 v122 v124) := rfl

/-- The same for the next chunk: the operations are the first chunk's. -/
theorem k1_pay17_apply (v0 : Vec Ideal S256x256 .f32) (v122 v124 : Vec Ideal S256x1x4x128 .bf16) (β : Fin 8) (o i : Fin 256) :
    k1_pay17 (F := Ideal) v0 v122 v124 (ix3 β o i)
      = Cert.Attn.softmax (fun i' => (∑ d : Fin 64, v122 (ix4 o (0 : Fin 1) (bOf β) (ch (hOf β) d))
          * v124 (ix4 i' (0 : Fin 1) (bOf β) (ch (hOf β) d))) + v0 (ix2 o i')) i := by
  rw [k1_pay17_eq, softmaxRows_apply]
  refine congrArg (fun sc => Cert.Attn.softmax sc i) (funext fun i' => ?_)
  exact scoresOf_apply v0 v122 v124 β o i'

end Cert.KernelIdeal.KerValue

end
-- ==== Proof.KerAttn.lean ====
/-
  The attended values of one chunk of two heads read at an index: the batched product of the chunk's weights with its
  head-split values, with the (batch, head) axis split again, the position moved back to the front and the two heads'
  64 channels joined into the chunk's 128. At position o, batch b and chunk channel jj it is the sum over the key
  positions of the weight of the head jj / 64 of batch b times the value's channel jj.
-/
import proofs.«124428_j35424890257735_2_alg».proof.Proof.KerSoftmax

noncomputable section

namespace Cert.KernelIdeal.KerValue

open Idealize.ShloMosaic Idealize.ShloMosaic.ValueIdx Cert.KernelIdeal Cert.KernelIdeal.Gen

/-- The head within the chunk that a chunk channel belongs to, and its place within the head. -/
abbrev hdOf (jj : Fin 128) : Fin 2 := ⟨jj.val / 64, by omega⟩
abbrev inHd (jj : Fin 128) : Fin 64 := ⟨jj.val % 64, by omega⟩

/-- 2 heads of 64 channels joined into 128, read at a chunk channel. -/
theorem shapeCast_join_apply {α : Type} (x : S256x4x2x64.Idx → α) (h : S256x4x2x64.ShapeCasts S256x4x128)
    (o : Fin 256) (b : Fin 4) (jj : Fin 128) :
    shapeCast S256x4x128 x h (ix3 o b jj) = x (ix4 o b (hdOf jj) (inHd jj)) :=
  shapeCast_apply x h _ _ (by
    rw [Shape.rowMajor_val_three, Shape.rowMajor_val_four]
    show ((o.val * 4 + b.val) * 2 + jj.val / 64) * 64 + jj.val % 64 = (o.val * 4 + b.val) * 128 + jj.val
    omega)

/-- The weights p of the 8 pairs against a value block, laid back out as [256, 4, 128]. -/
theorem attended_apply (p : FVec Ideal S8x256x256 .f32) (v : Vec Ideal S256x1x4x128 .bf16) (o : Fin 256) (b : Fin 4) (jj : Fin 128) :
    truncf .bf16 (shapeCast S256x4x128 (transpose S256x4x2x64 [2, 0, 1, 3]
      (shapeCast S4x2x256x64
        (matmul dot_S8x256x256_S8x256x64_S8x256x64_2_1_1_2_0_0 none (truncf .bf16 p bitsLt_bf16_f32)
          (headsOf v)
          (constant S8x256x64 .f32 0x00000000#32))
        shapeCasts_S8x256x64_S4x2x256x64) transposes_S4x2x256x64_p2_0_1_3_S256x4x2x64) shapeCasts_S256x4x2x64_S256x4x128)
      bitsLt_bf16_f32 (ix3 o b jj)
      = ∑ i : Fin 256, p (ix3 (mrg b (hdOf jj)) o i) * v (ix4 i (0 : Fin 1) b jj) := by
  refine (truncf_apply (ψ := .bf16) _ bitsLt_bf16_f32 (ix3 o b jj)).trans ?_
  refine (shapeCast_join_apply _ _ o b jj).trans ?_
  refine (transpose_2013_apply _ _ o b (hdOf jj) (inHd jj)).trans ?_
  refine (shapeCast_8x256x64_4x2x256x64_apply _ _ b (hdOf jj) o (inHd jj)).trans ?_
  refine (valueDot_apply _ _ (mrg b (hdOf jj)) o (inHd jj)).trans ?_
  refine Finset.sum_congr rfl fun i _ => ?_
  refine congrArg (fun a : EReal => p (ix3 (mrg b (hdOf jj)) o i) * a) ?_
  refine (headsOf_apply v (mrg b (hdOf jj)) i (inHd jj)).trans ?_
  refine congrArg v ?_
  funext e; apply Fin.ext
  match e with
  | ⟨0, _⟩ => rfl
  | ⟨1, _⟩ => rfl
  | ⟨2, _⟩ => show (b.val * 2 + jj.val / 64) / 2 = b.val; omega
  | ⟨3, _⟩ => show (b.val * 2 + jj.val / 64) % 2 * 64 + jj.val % 64 = jj.val; omega

/-- A chunk's attended values, its weights left as the chunk's weight array. -/
theorem k1_pay6_apply (v0 : Vec Ideal S256x256 .f32) (v2 v4 v6 : Vec Ideal S256x1x4x128 .bf16)
    (o : Fin 256) (b : Fin 4) (jj : Fin 128) :
    k1_pay6 (F := Ideal) v0 v2 v4 v6 (ix3 o b jj)
      = ∑ i : Fin 256, k1_pay5 (F := Ideal) v0 v2 v4 (ix3 (mrg b (hdOf jj)) o i) * v6 (ix4 i (0 : Fin 1) b jj) := by
  unfold k1_pay6
  exact attended_apply (k1_pay5 (F := Ideal) v0 v2 v4) v6 o b jj

theorem k1_pay10_apply (v0 : Vec Ideal S256x256 .f32) (v42 v44 v46 : Vec Ideal S256x1x4x128 .bf16)
    (o : Fin 256) (b : Fin 4) (jj : Fin 128) :
    k1_pay10 (F := Ideal) v0 v42 v44 v46 (ix3 o b jj)
      = ∑ i : Fin 256, k1_pay9 (F := Ideal) v0 v42 v44 (ix3 (mrg b (hdOf jj)) o i) * v46 (ix4 i (0 : Fin 1) b jj) := by
  unfold k1_pay10
  exact attended_apply (k1_pay9 (F := Ideal) v0 v42 v44) v46 o b jj

theorem k1_pay14_apply (v0 : Vec Ideal S256x256 .f32) (v82 v84 v86 : Vec Ideal S256x1x4x128 .bf16)
    (o : Fin 256) (b : Fin 4) (jj : Fin 128) :
    k1_pay14 (F := Ideal) v0 v82 v84 v86 (ix3 o b jj)
      = ∑ i : Fin 256, k1_pay13 (F := Ideal) v0 v82 v84 (ix3 (mrg b (hdOf jj)) o i) * v86 (ix4 i (0 : Fin 1) b jj) := by
  unfold k1_pay14
  exact attended_apply (k1_pay13 (F := Ideal) v0 v82 v84) v86 o b jj

theorem k1_pay18_apply (v0 : Vec Ideal S256x256 .f32) (v122 v124 v126 : Vec Ideal S256x1x4x128 .bf16)
    (o : Fin 256) (b : Fin 4) (jj : Fin 128) :
    k1_pay18 (F := Ideal) v0 v122 v124 v126 (ix3 o b jj)
      = ∑ i : Fin 256, k1_pay17 (F := Ideal) v0 v122 v124 (ix3 (mrg b (hdOf jj)) o i) * v126 (ix4 i (0 : Fin 1) b jj) := by
  unfold k1_pay18
  exact attended_apply (k1_pay17 (F := Ideal) v0 v122 v124) v126 o b jj

end Cert.KernelIdeal.KerValue

end
-- ==== Proof.Block1.lean ====
/-
  The two results of region 1's body at one grid point, read at an index, are the specification's output and averaged
  weights at the point's source index — given that the body's input blocks are the specification's queries, keys,
  values, mask, output weight and bias there.
-/
import proofs.«124428_j35424890257735_2_alg».proof.Proof.Region1
import proofs.«124428_j35424890257735_2_alg».proof.Proof.Spec
import proofs.«124428_j35424890257735_2_alg».proof.Proof.KerProj
import proofs.«124428_j35424890257735_2_alg».proof.Proof.KerHeadSum
import proofs.«124428_j35424890257735_2_alg».proof.Proof.KerSoftmax
import proofs.«124428_j35424890257735_2_alg».proof.Proof.KerAttn
import Idealize.ShloMosaic.Lib.ValueIdx
import Idealize.ShloMosaic.Lib.Pipeline.Value

set_option maxRecDepth 16384

noncomputable section

namespace Cert.KernelIdeal.Fr

open Cert.KernelIdeal Cert.KernelIdeal.Gen
open Idealize.ShloMosaic Idealize.ShloMosaic.ValueIdx Cert.KernelIdeal.KerValue

/-! ## Reading a band of the projected block -/

/-- A load of 128 consecutive channels from channel `off` of the projected block reads the block there. -/
theorem ld_band (x0 : Vec Ideal S256x1x4x1536 .bf16) (off : Nat) (inb : ∀ a, (![0, 0, 0, off] : Fin 4 → Nat) a + S256x1x4x128.size a ≤ S256x1x4x1536.size a)
    (o : Fin 256) (b : Fin 4) (jj : Fin 128) (hlt : off + jj.val < 1536) :
    View.ld x0 (Rect.unit (s := S256x1x4x1536) ![0, 0, 0, off] S256x1x4x128.size inb) (ix4 o (0 : Fin 1) b jj)
      = x0 (ix4 o (0 : Fin 1) b ⟨off + jj.val, hlt⟩) := by
  show x0 _ = x0 _
  refine congrArg x0 (funext fun a => Fin.ext ?_)
  rw [LoadRect.idx_apply]
  match a with
  | ⟨0, _⟩ => simp
  | ⟨1, _⟩ => simp
  | ⟨2, _⟩ => simp
  | ⟨3, _⟩ => simp

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl
theorem hz1 : (![0] : Fin 1 → Nat) = fun _ => 0 := funext fun a => by fin_cases a <;> rfl

section chunk

variable (x0 : Vec Ideal S256x1x4x1536 .bf16) (x1 : Vec Ideal S256x256 .f32)
    (q k : Attn.Tok) (M : Fin 256 → Fin 256 → EReal) (s : Fin 64) (b : Fin 4)
    (hq : ∀ o j, q o s b j = x0 (ix4 o (0 : Fin 1) b (Attn.qcol j))) (hk : ∀ o j, k o s b j = x0 (ix4 o (0 : Fin 1) b (Attn.kcol j)))
    (hM : ∀ o i, M o i = x1 (ix2 o i))

/-- Head `2c + hh`. -/
abbrev hd (c : Fin 4) (hh : Fin 2) : Fin 8 := ⟨c.val * 2 + hh.val, by omega⟩

include hq hk hM in
/-- A chunk's softmax rows are the specification's weights of the chunk's two heads: the chunk reads channels
    `128c .. 128c+127` of the query and key bands, head `hh` of the chunk the 64 channels from `128c + 64hh`. -/
theorem chunk_prob (c : Fin 4) (offq offk : Nat) (hoq : offq = c.val * 128) (hok : offk = 512 + c.val * 128) (inbq inbk)
    (hh : Fin 2) (o i : Fin 256) :
    Attn.softmax (fun i' => (∑ d : Fin 64,
        View.ld x0 (Rect.unit (s := S256x1x4x1536) ![0, 0, 0, offq] S256x1x4x128.size inbq) (ix4 o (0 : Fin 1) (bOf (mrg b hh)) (ch (hOf (mrg b hh)) d))
          * View.ld x0 (Rect.unit (s := S256x1x4x1536) ![0, 0, 0, offk] S256x1x4x128.size inbk) (ix4 i' (0 : Fin 1) (bOf (mrg b hh)) (ch (hOf (mrg b hh)) d)))
        + View.ld x1 rM (ix2 o i')) i
      = Attn.prob q k M s b (hd c hh) o i := by
  have hb : bOf (mrg b hh) = b := Fin.ext (by show (b.val * 2 + hh.val) / 2 = b.val; omega)
  have hh' : hOf (mrg b hh) = hh := Fin.ext (by show (b.val * 2 + hh.val) % 2 = hh.val; omega)
  rw [hb, hh']
  unfold Attn.prob Attn.score
  refine congrArg (fun sc => Attn.softmax sc i) (funext fun i' => ?_)
  refine congrArg₂ (· + ·) (Finset.sum_congr rfl fun d _ => ?_) ?_
  · subst hoq; subst hok
    rw [ld_band x0 _ inbq o b (ch hh d) (by show c.val * 128 + (hh.val * 64 + d.val) < 1536; omega),
      ld_band x0 _ inbk i' b (ch hh d) (by show 512 + c.val * 128 + (hh.val * 64 + d.val) < 1536; omega), hq, hk]
    refine congrArg₂ (· * ·) (congrArg x0 ?_) (congrArg x0 ?_)
    · refine congrArg (ix4 o (0 : Fin 1) b) (Fin.ext ?_)
      show c.val * 128 + (hh.val * 64 + d.val) = (c.val * 2 + hh.val) * 64 + d.val
      omega
    · refine congrArg (ix4 i' (0 : Fin 1) b) (Fin.ext ?_)
      show 512 + c.val * 128 + (hh.val * 64 + d.val) = 512 + ((c.val * 2 + hh.val) * 64 + d.val)
      omega
  · rw [hM]
    exact congrFun (View.ld_unit_zero (S := S256x256) hz2 _ x1) (ix2 o i')

include hq hk hM in
theorem pr0_apply (hh : Fin 2) (o i : Fin 256) : pr0 (F := Ideal) x0 x1 (ix3 (mrg b hh) o i) = Attn.prob q k M s b (hd 0 hh) o i := by
  unfold pr0; rw [k1_pay5_apply]; exact chunk_prob x0 x1 q k M s b hq hk hM 0 0 512 rfl rfl _ _ hh o i
include hq hk hM in
theorem pr1_apply (hh : Fin 2) (o i : Fin 256) : pr1 (F := Ideal) x0 x1 (ix3 (mrg b hh) o i) = Attn.prob q k M s b (hd 1 hh) o i := by
  unfold pr1; rw [k1_pay9_apply]; exact chunk_prob x0 x1 q k M s b hq hk hM 1 128 640 rfl rfl _ _ hh o i
include hq hk hM in
theorem pr2_apply (hh : Fin 2) (o i : Fin 256) : pr2 (F := Ideal) x0 x1 (ix3 (mrg b hh) o i) = Attn.prob q k M s b (hd 2 hh) o i := by
  unfold pr2; rw [k1_pay13_apply]; exact chunk_prob x0 x1 q k M s b hq hk hM 2 256 768 rfl rfl _ _ hh o i
include hq hk hM in
theorem pr3_apply (hh : Fin 2) (o i : Fin 256) : pr3 (F := Ideal) x0 x1 (ix3 (mrg b hh) o i) = Attn.prob q k M s b (hd 3 hh) o i := by
  unfold pr3; rw [k1_pay17_apply]; exact chunk_prob x0 x1 q k M s b hq hk hM 3 384 896 rfl rfl _ _ hh o i

end chunk

/-! ## The scratch: four bands of 128 channels -/

/-- The band rectangle at channel `off` of the scratch puts its local index (o, b, jj) at (o, b, off + jj). -/
theorem band_emb (off : Nat) (inb : ∀ a, (![0, 0, off] : Fin 3 → Nat) a + S256x4x128.size a ≤ S256x4x512.size a)
    (o : Fin 256) (b : Fin 4) (jj : Fin 128) (e : Fin 512) (he : e.val = off + jj.val) :
    (Rect.unit (s := S256x4x512) ![0, 0, off] S256x4x128.size inb).emb (ix3 o b jj) = ix3 o b e := by
  funext a; apply Fin.ext
  rw [Rect.emb_apply]
  match a with
  | ⟨0, _⟩ => simp
  | ⟨1, _⟩ => simp
  | ⟨2, _⟩ => simp [he]

/-- A channel outside the band at `off` is not in its rectangle. -/
theorem band_not_mem (off : Nat) (inb : ∀ a, (![0, 0, off] : Fin 3 → Nat) a + S256x4x128.size a ≤ S256x4x512.size a)
    (o : Fin 256) (b : Fin 4) (e : Fin 512) (hne : e.val < off ∨ off + 128 ≤ e.val) :
    ix3 o b e ∉ (Rect.unit (s := S256x4x512) ![0, 0, off] S256x4x128.size inb).set := by
  rw [Rect.mem_set_unit]
  intro h
  have h2 : off ≤ e.val ∧ e.val < off + 128 := h (2 : Fin 3)
  omega

/-! After the four band stores (the last one first in the list), channel `e` of band `c` holds what band `c`'s store put there. -/
section
variable (w3 w2 w1 w0 : S256x4x128.Idx → Elt Ideal .bf16) (o : Fin 256) (b : Fin 4) (jj : Fin 128) (e : Fin 512)

theorem canon4_band3 (he : e.val = 384 + jj.val) :
    View.canon (Val := Elt Ideal) [⟨rs3, w3⟩, ⟨rs2, w2⟩, ⟨rs1, w1⟩, ⟨rs0, w0⟩] (ix3 o b e) = w3 (ix3 o b jj) := by
  rw [← band_emb 384 inb_S256x4x512_S256x4x128_0_0_384 o b jj e he]
  exact View.canon_cons_emb _ _ _ _

theorem canon4_band2 (he : e.val = 256 + jj.val) :
    View.canon (Val := Elt Ideal) [⟨rs3, w3⟩, ⟨rs2, w2⟩, ⟨rs1, w1⟩, ⟨rs0, w0⟩] (ix3 o b e) = w2 (ix3 o b jj) := by
  refine (View.canon_cons_of_not_mem (Val := Elt Ideal) ⟨rs3, w3⟩ [⟨rs2, w2⟩, ⟨rs1, w1⟩, ⟨rs0, w0⟩]
    (band_not_mem 384 inb_S256x4x512_S256x4x128_0_0_384 o b e (by omega))).trans ?_
  rw [← band_emb 256 inb_S256x4x512_S256x4x128_0_0_256 o b jj e he]
  exact View.canon_cons_emb _ _ _ _

theorem canon4_band1 (he : e.val = 128 + jj.val) :
    View.canon (Val := Elt Ideal) [⟨rs3, w3⟩, ⟨rs2, w2⟩, ⟨rs1, w1⟩, ⟨rs0, w0⟩] (ix3 o b e) = w1 (ix3 o b jj) := by
  refine (View.canon_cons_of_not_mem (Val := Elt Ideal) ⟨rs3, w3⟩ [⟨rs2, w2⟩, ⟨rs1, w1⟩, ⟨rs0, w0⟩]
    (band_not_mem 384 inb_S256x4x512_S256x4x128_0_0_384 o b e (by omega))).trans ?_
  refine (View.canon_cons_of_not_mem (Val := Elt Ideal) ⟨rs2, w2⟩ [⟨rs1, w1⟩, ⟨rs0, w0⟩]
    (band_not_mem 256 inb_S256x4x512_S256x4x128_0_0_256 o b e (by omega))).trans ?_
  rw [← band_emb 128 inb_S256x4x512_S256x4x128_0_0_128 o b jj e he]
  exact View.canon_cons_emb _ _ _ _

theorem canon4_band0 (he : e.val = 0 + jj.val) :
    View.canon (Val := Elt Ideal) [⟨rs3, w3⟩, ⟨rs2, w2⟩, ⟨rs1, w1⟩, ⟨rs0, w0⟩] (ix3 o b e) = w0 (ix3 o b jj) := by
  refine (View.canon_cons_of_not_mem (Val := Elt Ideal) ⟨rs3, w3⟩ [⟨rs2, w2⟩, ⟨rs1, w1⟩, ⟨rs0, w0⟩]
    (band_not_mem 384 inb_S256x4x512_S256x4x128_0_0_384 o b e (by omega))).trans ?_
  refine (View.canon_cons_of_not_mem (Val := Elt Ideal) ⟨rs2, w2⟩ [⟨rs1, w1⟩, ⟨rs0, w0⟩]
    (band_not_mem 256 inb_S256x4x512_S256x4x128_0_0_256 o b e (by omega))).trans ?_
  refine (View.canon_cons_of_not_mem (Val := Elt Ideal) ⟨rs1, w1⟩ [⟨rs0, w0⟩]
    (band_not_mem 128 inb_S256x4x512_S256x4x128_0_0_128 o b e (by omega))).trans ?_
  rw [← band_emb 0 inb_S256x4x512_S256x4x128_0_0_0 o b jj e he]
  exact View.canon_cons_emb _ _ _ _
end

section scratch

variable (x0 : Vec Ideal S256x1x4x1536 .bf16) (x1 : Vec Ideal S256x256 .f32)
    (q k v : Attn.Tok) (M : Fin 256 → Fin 256 → EReal) (s : Fin 64) (b : Fin 4)
    (hq : ∀ o j, q o s b j = x0 (ix4 o (0 : Fin 1) b (Attn.qcol j))) (hk : ∀ o j, k o s b j = x0 (ix4 o (0 : Fin 1) b (Attn.kcol j)))
    (hv : ∀ o j, v o s b j = x0 (ix4 o (0 : Fin 1) b (Attn.vcol j))) (hM : ∀ o i, M o i = x1 (ix2 o i))

include hv in
/-- A chunk's attended values are the specification's at the chunk's channels: weights `p` that are the
    specification's for the chunk's two heads, against the value band of the chunk. -/
theorem band_attn (c : Fin 4) (p : FVec Ideal S8x256x256 .f32) (offv : Nat) (hov : offv = 1024 + c.val * 128) (inbv)
    (hp : ∀ hh o i, p (ix3 (mrg b hh) o i) = Attn.prob q k M s b (hd c hh) o i)
    (o : Fin 256) (jj : Fin 128) (e : Fin 512) (he : e.val = c.val * 128 + jj.val) :
    ∑ i : Fin 256, p (ix3 (mrg b (hdOf jj)) o i)
        * View.ld x0 (Rect.unit (s := S256x1x4x1536) ![0, 0, 0, offv] S256x1x4x128.size inbv) (ix4 i (0 : Fin 1) b jj)
      = Attn.attn q k v M o s b e := by
  unfold Attn.attn
  refine Finset.sum_congr rfl fun i _ => ?_
  subst hov
  rw [hp, ld_band x0 _ inbv i b jj (by omega), hv]
  refine congrArg₂ (· * ·) ?_ (congrArg x0 ?_)
  · refine congrArg (fun h => Attn.prob q k M s b h o i) (Fin.ext ?_)
    show c.val * 2 + jj.val / 64 = e.val / 64
    omega
  · refine congrArg (ix4 i (0 : Fin 1) b) (Fin.ext ?_)
    show 1024 + c.val * 128 + jj.val = 1024 + e.val
    omega

include hq hk hv hM in
/-- The scratch after the four band stores holds the specification's attended values. -/
theorem scr_apply (o : Fin 256) (e : Fin 512) : scr (F := Ideal) x0 x1 (ix3 o b e) = Attn.attn q k v M o s b e := by
  obtain ⟨c, jj, he⟩ : ∃ (c : Fin 4) (jj : Fin 128), e.val = c.val * 128 + jj.val :=
    ⟨⟨e.val / 128, by omega⟩, ⟨e.val % 128, by omega⟩, by show e.val = e.val / 128 * 128 + e.val % 128; omega⟩
  unfold scr
  have hc : c.val = 0 ∨ c.val = 1 ∨ c.val = 2 ∨ c.val = 3 := by omega
  rcases hc with h | h | h | h
  · obtain rfl : c = (0 : Fin 4) := Fin.ext h
    have he' : e.val = 0 + jj.val := he
    refine (canon4_band0 _ _ _ _ o b jj e he').trans ?_
    rw [k1_pay7_eq]
    unfold at0
    rw [k1_pay6_apply]
    exact band_attn x0 q k v M s b hv 0 (pr0 x0 x1) 1024 rfl _ (pr0_apply x0 x1 q k M s b hq hk hM) o jj e he
  · obtain rfl : c = (1 : Fin 4) := Fin.ext h
    have he' : e.val = 128 + jj.val := he
    refine (canon4_band1 _ _ _ _ o b jj e he').trans ?_
    rw [k1_pay11_eq]
    unfold at1
    rw [k1_pay10_apply]
    exact band_attn x0 q k v M s b hv 1 (pr1 x0 x1) 1152 rfl _ (pr1_apply x0 x1 q k M s b hq hk hM) o jj e he
  · obtain rfl : c = (2 : Fin 4) := Fin.ext h
    have he' : e.val = 256 + jj.val := he
    refine (canon4_band2 _ _ _ _ o b jj e he').trans ?_
    rw [k1_pay15_eq]
    unfold at2
    rw [k1_pay14_apply]
    exact band_attn x0 q k v M s b hv 2 (pr2 x0 x1) 1280 rfl _ (pr2_apply x0 x1 q k M s b hq hk hM) o jj e he
  · obtain rfl : c = (3 : Fin 4) := Fin.ext h
    have he' : e.val = 384 + jj.val := he
    refine (canon4_band3 _ _ _ _ o b jj e he').trans ?_
    rw [k1_pay1_eq]
    unfold at3
    rw [k1_pay18_apply]
    exact band_attn x0 q k v M s b hv 3 (pr3 x0 x1) 1408 rfl _ (pr3_apply x0 x1 q k M s b hq hk hM) o jj e he

end scratch

/-- The projected-output block at a point: if the queries, keys and values at the point's source index and batch entry
    `b` are the three bands of the block `x0`, the mask is `x1`, the output weight the transpose of `x2` and the output
    bias `x3`, the body's first result at (position `o`, batch `b`, channel `f`) is the specification's output. -/
theorem out1_4_apply (x0 : Vec Ideal S256x1x4x1536 .bf16) (x1 : Vec Ideal S256x256 .f32) (x2 : Vec Ideal S512x512 .bf16) (x3 : Vec Ideal S512 .f32)
    (q k v : Attn.Tok) (M : Fin 256 → Fin 256 → EReal) (Wo : Fin 512 → Fin 512 → EReal) (bo : Fin 512 → EReal) (s : Fin 64) (b : Fin 4)
    (hq : ∀ o j, q o s b j = x0 (ix4 o (0 : Fin 1) b (Attn.qcol j))) (hk : ∀ o j, k o s b j = x0 (ix4 o (0 : Fin 1) b (Attn.kcol j)))
    (hv : ∀ o j, v o s b j = x0 (ix4 o (0 : Fin 1) b (Attn.vcol j))) (hM : ∀ o i, M o i = x1 (ix2 o i))
    (hW : ∀ f e, Wo f e = x2 (ix2 e f)) (hb : ∀ f, bo f = x3 (ix1 f)) (o : Fin 256) (f : Fin 512) :
    out1_4 (F := Ideal) x0 x1 x2 x3 (ix4 o (0 : Fin 1) b f) = Attn.out q k v M Wo bo o s b f := by
  unfold out1_4
  rw [View.canon_unit_zero hz4, k1_pay3_apply, View.ld_unit_zero (S := S256x4x512) hz3, View.ld_unit_zero (S := S512x512) hz2,
    View.ld_unit_zero (S := S512) hz1]
  unfold Attn.out
  refine congrArg₂ (· + ·) (Finset.sum_congr rfl fun e _ => ?_) (hb f).symm
  rw [scr_apply x0 x1 q k v M s b hq hk hv hM o e, hW]

/-- The averaged-weights block at a point, likewise. -/
theorem out1_5_apply (x0 : Vec Ideal S256x1x4x1536 .bf16) (x1 : Vec Ideal S256x256 .f32)
    (q k : Attn.Tok) (M : Fin 256 → Fin 256 → EReal) (s : Fin 64) (b : Fin 4)
    (hq : ∀ o j, q o s b j = x0 (ix4 o (0 : Fin 1) b (Attn.qcol j))) (hk : ∀ o j, k o s b j = x0 (ix4 o (0 : Fin 1) b (Attn.kcol j)))
    (hM : ∀ o i, M o i = x1 (ix2 o i)) (o i : Fin 256) :
    out1_5 (F := Ideal) x0 x1 (ix4 (0 : Fin 1) b o i) = Attn.wt q k M s b o i := by
  unfold out1_5 hs3
  rw [View.canon_unit_zero hz4, k1_pay2_apply, k1_pay16_apply, k1_pay12_apply, k1_pay8_apply, k1_pay4_apply]
  simp only [pr0_apply x0 x1 q k M s b hq hk hM, pr1_apply x0 x1 q k M s b hq hk hM, pr2_apply x0 x1 q k M s b hq hk hM,
    pr3_apply x0 x1 q k M s b hq hk hM]
  unfold Attn.wt
  refine congrArg (· * Attn.c8) ?_
  rw [Fin.sum_univ_eight, Fin.sum_univ_two, Fin.sum_univ_two, Fin.sum_univ_two, Fin.sum_univ_two, zero_add]
  simp only [add_assoc]
  rfl

end Cert.KernelIdeal.Fr

end
-- ==== Proof.Arrays1.lean ====
/-
  From the blocks of region 1 to its two result arrays. Grid point t works on source index t: it reads the slab
  [:, t, :, :] of the projected activations, the whole mask, the whole transposed output weight and the whole output
  bias, and writes the slab [:, t, :, :] of the first result and the slab [t, :, :, :] of the second. The 64 slabs
  of each result are disjoint and fill it. If the projected activations' three bands are the queries, keys and
  values, then each result, entry by entry, is the specification's.
-/
import proofs.«124428_j35424890257735_2_alg».proof.Proof.Run
import proofs.«124428_j35424890257735_2_alg».proof.Proof.Block1
import proofs.«124428_j35424890257735_2_alg».proof.Proof.Spec
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.ValueIdx Idealize.SL.Sem
open Idealize.ShloMosaic.Pipeline (Dat)

/-- The coordinates of a rank-4 index are below the extents, with the extents written as themselves. -/
theorem idx4_lt0 {n0 n1 n2 n3 : Nat} (j : (⟨4, ![n0, n1, n2, n3]⟩ : Shape).Idx) : (j 0).val < n0 := (j 0).isLt
theorem idx4_lt1 {n0 n1 n2 n3 : Nat} (j : (⟨4, ![n0, n1, n2, n3]⟩ : Shape).Idx) : (j 1).val < n1 := (j 1).isLt
theorem idx4_lt2 {n0 n1 n2 n3 : Nat} (j : (⟨4, ![n0, n1, n2, n3]⟩ : Shape).Idx) : (j 2).val < n2 := (j 2).isLt
theorem idx4_lt3 {n0 n1 n2 n3 : Nat} (j : (⟨4, ![n0, n1, n2, n3]⟩ : Shape).Idx) : (j 3).val < n3 := (j 3).isLt

/-! ## Where the windows' blocks sit in their arrays -/

/-- The block indices over the 64 points: the projected activations' and the first result's slab index is the point's
    number along the source axis, the second result's along its first axis; every other block index is 0. -/
theorem idx1 : ∀ t : Fin cfg1.N,
    win1_0.index t (0 : Fin 4) = 0 ∧ win1_0.index t (1 : Fin 4) = t.val ∧ win1_0.index t (2 : Fin 4) = 0 ∧ win1_0.index t (3 : Fin 4) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 1) = 0
    ∧ win1_4.index t (0 : Fin 4) = 0 ∧ win1_4.index t (1 : Fin 4) = t.val ∧ win1_4.index t (2 : Fin 4) = 0 ∧ win1_4.index t (3 : Fin 4) = 0
    ∧ win1_5.index t (0 : Fin 4) = t.val ∧ win1_5.index t (1 : Fin 4) = 0 ∧ win1_5.index t (2 : Fin 4) = 0 ∧ win1_5.index t (3 : Fin 4) = 0 :=
  (by decide +kernel : ∀ t : Fin grid1.N, _)

section Blocks

variable (V : (c : Dev nD) → (b : Ref sig .tc) → Buf (Elt Ideal) ((c : Thread nD τ).loc b))

/-- The projected activations' block at point t is the slab at source index t. -/
theorem iblk1_0_apply (c : Dev nD) (t : Fin cfg1.N) (o : Fin 256) (b : Fin 4) (j : Fin 1536) (s : Fin 64) (hs : s.val = t.val) :
    (iblk1 V c 0 t : Vec Ideal S256x1x4x1536 .bf16) (ix4 o (0 : Fin 1) b j) = (V c main_v16 : S256x64x4x1536.Idx → EReal) (ix4 o s b j) := by
  obtain ⟨e0, e1, e2, e3, -⟩ := idx1 t
  unfold iblk1
  rw [View.read_apply]
  show (V c main_v16 : S256x64x4x1536.Idx → EReal) _ = (V c main_v16 : S256x64x4x1536.Idx → EReal) _
  refine congrArg _ ?_
  funext a
  apply Fin.ext
  match a with
  | ⟨0, _⟩ => show win1_0.index t (0 : Fin 4) * 256 + 1 * o.val = o.val; rw [e0]; omega
  | ⟨1, _⟩ => show win1_0.index t (1 : Fin 4) * 1 + 1 * 0 = s.val; rw [e1, hs]; omega
  | ⟨2, _⟩ => show win1_0.index t (2 : Fin 4) * 4 + 1 * b.val = b.val; rw [e2]; omega
  | ⟨3, _⟩ => show win1_0.index t (3 : Fin 4) * 1536 + 1 * j.val = j.val; rw [e3]; omega

/-- The mask's block at any point is the whole array. -/
theorem iblk1_1_apply (c : Dev nD) (t : Fin cfg1.N) (o i : Fin 256) :
    (iblk1 V c 1 t : Vec Ideal S256x256 .f32) (ix2 o i) = (V c main_arg5 : S256x256.Idx → EReal) (ix2 o i) := by
  obtain ⟨-, -, -, -, e0, e1, -⟩ := idx1 t
  unfold iblk1
  rw [View.read_apply]
  show (V c main_arg5 : S256x256.Idx → EReal) _ = (V c main_arg5 : S256x256.Idx → EReal) _
  refine congrArg _ ?_
  funext a
  apply Fin.ext
  match a with
  | ⟨0, _⟩ => show win1_1.index t (0 : Fin 2) * 256 + 1 * o.val = o.val; rw [e0]; omega
  | ⟨1, _⟩ => show win1_1.index t (1 : Fin 2) * 256 + 1 * i.val = i.val; rw [e1]; omega

/-- The output weight's block at any point is the whole array. -/
theorem iblk1_2_apply (c : Dev nD) (t : Fin cfg1.N) (e f : Fin 512) :
    (iblk1 V c 2 t : Vec Ideal S512x512 .bf16) (ix2 e f) = (V c main_v18 : S512x512.Idx → EReal) (ix2 e f) := by
  obtain ⟨-, -, -, -, -, -, e0, e1, -⟩ := idx1 t
  unfold iblk1
  rw [View.read_apply]
  show (V c main_v18 : S512x512.Idx → EReal) _ = (V c main_v18 : S512x512.Idx → EReal) _
  refine congrArg _ ?_
  funext a
  apply Fin.ext
  match a with
  | ⟨0, _⟩ => show win1_2.index t (0 : Fin 2) * 512 + 1 * e.val = e.val; rw [e0]; omega
  | ⟨1, _⟩ => show win1_2.index t (1 : Fin 2) * 512 + 1 * f.val = f.val; rw [e1]; omega

/-- The output bias' block at any point is the whole array. -/
theorem iblk1_3_apply (c : Dev nD) (t : Fin cfg1.N) (f : Fin 512) :
    (iblk1 V c 3 t : Vec Ideal S512 .f32) (ix1 f) = (V c main_arg4 : S512.Idx → EReal) (ix1 f) := by
  obtain ⟨-, -, -, -, -, -, -, -, e0, -⟩ := idx1 t
  unfold iblk1
  rw [View.read_apply]
  show (V c main_arg4 : S512.Idx → EReal) _ = (V c main_arg4 : S512.Idx → EReal) _
  refine congrArg _ ?_
  funext a
  apply Fin.ext
  match a with
  | ⟨0, _⟩ => show win1_3.index t (0 : Fin 1) * 512 + 1 * f.val = f.val; rw [e0]; omega

/-! ## The two result arrays as functions of their indices -/

section Spec

variable (q k v : Attn.Tok) (M : Fin 256 → Fin 256 → EReal) (Wo : Fin 512 → Fin 512 → EReal) (bo : Fin 512 → EReal)

/-- The specification's output, as a function on the first result's index set. -/
def spec4 : S256x64x4x512.Idx → EReal := fun i =>
  Attn.out q k v M Wo bo (⟨(i 0).val, idx4_lt0 i⟩ : Fin 256) (⟨(i 1).val, idx4_lt1 i⟩ : Fin 64) (⟨(i 2).val, idx4_lt2 i⟩ : Fin 4) (⟨(i 3).val, idx4_lt3 i⟩ : Fin 512)

/-- The specification's averaged weights, as a function on the second result's index set. -/
def spec5 : S64x4x256x256.Idx → EReal := fun i =>
  Attn.wt q k M (⟨(i 0).val, idx4_lt0 i⟩ : Fin 64) (⟨(i 1).val, idx4_lt1 i⟩ : Fin 4) (⟨(i 2).val, idx4_lt2 i⟩ : Fin 256) (⟨(i 3).val, idx4_lt3 i⟩ : Fin 256)

variable (A16 : S256x64x4x1536.Idx → EReal) (A5 : S256x256.Idx → EReal) (A18 : S512x512.Idx → EReal) (A4 : S512.Idx → EReal)

/-- What point t writes back to the first result is the point's slab of the specification's output. -/
theorem flushed1_4_eq (c : Dev nD) (h16 : A16 = V c main_v16) (h5 : A5 = V c main_arg5) (h18 : A18 = V c main_v18) (h4 : A4 = V c main_arg4)
    (hq : ∀ o s b j, q o s b j = A16 (ix4 o s b (Attn.qcol j))) (hk : ∀ o s b j, k o s b j = A16 (ix4 o s b (Attn.kcol j)))
    (hv : ∀ o s b j, v o s b j = A16 (ix4 o s b (Attn.vcol j))) (hM : ∀ o i, M o i = A5 (ix2 o i))
    (hW : ∀ f e, Wo f e = A18 (ix2 e f)) (hb : ∀ f, bo f = A4 (ix1 f)) (t : Fin cfg1.N) :
    (dat1 V c).flushed 4 t = ((cfg1.win 4).blk t).view.read (Elt Ideal) (spec4 q k v M Wo bo) := by
  subst h16 h5 h18 h4
  show (cfg1.win 4).cut (grid1.coords t) ((dat1 V c).after 4 t) = _
  rw [after1_4]
  obtain ⟨-, -, -, -, -, -, -, -, -, e0, e1, e2, e3, -⟩ := idx1 t
  have hN : cfg1.N = 64 := N_1
  obtain ⟨s, hs⟩ : ∃ s : Fin 64, s.val = t.val := ⟨⟨t.val, hN ▸ t.isLt⟩, rfl⟩
  funext y
  obtain ⟨o, u, b, f, rfl⟩ : ∃ (o : Fin 256) (u : Fin 1) (b : Fin 4) (f : Fin 512), y = ix4 o u b f := ⟨y 0, y 1, y 2, y 3, eq_ix4 y⟩
  obtain rfl : u = 0 := Subsingleton.elim _ _
  show out1_4 (F := Ideal) (iblk1 V c 0 t) (iblk1 V c 1 t) (iblk1 V c 2 t) (iblk1 V c 3 t) (ix4 o (0 : Fin 1) b f)
    = spec4 q k v M Wo bo (((cfg1.win 4).blk t).view.emb (ix4 o (0 : Fin 1) b f))
  refine (out1_4_apply _ _ _ _ q k v M Wo bo s b ?_ ?_ ?_ ?_ ?_ ?_ o f).trans ?_
  · intro o j; rw [hq]; exact (iblk1_0_apply V c t o b _ s hs).symm
  · intro o j; rw [hk]; exact (iblk1_0_apply V c t o b _ s hs).symm
  · intro o j; rw [hv]; exact (iblk1_0_apply V c t o b _ s hs).symm
  · intro o i; rw [hM]; exact (iblk1_1_apply V c t o i).symm
  · intro f e; rw [hW]; exact (iblk1_2_apply V c t e f).symm
  · intro f; rw [hb]; exact (iblk1_3_apply V c t f).symm
  · unfold spec4
    have h0 : (⟨((((cfg1.win 4).blk t).view.emb (ix4 o (0 : Fin 1) b f) : S256x64x4x512.Idx) 0).val, idx4_lt0 _⟩ : Fin 256) = o :=
      Fin.ext (by show win1_4.index t (0 : Fin 4) * 256 + 1 * o.val = o.val; rw [e0]; omega)
    have h1 : (⟨((((cfg1.win 4).blk t).view.emb (ix4 o (0 : Fin 1) b f) : S256x64x4x512.Idx) 1).val, idx4_lt1 _⟩ : Fin 64) = s :=
      Fin.ext (by show win1_4.index t (1 : Fin 4) * 1 + 1 * 0 = s.val; rw [e1, hs]; omega)
    have h2 : (⟨((((cfg1.win 4).blk t).view.emb (ix4 o (0 : Fin 1) b f) : S256x64x4x512.Idx) 2).val, idx4_lt2 _⟩ : Fin 4) = b :=
      Fin.ext (by show win1_4.index t (2 : Fin 4) * 4 + 1 * b.val = b.val; rw [e2]; omega)
    have h3 : (⟨((((cfg1.win 4).blk t).view.emb (ix4 o (0 : Fin 1) b f) : S256x64x4x512.Idx) 3).val, idx4_lt3 _⟩ : Fin 512) = f :=
      Fin.ext (by show win1_4.index t (3 : Fin 4) * 512 + 1 * f.val = f.val; rw [e3]; omega)
    rw [h0, h1, h2, h3]

/-- What point t writes back to the second result is the point's slab of the specification's averaged weights. -/
theorem flushed1_5_eq (c : Dev nD) (h16 : A16 = V c main_v16) (h5 : A5 = V c main_arg5)
    (hq : ∀ o s b j, q o s b j = A16 (ix4 o s b (Attn.qcol j))) (hk : ∀ o s b j, k o s b j = A16 (ix4 o s b (Attn.kcol j)))
    (hM : ∀ o i, M o i = A5 (ix2 o i)) (t : Fin cfg1.N) :
    (dat1 V c).flushed 5 t = ((cfg1.win 5).blk t).view.read (Elt Ideal) (spec5 q k M) := by
  subst h16 h5
  show (cfg1.win 5).cut (grid1.coords t) ((dat1 V c).after 5 t) = _
  rw [after1_5]
  obtain ⟨-, -, -, -, -, -, -, -, -, -, -, -, -, e0, e1, e2, e3⟩ := idx1 t
  have hN : cfg1.N = 64 := N_1
  obtain ⟨s, hs⟩ : ∃ s : Fin 64, s.val = t.val := ⟨⟨t.val, hN ▸ t.isLt⟩, rfl⟩
  funext y
  obtain ⟨u, b, o, i, rfl⟩ : ∃ (u : Fin 1) (b : Fin 4) (o : Fin 256) (i : Fin 256), y = ix4 u b o i := ⟨y 0, y 1, y 2, y 3, eq_ix4 y⟩
  obtain rfl : u = 0 := Subsingleton.elim _ _
  show out1_5 (F := Ideal) (iblk1 V c 0 t) (iblk1 V c 1 t) (ix4 (0 : Fin 1) b o i)
    = spec5 q k M (((cfg1.win 5).blk t).view.emb (ix4 (0 : Fin 1) b o i))
  refine (out1_5_apply _ _ q k M s b ?_ ?_ ?_ o i).trans ?_
  · intro o j; rw [hq]; exact (iblk1_0_apply V c t o b _ s hs).symm
  · intro o j; rw [hk]; exact (iblk1_0_apply V c t o b _ s hs).symm
  · intro o i; rw [hM]; exact (iblk1_1_apply V c t o i).symm
  · unfold spec5
    have h0 : (⟨((((cfg1.win 5).blk t).view.emb (ix4 (0 : Fin 1) b o i) : S64x4x256x256.Idx) 0).val, idx4_lt0 _⟩ : Fin 64) = s :=
      Fin.ext (by show win1_5.index t (0 : Fin 4) * 1 + 1 * 0 = s.val; rw [e0, hs]; omega)
    have h1 : (⟨((((cfg1.win 5).blk t).view.emb (ix4 (0 : Fin 1) b o i) : S64x4x256x256.Idx) 1).val, idx4_lt1 _⟩ : Fin 4) = b :=
      Fin.ext (by show win1_5.index t (1 : Fin 4) * 4 + 1 * b.val = b.val; rw [e1]; omega)
    have h2 : (⟨((((cfg1.win 5).blk t).view.emb (ix4 (0 : Fin 1) b o i) : S64x4x256x256.Idx) 2).val, idx4_lt2 _⟩ : Fin 256) = o :=
      Fin.ext (by show win1_5.index t (2 : Fin 4) * 256 + 1 * o.val = o.val; rw [e2]; omega)
    have h3 : (⟨((((cfg1.win 5).blk t).view.emb (ix4 (0 : Fin 1) b o i) : S64x4x256x256.Idx) 3).val, idx4_lt3 _⟩ : Fin 256) = i :=
      Fin.ext (by show win1_5.index t (3 : Fin 4) * 256 + 1 * i.val = i.val; rw [e3]; omega)
    rw [h0, h1, h2, h3]

end Spec

/-! ## The slabs fill the arrays -/

theorem mem_blk1_4 (t : Fin cfg1.N) (i : S256x64x4x512.Idx) :
    i ∈ ((cfg1.win 4).blk t).view.set ↔ ∀ a : Fin 4, win1_4.index t a * S256x1x4x512.size a ≤ (i a).val ∧ (i a).val < win1_4.index t a * S256x1x4x512.size a + S256x1x4x512.size a := by
  show i ∈ ((View.whole main_v19_0).slice (win1_4.rect t)).set ↔ _
  rw [View.set_slice_whole, Rect.mem_set_unit]
  exact Iff.rfl

theorem mem_blk1_5 (t : Fin cfg1.N) (i : S64x4x256x256.Idx) :
    i ∈ ((cfg1.win 5).blk t).view.set ↔ ∀ a : Fin 4, win1_5.index t a * S1x4x256x256.size a ≤ (i a).val ∧ (i a).val < win1_5.index t a * S1x4x256x256.size a + S1x4x256x256.size a := by
  show i ∈ ((View.whole main_v19_1).slice (win1_5.rect t)).set ↔ _
  rw [View.set_slice_whole, Rect.mem_set_unit]
  exact Iff.rfl

/-- An index of the first result lies in the slab of the point numbered by its source coordinate. -/
theorem cover1_4_arr (i : S256x64x4x512.Idx) :
    ∃ t : Fin cfg1.N, (cfg1.win 4).flush t = true ∧ i ∈ ((cfg1.win 4).blk t).view.set := by
  have hi0 : (i 0).val < 256 := idx4_lt0 i
  have hi1 : (i 1).val < 64 := idx4_lt1 i
  have hi2 : (i 2).val < 4 := idx4_lt2 i
  have hi3 : (i 3).val < 512 := idx4_lt3 i
  have hN : cfg1.N = 64 := N_1
  obtain ⟨t, ht⟩ : ∃ t : Fin cfg1.N, t.val = (i 1).val := ⟨⟨(i 1).val, by rw [hN]; omega⟩, rfl⟩
  obtain ⟨-, -, -, -, -, -, -, -, -, e0, e1, e2, e3, -⟩ := idx1 t
  refine ⟨t, flush1_4 t, ?_⟩
  rw [mem_blk1_4]
  intro a
  match a with
  | ⟨0, _⟩ => show win1_4.index t (0 : Fin 4) * 256 ≤ (i 0).val ∧ (i 0).val < win1_4.index t (0 : Fin 4) * 256 + 256; rw [e0]; omega
  | ⟨1, _⟩ => show win1_4.index t (1 : Fin 4) * 1 ≤ (i 1).val ∧ (i 1).val < win1_4.index t (1 : Fin 4) * 1 + 1; rw [e1, ht]; omega
  | ⟨2, _⟩ => show win1_4.index t (2 : Fin 4) * 4 ≤ (i 2).val ∧ (i 2).val < win1_4.index t (2 : Fin 4) * 4 + 4; rw [e2]; omega
  | ⟨3, _⟩ => show win1_4.index t (3 : Fin 4) * 512 ≤ (i 3).val ∧ (i 3).val < win1_4.index t (3 : Fin 4) * 512 + 512; rw [e3]; omega

/-- An index of the second result lies in the slab of the point numbered by its first coordinate. -/
theorem cover1_5_arr (i : S64x4x256x256.Idx) :
    ∃ t : Fin cfg1.N, (cfg1.win 5).flush t = true ∧ i ∈ ((cfg1.win 5).blk t).view.set := by
  have hi0 : (i 0).val < 64 := idx4_lt0 i
  have hi1 : (i 1).val < 4 := idx4_lt1 i
  have hi2 : (i 2).val < 256 := idx4_lt2 i
  have hi3 : (i 3).val < 256 := idx4_lt3 i
  have hN : cfg1.N = 64 := N_1
  obtain ⟨t, ht⟩ : ∃ t : Fin cfg1.N, t.val = (i 0).val := ⟨⟨(i 0).val, by rw [hN]; omega⟩, rfl⟩
  obtain ⟨-, -, -, -, -, -, -, -, -, -, -, -, -, e0, e1, e2, e3⟩ := idx1 t
  refine ⟨t, flush1_5 t, ?_⟩
  rw [mem_blk1_5]
  intro a
  match a with
  | ⟨0, _⟩ => show win1_5.index t (0 : Fin 4) * 1 ≤ (i 0).val ∧ (i 0).val < win1_5.index t (0 : Fin 4) * 1 + 1; rw [e0, ht]; omega
  | ⟨1, _⟩ => show win1_5.index t (1 : Fin 4) * 4 ≤ (i 1).val ∧ (i 1).val < win1_5.index t (1 : Fin 4) * 4 + 4; rw [e1]; omega
  | ⟨2, _⟩ => show win1_5.index t (2 : Fin 4) * 256 ≤ (i 2).val ∧ (i 2).val < win1_5.index t (2 : Fin 4) * 256 + 256; rw [e2]; omega
  | ⟨3, _⟩ => show win1_5.index t (3 : Fin 4) * 256 ≤ (i 3).val ∧ (i 3).val < win1_5.index t (3 : Fin 4) * 256 + 256; rw [e3]; omega

/-! ## The two result arrays after the region -/

/-- The first result after the region, entry by entry, is the specification's output of the queries, keys and values
    that the three bands of the projected activations (A16) are, the mask A5, the transposed output weight A18 and the
    output bias A4. -/
theorem final1_4_of (c : Dev nD) (q k v : Attn.Tok) (M : Fin 256 → Fin 256 → EReal) (Wo : Fin 512 → Fin 512 → EReal) (bo : Fin 512 → EReal)
    (A16 : S256x64x4x1536.Idx → EReal) (A5 : S256x256.Idx → EReal) (A18 : S512x512.Idx → EReal) (A4 : S512.Idx → EReal)
    (h16 : A16 = V c main_v16) (h5 : A5 = V c main_arg5) (h18 : A18 = V c main_v18) (h4 : A4 = V c main_arg4)
    (hq : ∀ o s b j, q o s b j = A16 (ix4 o s b (Attn.qcol j))) (hk : ∀ o s b j, k o s b j = A16 (ix4 o s b (Attn.kcol j)))
    (hv : ∀ o s b j, v o s b j = A16 (ix4 o s b (Attn.vcol j))) (hM : ∀ o i, M o i = A5 (ix2 o i))
    (hW : ∀ f e, Wo f e = A18 (ix2 e f)) (hb : ∀ f, bo f = A4 (ix1 f))
    (o : Fin 256) (s : Fin 64) (b : Fin 4) (f : Fin 512) :
    (dat1 V c).arrAt 4 cfg1.N (ix4 o s b f) = Attn.out q k v M Wo bo o s b f :=
  congrFun ((dat1 V c).arrAt_eq_of_cover 4 (spec4 q k v M Wo bo)
    (fun t _ => flushed1_4_eq V q k v M Wo bo A16 A5 A18 A4 c h16 h5 h18 h4 hq hk hv hM hW hb t) cover1_4_arr) (ix4 o s b f)

/-- The second result after the region, entry by entry, is the specification's averaged weights. -/
theorem final1_5_of (c : Dev nD) (q k : Attn.Tok) (M : Fin 256 → Fin 256 → EReal)
    (A16 : S256x64x4x1536.Idx → EReal) (A5 : S256x256.Idx → EReal)
    (h16 : A16 = V c main_v16) (h5 : A5 = V c main_arg5)
    (hq : ∀ o s b j, q o s b j = A16 (ix4 o s b (Attn.qcol j))) (hk : ∀ o s b j, k o s b j = A16 (ix4 o s b (Attn.kcol j)))
    (hM : ∀ o i, M o i = A5 (ix2 o i))
    (s : Fin 64) (b : Fin 4) (o i : Fin 256) :
    (dat1 V c).arrAt 5 cfg1.N (ix4 s b o i) = Attn.wt q k M s b o i :=
  congrFun ((dat1 V c).arrAt_eq_of_cover 5 (spec5 q k M)
    (fun t _ => flushed1_5_eq V q k M A16 A5 c h16 h5 hq hk hM t) cover1_5_arr) (ix4 s b o i)

end Blocks

variable (m : (ℓ : Loc nD τ sig) → Buf (Elt Ideal) ℓ) (ρ : Dev nD → PrngReg)

/-- The two results of region 1 in the run, at the contents the second stretch of host operations left. -/
theorem final1_4 (c : Dev nD) (q k v : Attn.Tok) (M : Fin 256 → Fin 256 → EReal) (Wo : Fin 512 → Fin 512 → EReal) (bo : Fin 512 → EReal)
    (A16 : S256x64x4x1536.Idx → EReal) (A5 : S256x256.Idx → EReal) (A18 : S512x512.Idx → EReal) (A4 : S512.Idx → EReal)
    (h16 : A16 = V3 m ρ c main_v16) (h5 : A5 = V3 m ρ c main_arg5) (h18 : A18 = V3 m ρ c main_v18) (h4 : A4 = V3 m ρ c main_arg4)
    (hq : ∀ o s b j, q o s b j = A16 (ix4 o s b (Attn.qcol j))) (hk : ∀ o s b j, k o s b j = A16 (ix4 o s b (Attn.kcol j)))
    (hv : ∀ o s b j, v o s b j = A16 (ix4 o s b (Attn.vcol j))) (hM : ∀ o i, M o i = A5 (ix2 o i))
    (hW : ∀ f e, Wo f e = A18 (ix2 e f)) (hb : ∀ f, bo f = A4 (ix1 f))
    (o : Fin 256) (s : Fin 64) (b : Fin 4) (f : Fin 512) :
    (dat1 (V3 m ρ) c).arrAt 4 cfg1.N (ix4 o s b f) = Attn.out q k v M Wo bo o s b f :=
  final1_4_of (V3 m ρ) c q k v M Wo bo A16 A5 A18 A4 h16 h5 h18 h4 hq hk hv hM hW hb o s b f

theorem final1_5 (c : Dev nD) (q k : Attn.Tok) (M : Fin 256 → Fin 256 → EReal)
    (A16 : S256x64x4x1536.Idx → EReal) (A5 : S256x256.Idx → EReal)
    (h16 : A16 = V3 m ρ c main_v16) (h5 : A5 = V3 m ρ c main_arg5)
    (hq : ∀ o s b j, q o s b j = A16 (ix4 o s b (Attn.qcol j))) (hk : ∀ o s b j, k o s b j = A16 (ix4 o s b (Attn.kcol j)))
    (hM : ∀ o i, M o i = A5 (ix2 o i))
    (s : Fin 64) (b : Fin 4) (o i : Fin 256) :
    (dat1 (V3 m ρ) c).arrAt 5 cfg1.N (ix4 s b o i) = Attn.wt q k M s b o i :=
  final1_5_of (V3 m ρ) c q k M A16 A5 h16 h5 hq hk hM s b o i

end Cert.KernelIdeal.Fr

end
-- ==== Proof.HostStages.lean ====
/-
  The host operations of the kernel's program around its two calls, read at coordinates.

  Before the first call: the activation [256, 64, 4, 512] is flattened to [65536, 512] (row (o·64 + s)·4 + b); the fused
  weight [1536, 512] is cut into its three bands of 512 rows, the first band scaled by the float 1/8, the bands put
  back together and the whole transposed to [512, 1536]; the bias [1536] likewise, its first band scaled. Between the
  calls: the projection [65536, 1536] is unflattened to [256, 64, 4, 1536] and the output weight transposed.
-/
import proofs.«124428_j35424890257735_2_alg».proof.Proof.Gen.KernelIdeal.Launch
import proofs.«124428_j35424890257735_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HostSide

open Cert.KernelIdeal Cert.KernelIdeal.Gen
open Idealize.ShloMosaic Idealize.ShloMosaic.TcCoe Idealize.SL.Sem Idealize.ShloMosaic.StableHlo Idealize.ShloMosaic.ValueIdx

/-- The flattened row of (position, source, batch). -/
def row (o : Fin 256) (s : Fin 64) (b : Fin 4) : Fin 65536 := ⟨(o.val * 64 + s.val) * 4 + b.val, by omega⟩

/-! ## An operation with three operands -/

section
variable {τ' : Topo} {sig' : RefSig} {Val : EltTy → Type}

/-- The result of an operation with three literal operands, each operand's contents at its own reference. -/
theorem nary3_result {x a b y : Ref sig' .tc}
    (f : ((k : Fin 3) → ((![x, a, b] : Fin 3 → Ref sig' .tc) k).ty.Contents Val) → y.ty.Contents Val) (hxs hy)
    (F : Valuation τ' sig' Val) :
    (nary (τ := τ') ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl
end

/-- Each operation's result at its own buffer is its function's value, at any other buffer what was there. -/
macro "after_results3" : tactic =>
  `(tactic| (simp only [after_cons, after_nil]
             repeat (first
               | rw [nullary_result] | rw [unary_result] | rw [binary_result] | rw [reshape_result] | rw [nary3_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

/-! ## Three bands of 512 put together, at coordinates -/

theorem bands2_q {α : Type} (P Q R : S512x512.Idx → α) (h : Shape.Concatenates [S512x512, S512x512, S512x512] S1536x512 0)
    (j e : Fin 512) :
    concatenate S1536x512 0 [⟨S512x512, P⟩, ⟨S512x512, Q⟩, ⟨S512x512, R⟩] h (ix2 (Attn.qcol j) e) = P (ix2 j e) :=
  concatenate_apply_piece (t := S1536x512) 0 [⟨S512x512, P⟩, ⟨S512x512, Q⟩, ⟨S512x512, R⟩] h (ix2 (Attn.qcol j) e) 0 (by simp) S512x512 P rfl rfl 0 rfl (ix2 j e)
    (fun b hb => by match b with | ⟨0, _⟩ => exact absurd rfl hb | ⟨1, _⟩ => rfl)
    (by show 0 + j.val = j.val; omega)

theorem bands2_k {α : Type} (P Q R : S512x512.Idx → α) (h : Shape.Concatenates [S512x512, S512x512, S512x512] S1536x512 0)
    (j e : Fin 512) :
    concatenate S1536x512 0 [⟨S512x512, P⟩, ⟨S512x512, Q⟩, ⟨S512x512, R⟩] h (ix2 (Attn.kcol j) e) = Q (ix2 j e) :=
  concatenate_apply_piece (t := S1536x512) 0 [⟨S512x512, P⟩, ⟨S512x512, Q⟩, ⟨S512x512, R⟩] h (ix2 (Attn.kcol j) e) 1 (by simp) S512x512 Q rfl rfl 512 rfl (ix2 j e)
    (fun b hb => by match b with | ⟨0, _⟩ => exact absurd rfl hb | ⟨1, _⟩ => rfl)
    (by show 512 + j.val = 512 + j.val; rfl)

theorem bands2_v {α : Type} (P Q R : S512x512.Idx → α) (h : Shape.Concatenates [S512x512, S512x512, S512x512] S1536x512 0)
    (j e : Fin 512) :
    concatenate S1536x512 0 [⟨S512x512, P⟩, ⟨S512x512, Q⟩, ⟨S512x512, R⟩] h (ix2 (Attn.vcol j) e) = R (ix2 j e) :=
  concatenate_apply_piece (t := S1536x512) 0 [⟨S512x512, P⟩, ⟨S512x512, Q⟩, ⟨S512x512, R⟩] h (ix2 (Attn.vcol j) e) 2 (by simp) S512x512 R rfl rfl 1024 rfl (ix2 j e)
    (fun b hb => by match b with | ⟨0, _⟩ => exact absurd rfl hb | ⟨1, _⟩ => rfl)
    (by show 1024 + j.val = 1024 + j.val; rfl)

theorem bands1_q {α : Type} (P Q R : S512.Idx → α) (h : Shape.Concatenates [S512, S512, S512] S1536 0) (j : Fin 512) :
    concatenate S1536 0 [⟨S512, P⟩, ⟨S512, Q⟩, ⟨S512, R⟩] h (ix1 (Attn.qcol j)) = P (ix1 j) :=
  concatenate_apply_piece (t := S1536) 0 [⟨S512, P⟩, ⟨S512, Q⟩, ⟨S512, R⟩] h (ix1 (Attn.qcol j)) 0 (by simp) S512 P rfl rfl 0 rfl (ix1 j)
    (fun b hb => by match b with | ⟨0, _⟩ => exact absurd rfl hb)
    (by show 0 + j.val = j.val; omega)

theorem bands1_k {α : Type} (P Q R : S512.Idx → α) (h : Shape.Concatenates [S512, S512, S512] S1536 0) (j : Fin 512) :
    concatenate S1536 0 [⟨S512, P⟩, ⟨S512, Q⟩, ⟨S512, R⟩] h (ix1 (Attn.kcol j)) = Q (ix1 j) :=
  concatenate_apply_piece (t := S1536) 0 [⟨S512, P⟩, ⟨S512, Q⟩, ⟨S512, R⟩] h (ix1 (Attn.kcol j)) 1 (by simp) S512 Q rfl rfl 512 rfl (ix1 j)
    (fun b hb => by match b with | ⟨0, _⟩ => exact absurd rfl hb)
    (by show 512 + j.val = 512 + j.val; rfl)

theorem bands1_v {α : Type} (P Q R : S512.Idx → α) (h : Shape.Concatenates [S512, S512, S512] S1536 0) (j : Fin 512) :
    concatenate S1536 0 [⟨S512, P⟩, ⟨S512, Q⟩, ⟨S512, R⟩] h (ix1 (Attn.vcol j)) = R (ix1 j) :=
  concatenate_apply_piece (t := S1536) 0 [⟨S512, P⟩, ⟨S512, Q⟩, ⟨S512, R⟩] h (ix1 (Attn.vcol j)) 2 (by simp) S512 R rfl rfl 1024 rfl (ix1 j)
    (fun b hb => by match b with | ⟨0, _⟩ => exact absurd rfl hb)
    (by show 1024 + j.val = 1024 + j.val; rfl)

/-! ## The bands cut out, and the scaled band -/

theorem slice2_q {α : Type} (x : S1536x512.Idx → α) (h : S1536x512.Slices ![0, 0] S512x512) (j e : Fin 512) :
    extractStridedSlice S512x512 ![0, 0] x h (ix2 j e) = x (ix2 (Attn.qcol j) e) :=
  extractStridedSlice_apply ![0, 0] x h (ix2 j e) (ix2 (Attn.qcol j) e) (fun a => match a with
    | ⟨0, _⟩ => by show j.val = 0 + j.val; omega
    | ⟨1, _⟩ => by show e.val = 0 + e.val; omega)
theorem slice2_k {α : Type} (x : S1536x512.Idx → α) (h : S1536x512.Slices ![512, 0] S512x512) (j e : Fin 512) :
    extractStridedSlice S512x512 ![512, 0] x h (ix2 j e) = x (ix2 (Attn.kcol j) e) :=
  extractStridedSlice_apply ![512, 0] x h (ix2 j e) (ix2 (Attn.kcol j) e) (fun a => match a with
    | ⟨0, _⟩ => by show 512 + j.val = 512 + j.val; rfl
    | ⟨1, _⟩ => by show e.val = 0 + e.val; omega)
theorem slice2_v {α : Type} (x : S1536x512.Idx → α) (h : S1536x512.Slices ![1024, 0] S512x512) (j e : Fin 512) :
    extractStridedSlice S512x512 ![1024, 0] x h (ix2 j e) = x (ix2 (Attn.vcol j) e) :=
  extractStridedSlice_apply ![1024, 0] x h (ix2 j e) (ix2 (Attn.vcol j) e) (fun a => match a with
    | ⟨0, _⟩ => by show 1024 + j.val = 1024 + j.val; rfl
    | ⟨1, _⟩ => by show e.val = 0 + e.val; omega)

theorem slice1_q {α : Type} (x : S1536.Idx → α) (h : S1536.Slices ![0] S512) (j : Fin 512) :
    extractStridedSlice S512 ![0] x h (ix1 j) = x (ix1 (Attn.qcol j)) :=
  extractStridedSlice_apply ![0] x h (ix1 j) (ix1 (Attn.qcol j)) (fun a => match a with
    | ⟨0, _⟩ => by show j.val = 0 + j.val; omega)
theorem slice1_k {α : Type} (x : S1536.Idx → α) (h : S1536.Slices ![512] S512) (j : Fin 512) :
    extractStridedSlice S512 ![512] x h (ix1 j) = x (ix1 (Attn.kcol j)) :=
  extractStridedSlice_apply ![512] x h (ix1 j) (ix1 (Attn.kcol j)) (fun a => match a with
    | ⟨0, _⟩ => by show 512 + j.val = 512 + j.val; rfl)
theorem slice1_v {α : Type} (x : S1536.Idx → α) (h : S1536.Slices ![1024] S512) (j : Fin 512) :
    extractStridedSlice S512 ![1024] x h (ix1 j) = x (ix1 (Attn.vcol j)) :=
  extractStridedSlice_apply ![1024] x h (ix1 j) (ix1 (Attn.vcol j)) (fun a => match a with
    | ⟨0, _⟩ => by show 1024 + j.val = 1024 + j.val; rfl)

/-- A band times the splat of the float 1/8, at an index. -/
theorem scaled2 (A : FVec Ideal S512x512 .f32) (h : S_.BroadcastsInDim S512x512 (![] : Fin 0 → Fin S512x512.rank)) (i : S512x512.Idx) :
    mulf A (broadcastInDim S512x512 ![] h (constant (F := Ideal) S_ .f32 0x3E000000#32)) i = A i * Attn.c8 := by
  rw [mulf_apply]
  exact congrArg (A i * ·) (broadcastInDim_apply _ h _ i (fun a => a.elim0) (fun a => a.elim0))
theorem scaled1 (A : FVec Ideal S512 .f32) (h : S_.BroadcastsInDim S512 (![] : Fin 0 → Fin S512.rank)) (i : S512.Idx) :
    mulf A (broadcastInDim S512 ![] h (constant (F := Ideal) S_ .f32 0x3E000000#32)) i = A i * Attn.c8 := by
  rw [mulf_apply]
  exact congrArg (A i * ·) (broadcastInDim_apply _ h _ i (fun a => a.elim0) (fun a => a.elim0))

/-! ## Before the first call -/

variable (W : Valuation τ sig (Elt Ideal))

/-- The program's first four arguments, and the first call's result, as functions of an index. -/
abbrev A0 : S256x64x4x512.Idx → EReal := W (Proc.devRef .tc main_arg0)
abbrev A1 : S1536x512.Idx → EReal := W (Proc.devRef .tc main_arg1)
abbrev A2 : S1536.Idx → EReal := W (Proc.devRef .tc main_arg2)
abbrev A3 : S512x512.Idx → EReal := W (Proc.devRef .tc main_arg3)
abbrev P15 : S65536x1536.Idx → EReal := W (Proc.devRef .tc main_v15)

/-- The flattened activation. -/
theorem v14_eq :
    (StableHlo.after (hostOps0 (F := Ideal)) W (Proc.devRef .tc main_v14) : S65536x512.Idx → EReal)
      = shapeCast S65536x512 (A0 W) shapeCasts_S256x64x4x512_S65536x512 := by
  dsimp only [hostOps0]
  after_results3
  rfl

theorem H1 (o : Fin 256) (s : Fin 64) (b : Fin 4) (e : Fin 512) :
    (StableHlo.after (hostOps0 (F := Ideal)) W (Proc.devRef .tc main_v14) : S65536x512.Idx → EReal) (ix2 (row o s b) e)
      = (A0 W) (ix4 o s b e) := by
  rw [v14_eq]
  exact shapeCast_apply _ _ (ix2 (row o s b) e) (ix4 o s b e) (by
    rw [Shape.rowMajor_val_four, Shape.rowMajor_val_two]
    show ((o.val * 64 + s.val) * 4 + b.val) * 512 + e.val = ((o.val * 64 + s.val) * 4 + b.val) * 512 + e.val
    rfl)

/-- The scaled, reassembled and transposed weight. -/
theorem v7_eq :
    (StableHlo.after (hostOps0 (F := Ideal)) W (Proc.devRef .tc main_v7) : S512x1536.Idx → EReal)
      = truncf (F := Ideal) .bf16 (transpose S512x1536 [1, 0]
          (concatenate S1536x512 0
            [⟨S512x512, mulf (extractStridedSlice S512x512 ![0, 0] (A1 W) slices_S1536x512_S512x512_0_0)
                (broadcastInDim S512x512 ![] bcast_S_S512x512 (constant (F := Ideal) S_ .f32 0x3E000000#32))⟩,
             ⟨S512x512, extractStridedSlice S512x512 ![512, 0] (A1 W) slices_S1536x512_S512x512_512_0⟩,
             ⟨S512x512, extractStridedSlice S512x512 ![1024, 0] (A1 W) slices_S1536x512_S512x512_1024_0⟩]
            concatenates_S512x512_S512x512_S512x512_S1536x512_d0)
          transposes_S1536x512_S512x1536_1_0) bitsLt_bf16_f32 := by
  dsimp only [hostOps0]
  after_results3
  rfl

theorem H2q (e j : Fin 512) :
    (StableHlo.after (hostOps0 (F := Ideal)) W (Proc.devRef .tc main_v7) : S512x1536.Idx → EReal) (ix2 e (Attn.qcol j))
      = (A1 W) (ix2 (Attn.qcol j) e) * Attn.c8 := by
  rw [v7_eq, truncf_apply, transpose_ix2_apply, bands2_q, scaled2, slice2_q]
theorem H2k (e j : Fin 512) :
    (StableHlo.after (hostOps0 (F := Ideal)) W (Proc.devRef .tc main_v7) : S512x1536.Idx → EReal) (ix2 e (Attn.kcol j))
      = (A1 W) (ix2 (Attn.kcol j) e) := by
  rw [v7_eq, truncf_apply, transpose_ix2_apply, bands2_k, slice2_k]
theorem H2v (e j : Fin 512) :
    (StableHlo.after (hostOps0 (F := Ideal)) W (Proc.devRef .tc main_v7) : S512x1536.Idx → EReal) (ix2 e (Attn.vcol j))
      = (A1 W) (ix2 (Attn.vcol j) e) := by
  rw [v7_eq, truncf_apply, transpose_ix2_apply, bands2_v, slice2_v]

/-- The scaled and reassembled bias. -/
theorem v13_eq :
    (StableHlo.after (hostOps0 (F := Ideal)) W (Proc.devRef .tc main_v13) : S1536.Idx → EReal)
      = concatenate S1536 0
          [⟨S512, mulf (extractStridedSlice S512 ![0] (A2 W) slices_S1536_S512_0)
              (broadcastInDim S512 ![] bcast_S_S512 (constant (F := Ideal) S_ .f32 0x3E000000#32))⟩,
           ⟨S512, extractStridedSlice S512 ![512] (A2 W) slices_S1536_S512_512⟩,
           ⟨S512, extractStridedSlice S512 ![1024] (A2 W) slices_S1536_S512_1024⟩]
          concatenates_S512_S512_S512_S1536_d0 := by
  dsimp only [hostOps0]
  after_results3
  rfl

theorem H3q (j : Fin 512) :
    (StableHlo.after (hostOps0 (F := Ideal)) W (Proc.devRef .tc main_v13) : S1536.Idx → EReal) (ix1 (Attn.qcol j))
      = (A2 W) (ix1 (Attn.qcol j)) * Attn.c8 := by
  rw [v13_eq, bands1_q, scaled1, slice1_q]
theorem H3k (j : Fin 512) :
    (StableHlo.after (hostOps0 (F := Ideal)) W (Proc.devRef .tc main_v13) : S1536.Idx → EReal) (ix1 (Attn.kcol j))
      = (A2 W) (ix1 (Attn.kcol j)) := by
  rw [v13_eq, bands1_k, slice1_k]
theorem H3v (j : Fin 512) :
    (StableHlo.after (hostOps0 (F := Ideal)) W (Proc.devRef .tc main_v13) : S1536.Idx → EReal) (ix1 (Attn.vcol j))
      = (A2 W) (ix1 (Attn.vcol j)) := by
  rw [v13_eq, bands1_v, slice1_v]

/-! ## Between the calls -/

/-- The unflattened projection. -/
theorem v16_eq :
    (StableHlo.after (hostOps1 (F := Ideal)) W (Proc.devRef .tc main_v16) : S256x64x4x1536.Idx → EReal)
      = shapeCast S256x64x4x1536 (P15 W) shapeCasts_S65536x1536_S256x64x4x1536 := by
  dsimp only [hostOps1]
  after_results3
  rfl

theorem H4 (o : Fin 256) (s : Fin 64) (b : Fin 4) (f : Fin 1536) :
    (StableHlo.after (hostOps1 (F := Ideal)) W (Proc.devRef .tc main_v16) : S256x64x4x1536.Idx → EReal) (ix4 o s b f)
      = (P15 W) (ix2 (row o s b) f) := by
  rw [v16_eq]
  exact shapeCast_apply _ _ (ix4 o s b f) (ix2 (row o s b) f) (by
    rw [Shape.rowMajor_val_four, Shape.rowMajor_val_two]
    show ((o.val * 64 + s.val) * 4 + b.val) * 1536 + f.val = ((o.val * 64 + s.val) * 4 + b.val) * 1536 + f.val
    rfl)

/-- The transposed output weight. -/
theorem v18_eq :
    (StableHlo.after (hostOps1 (F := Ideal)) W (Proc.devRef .tc main_v18) : S512x512.Idx → EReal)
      = truncf (F := Ideal) .bf16 (transpose S512x512 [1, 0] (A3 W) transposes_S512x512_S512x512_1_0) bitsLt_bf16_f32 := by
  dsimp only [hostOps1]
  after_results3

theorem H5 (e f : Fin 512) :
    (StableHlo.after (hostOps1 (F := Ideal)) W (Proc.devRef .tc main_v18) : S512x512.Idx → EReal) (ix2 e f)
      = (A3 W) (ix2 f e) := by
  rw [v18_eq, truncf_apply, transpose_ix2_apply]

end Cert.KernelIdeal.HostSide

end
-- ==== Proof.KernelValue.lean ====
/-
  The kernel program's two results as whole arrays.

  Walking back from the end of the run: the two results are what the second call's write-backs made of its output
  arrays, entry by entry the specification's output and averaged weights over the three bands of the projected
  activations; those are the first call's result unflattened; the first call's result is the fused projection of the
  flattened activation against the transposed weight whose query rows were scaled by 1/8, plus the bias whose query
  entries were scaled. So the queries are the kernel's form, the scale inside the projection. On finite inputs that
  form is the reference's, the scale applied to the projection.
-/
import proofs.«124428_j35424890257735_2_alg».proof.Proof.Run
import proofs.«124428_j35424890257735_2_alg».proof.Proof.WalkBack
import proofs.«124428_j35424890257735_2_alg».proof.Proof.Arrays0
import proofs.«124428_j35424890257735_2_alg».proof.Proof.Arrays1
import proofs.«124428_j35424890257735_2_alg».proof.Proof.HostStages
import proofs.«124428_j35424890257735_2_alg».proof.Proof.Spec

set_option maxRecDepth 16384

noncomputable section

namespace Cert.KernelIdeal.Fr

open Cert.KernelIdeal Cert.KernelIdeal.Gen Cert.KernelIdeal.HostSide
open Idealize.ShloMosaic Idealize.ShloMosaic.TcCoe Idealize.ShloMosaic.ValueIdx Idealize.SL.Sem

/-! ## The six argument arrays by coordinates -/

abbrev Xf (x0 : S256x64x4x512.Idx → EReal) : Attn.Tok := fun o s b e => x0 (ix4 o s b e)
abbrev Wf (x1 : S1536x512.Idx → EReal) : Fin 1536 → Fin 512 → EReal := fun f e => x1 (ix2 f e)
abbrev bIf (x2 : S1536.Idx → EReal) : Fin 1536 → EReal := fun f => x2 (ix1 f)
abbrev Wof (x3 : S512x512.Idx → EReal) : Fin 512 → Fin 512 → EReal := fun f e => x3 (ix2 f e)
abbrev bof (x4 : S512.Idx → EReal) : Fin 512 → EReal := fun f => x4 (ix1 f)
abbrev Mf (x5 : S256x256.Idx → EReal) : Fin 256 → Fin 256 → EReal := fun o i => x5 (ix2 o i)

variable (m : (ℓ : Loc nD τ sig) → Buf (Elt Ideal) ℓ) (ρ : Dev nD → PrngReg)

/-- The argument arrays as launched, as functions of an index. -/
abbrev a0 (c : Dev nD) : S256x64x4x512.Idx → EReal := m ((c : Thread nD τ).loc main_arg0)
abbrev a1 (c : Dev nD) : S1536x512.Idx → EReal := m ((c : Thread nD τ).loc main_arg1)
abbrev a2 (c : Dev nD) : S1536.Idx → EReal := m ((c : Thread nD τ).loc main_arg2)
abbrev a3 (c : Dev nD) : S512x512.Idx → EReal := m ((c : Thread nD τ).loc main_arg3)
abbrev a4 (c : Dev nD) : S512.Idx → EReal := m ((c : Thread nD τ).loc main_arg4)
abbrev a5 (c : Dev nD) : S256x256.Idx → EReal := m ((c : Thread nD τ).loc main_arg5)

/-- What the first call reads, and what the second call reads, as functions of an index. -/
abbrev X14 (c : Dev nD) : S65536x512.Idx → EReal := V1 m ρ c main_v14
abbrev Wt7 (c : Dev nD) : S512x1536.Idx → EReal := V1 m ρ c main_v7
abbrev b13 (c : Dev nD) : S1536.Idx → EReal := V1 m ρ c main_v13
abbrev A16 (c : Dev nD) : S256x64x4x1536.Idx → EReal := V3 m ρ c main_v16
abbrev A5 (c : Dev nD) : S256x256.Idx → EReal := V3 m ρ c main_arg5
abbrev A18 (c : Dev nD) : S512x512.Idx → EReal := V3 m ρ c main_v18
abbrev A4 (c : Dev nD) : S512.Idx → EReal := V3 m ρ c main_arg4

/-! ## The first call's operands at coordinates -/

theorem X14_at (c : Dev nD) (o : Fin 256) (s : Fin 64) (b : Fin 4) (e : Fin 512) :
    X14 m ρ c (ix2 (row o s b) e) = a0 m c (ix4 o s b e) :=
  (H1 (W0 m ρ c) o s b e).trans (congrFun (W0_main_arg0 m ρ c) (ix4 o s b e))

theorem Wt7_q (c : Dev nD) (e j : Fin 512) : Wt7 m ρ c (ix2 e (Attn.qcol j)) = a1 m c (ix2 (Attn.qcol j) e) * Attn.c8 :=
  (H2q (W0 m ρ c) e j).trans (congrArg (· * Attn.c8) (congrFun (W0_main_arg1 m ρ c) (ix2 (Attn.qcol j) e)))
theorem Wt7_k (c : Dev nD) (e j : Fin 512) : Wt7 m ρ c (ix2 e (Attn.kcol j)) = a1 m c (ix2 (Attn.kcol j) e) :=
  (H2k (W0 m ρ c) e j).trans (congrFun (W0_main_arg1 m ρ c) (ix2 (Attn.kcol j) e))
theorem Wt7_v (c : Dev nD) (e j : Fin 512) : Wt7 m ρ c (ix2 e (Attn.vcol j)) = a1 m c (ix2 (Attn.vcol j) e) :=
  (H2v (W0 m ρ c) e j).trans (congrFun (W0_main_arg1 m ρ c) (ix2 (Attn.vcol j) e))

theorem b13_q (c : Dev nD) (j : Fin 512) : b13 m ρ c (ix1 (Attn.qcol j)) = a2 m c (ix1 (Attn.qcol j)) * Attn.c8 :=
  (H3q (W0 m ρ c) j).trans (congrArg (· * Attn.c8) (congrFun (W0_main_arg2 m ρ c) (ix1 (Attn.qcol j))))
theorem b13_k (c : Dev nD) (j : Fin 512) : b13 m ρ c (ix1 (Attn.kcol j)) = a2 m c (ix1 (Attn.kcol j)) :=
  (H3k (W0 m ρ c) j).trans (congrFun (W0_main_arg2 m ρ c) (ix1 (Attn.kcol j)))
theorem b13_v (c : Dev nD) (j : Fin 512) : b13 m ρ c (ix1 (Attn.vcol j)) = a2 m c (ix1 (Attn.vcol j)) :=
  (H3v (W0 m ρ c) j).trans (congrFun (W0_main_arg2 m ρ c) (ix1 (Attn.vcol j)))

/-! ## The projected activations the second call reads -/

/-- Entry (o, s, b, f) of the unflattened projection. -/
theorem A16_at (c : Dev nD) (o : Fin 256) (s : Fin 64) (b : Fin 4) (f : Fin 1536) :
    A16 m ρ c (ix4 o s b f)
      = (∑ e : Fin 512, X14 m ρ c (ix2 (row o s b) e) * Wt7 m ρ c (ix2 e f)) + b13 m ρ c (ix1 f) := by
  refine (H4 (W2 m ρ c) o s b f).trans ?_
  show (W2 m ρ c (Proc.devRef .tc main_v15) : S65536x1536.Idx → EReal) (ix2 (row o s b) f) = _
  rw [W2_main_v15]
  exact final0_3 m ρ c (X14 m ρ c) (Wt7 m ρ c) (b13 m ρ c) rfl rfl rfl (row o s b) f

/-- Its first band is the queries with the scale inside the projection. -/
theorem q_band (c : Dev nD) (o : Fin 256) (s : Fin 64) (b : Fin 4) (j : Fin 512) :
    Attn.qK (Xf (a0 m c)) (Wf (a1 m c)) (bIf (a2 m c)) o s b j = A16 m ρ c (ix4 o s b (Attn.qcol j)) := by
  refine Eq.trans ?_ (A16_at m ρ c o s b (Attn.qcol j)).symm
  show (∑ e : Fin 512, a0 m c (ix4 o s b e) * (a1 m c (ix2 (Attn.qcol j) e) * Attn.c8)) + a2 m c (ix1 (Attn.qcol j)) * Attn.c8 = _
  exact congrArg₂ (· + ·)
    (Finset.sum_congr rfl fun e _ => congrArg₂ (· * ·) (X14_at m ρ c o s b e).symm (Wt7_q m ρ c e j).symm)
    (b13_q m ρ c j).symm

/-- Its second band is the keys. -/
theorem k_band (c : Dev nD) (o : Fin 256) (s : Fin 64) (b : Fin 4) (j : Fin 512) :
    Attn.kk (Xf (a0 m c)) (Wf (a1 m c)) (bIf (a2 m c)) o s b j = A16 m ρ c (ix4 o s b (Attn.kcol j)) := by
  refine Eq.trans ?_ (A16_at m ρ c o s b (Attn.kcol j)).symm
  show (∑ e : Fin 512, a0 m c (ix4 o s b e) * a1 m c (ix2 (Attn.kcol j) e)) + a2 m c (ix1 (Attn.kcol j)) = _
  exact congrArg₂ (· + ·)
    (Finset.sum_congr rfl fun e _ => congrArg₂ (· * ·) (X14_at m ρ c o s b e).symm (Wt7_k m ρ c e j).symm)
    (b13_k m ρ c j).symm

/-- Its third band is the values. -/
theorem v_band (c : Dev nD) (o : Fin 256) (s : Fin 64) (b : Fin 4) (j : Fin 512) :
    Attn.vv (Xf (a0 m c)) (Wf (a1 m c)) (bIf (a2 m c)) o s b j = A16 m ρ c (ix4 o s b (Attn.vcol j)) := by
  refine Eq.trans ?_ (A16_at m ρ c o s b (Attn.vcol j)).symm
  show (∑ e : Fin 512, a0 m c (ix4 o s b e) * a1 m c (ix2 (Attn.vcol j) e)) + a2 m c (ix1 (Attn.vcol j)) = _
  exact congrArg₂ (· + ·)
    (Finset.sum_congr rfl fun e _ => congrArg₂ (· * ·) (X14_at m ρ c o s b e).symm (Wt7_v m ρ c e j).symm)
    (b13_v m ρ c j).symm

/-! ## The second call's other operands -/

theorem mask_at (c : Dev nD) (o i : Fin 256) : Mf (a5 m c) o i = A5 m ρ c (ix2 o i) :=
  (congrFun (V3_main_arg5 m ρ c) (ix2 o i)).symm

theorem wo_at (c : Dev nD) (f e : Fin 512) : Wof (a3 m c) f e = A18 m ρ c (ix2 e f) :=
  ((H5 (W2 m ρ c) e f).trans (congrFun (W2_main_arg3 m ρ c) (ix2 f e))).symm

theorem bo_at (c : Dev nD) (f : Fin 512) : bof (a4 m c) f = A4 m ρ c (ix1 f) :=
  (congrFun (V3_main_arg4 m ρ c) (ix1 f)).symm

/-! ## The two results at coordinates -/

theorem kernel_out (c : Dev nD) (o : Fin 256) (s : Fin 64) (b : Fin 4) (f : Fin 512) :
    (W4 m ρ c (Proc.devRef .tc main_v19_0) : S256x64x4x512.Idx → EReal) (ix4 o s b f)
      = Attn.out (Attn.qK (Xf (a0 m c)) (Wf (a1 m c)) (bIf (a2 m c))) (Attn.kk (Xf (a0 m c)) (Wf (a1 m c)) (bIf (a2 m c))) (Attn.vv (Xf (a0 m c)) (Wf (a1 m c)) (bIf (a2 m c)))
          (Mf (a5 m c)) (Wof (a3 m c)) (bof (a4 m c)) o s b f := by
  rw [W4_main_v19_0]
  exact final1_4 m ρ c _ _ _ _ _ _ (A16 m ρ c) (A5 m ρ c) (A18 m ρ c) (A4 m ρ c) rfl rfl rfl rfl
    (q_band m ρ c) (k_band m ρ c) (v_band m ρ c) (mask_at m ρ c) (wo_at m ρ c) (bo_at m ρ c) o s b f

theorem kernel_wt (c : Dev nD) (s : Fin 64) (b : Fin 4) (o i : Fin 256) :
    (W4 m ρ c (Proc.devRef .tc main_v19_1) : S64x4x256x256.Idx → EReal) (ix4 s b o i)
      = Attn.wt (Attn.qK (Xf (a0 m c)) (Wf (a1 m c)) (bIf (a2 m c))) (Attn.kk (Xf (a0 m c)) (Wf (a1 m c)) (bIf (a2 m c))) (Mf (a5 m c)) s b o i := by
  rw [W4_main_v19_1]
  exact final1_5 m ρ c _ _ _ (A16 m ρ c) (A5 m ρ c) rfl rfl
    (q_band m ρ c) (k_band m ρ c) (mask_at m ρ c) s b o i

/-! ## The two results as whole arrays, over the reference's form of the queries -/

theorem kernel_out_fun (c : Dev nD) (hX : ∀ i, a0 m c i ≠ ⊤ ∧ a0 m c i ≠ ⊥) (hW : ∀ i, a1 m c i ≠ ⊤ ∧ a1 m c i ≠ ⊥)
    (hb : ∀ i, a2 m c i ≠ ⊤ ∧ a2 m c i ≠ ⊥) :
    (W4 m ρ c (Proc.devRef .tc main_v19_0) : S256x64x4x512.Idx → EReal)
      = fun j => Attn.out (Attn.qR (Xf (a0 m c)) (Wf (a1 m c)) (bIf (a2 m c))) (Attn.kk (Xf (a0 m c)) (Wf (a1 m c)) (bIf (a2 m c))) (Attn.vv (Xf (a0 m c)) (Wf (a1 m c)) (bIf (a2 m c)))
          (Mf (a5 m c)) (Wof (a3 m c)) (bof (a4 m c)) (j 0) (j 1) (j 2) (j 3) := by
  funext j
  obtain ⟨o, s, b, f, rfl⟩ : ∃ (o : Fin 256) (s : Fin 64) (b : Fin 4) (f : Fin 512), j = ix4 o s b f :=
    ⟨j 0, j 1, j 2, j 3, eq_ix4 j⟩
  have hq := Attn.qK_eq_qR (Xf (a0 m c)) (Wf (a1 m c)) (bIf (a2 m c)) (fun o s b e => hX _) (fun f e => hW _) (fun f => hb _)
  rw [← hq]
  exact kernel_out m ρ c o s b f

theorem kernel_wt_fun (c : Dev nD) (hX : ∀ i, a0 m c i ≠ ⊤ ∧ a0 m c i ≠ ⊥) (hW : ∀ i, a1 m c i ≠ ⊤ ∧ a1 m c i ≠ ⊥)
    (hb : ∀ i, a2 m c i ≠ ⊤ ∧ a2 m c i ≠ ⊥) :
    (W4 m ρ c (Proc.devRef .tc main_v19_1) : S64x4x256x256.Idx → EReal)
      = fun j => Attn.wt (Attn.qR (Xf (a0 m c)) (Wf (a1 m c)) (bIf (a2 m c))) (Attn.kk (Xf (a0 m c)) (Wf (a1 m c)) (bIf (a2 m c))) (Mf (a5 m c)) (j 0) (j 1) (j 2) (j 3) := by
  funext j
  obtain ⟨s, b, o, i, rfl⟩ : ∃ (s : Fin 64) (b : Fin 4) (o i : Fin 256), j = ix4 s b o i :=
    ⟨j 0, j 1, j 2, j 3, eq_ix4 j⟩
  have hq := Attn.qK_eq_qR (Xf (a0 m c)) (Wf (a1 m c)) (bIf (a2 m c)) (fun o s b e => hX _) (fun f e => hW _) (fun f => hb _)
  rw [← hq]
  exact kernel_wt m ρ c s b o i

end Cert.KernelIdeal.Fr

end
-- ==== Proof.RefValueA.lean ====
/-
  The reference program read stage by stage, first half: the fused projection, the three bands split into heads,
  and the masked scores, each at coordinates.

  The reference flattens (source s, batch b, head h) into one batch index n = (s·4 + b)·8 + h of 2048 and keeps the
  64 channels of a head as the last axis; channel e = h·64 + d of the [256, 64, 4, 512] layout is (n, d) of the
  [256, 2048, 64] layout because (o·2048 + n)·64 + d = ((o·64 + s)·4 + b)·512 + h·64 + d.
-/
import proofs.«124428_j35424890257735_2_alg».proof.Proof.Gen.ReferenceIdeal.Read
import proofs.«124428_j35424890257735_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Attn

/-! ## The six argument arrays by coordinates -/

abbrev Xf (x0 : S256x64x4x512.Idx → EReal) : Tok := fun o s b e => x0 (ix4 o s b e)
abbrev Wf (x1 : S1536x512.Idx → EReal) : Fin 1536 → Fin 512 → EReal := fun f e => x1 (ix2 f e)
abbrev bIf (x2 : S1536.Idx → EReal) : Fin 1536 → EReal := fun f => x2 (ix1 f)
abbrev Wof (x3 : S512x512.Idx → EReal) : Fin 512 → Fin 512 → EReal := fun f e => x3 (ix2 f e)
abbrev bof (x4 : S512.Idx → EReal) : Fin 512 → EReal := fun f => x4 (ix1 f)
abbrev Mf (x5 : S256x256.Idx → EReal) : Fin 256 → Fin 256 → EReal := fun o i => x5 (ix2 o i)

/-- The flattened batch index of (source, batch, head). -/
def bh (s : Fin 64) (b : Fin 4) (h : Fin 8) : Fin 2048 := ⟨(s.val * 4 + b.val) * 8 + h.val, by omega⟩

/-! ## The fused projection -/

theorem lidx0 (o : Fin 256) (s : Fin 64) (b : Fin 4) (f : Fin 1536) (k : Fin 512) :
    lidx_main_v0 (ix4 o s b f) k = ix4 o s b k :=
  funext fun a => Fin.ext (by match a with | ⟨0, _⟩ => rfl | ⟨1, _⟩ => rfl | ⟨2, _⟩ => rfl | ⟨3, _⟩ => rfl)

theorem ridx0 (o : Fin 256) (s : Fin 64) (b : Fin 4) (f : Fin 1536) (k : Fin 512) :
    ridx_main_v0 (ix4 o s b f) k = ix2 f k :=
  funext fun a => Fin.ext (by match a with | ⟨0, _⟩ => rfl | ⟨1, _⟩ => rfl)

theorem idx12 (o : Fin 256) (s : Fin 64) (b : Fin 4) (f : Fin 1536) :
    idx_main_v1 (idx_main_v2 (ix4 o s b f)) = ix1 f :=
  funext fun a => Fin.ext (by match a with | ⟨0, _⟩ => rfl)

/-- The fused projection at (o, s, b, f). -/
theorem v3_at (x0 : S256x64x4x512.Idx → EReal) (x1 : S1536x512.Idx → EReal) (x2 : S1536.Idx → EReal)
    (o : Fin 256) (s : Fin 64) (b : Fin 4) (f : Fin 1536) :
    val_main_v3 (F := Ideal) x0 x1 x2 (ix4 o s b f) = proj (Xf x0) (Wf x1) (bIf x2) o s b f := by
  rw [val_main_v3_apply, val_main_v0_apply, val_main_v2_apply, val_main_v1_apply, idx12]
  simp only [lidx0, ridx0, Ideal.addf_def]
  rfl

/-! ## The three bands, split into heads -/

theorem idx4 (o : Fin 256) (s : Fin 64) (b : Fin 4) (j : Fin 512) : idx_main_v4 (ix4 o s b j) = ix4 o s b (qcol j) :=
  funext fun a => Fin.ext (by match a with | ⟨0, _⟩ => rfl | ⟨1, _⟩ => rfl | ⟨2, _⟩ => rfl | ⟨3, _⟩ => rfl)
theorem idx5 (o : Fin 256) (s : Fin 64) (b : Fin 4) (j : Fin 512) : idx_main_v5 (ix4 o s b j) = ix4 o s b (kcol j) :=
  funext fun a => Fin.ext (by match a with | ⟨0, _⟩ => rfl | ⟨1, _⟩ => rfl | ⟨2, _⟩ => rfl | ⟨3, _⟩ => rfl)
theorem idx6 (o : Fin 256) (s : Fin 64) (b : Fin 4) (j : Fin 512) : idx_main_v6 (ix4 o s b j) = ix4 o s b (vcol j) :=
  funext fun a => Fin.ext (by match a with | ⟨0, _⟩ => rfl | ⟨1, _⟩ => rfl | ⟨2, _⟩ => rfl | ⟨3, _⟩ => rfl)

theorem idx10 (n : Fin 2048) (o : Fin 256) (d : Fin 64) : idx_main_v10 (ix3 n o d) = ix3 o n d :=
  funext fun a => Fin.ext (by match a with | ⟨0, _⟩ => rfl | ⟨1, _⟩ => rfl | ⟨2, _⟩ => rfl)
theorem idx12' (n : Fin 2048) (o : Fin 256) (d : Fin 64) : idx_main_v12 (ix3 n o d) = ix3 o n d :=
  funext fun a => Fin.ext (by match a with | ⟨0, _⟩ => rfl | ⟨1, _⟩ => rfl | ⟨2, _⟩ => rfl)
theorem idx14 (n : Fin 2048) (o : Fin 256) (d : Fin 64) : idx_main_v14 (ix3 n o d) = ix3 o n d :=
  funext fun a => Fin.ext (by match a with | ⟨0, _⟩ => rfl | ⟨1, _⟩ => rfl | ⟨2, _⟩ => rfl)

/-- Row (o, (s·4+b)·8+h, d) of the [256, 2048, 64] layout is channel h·64+d at (o, s, b). -/
theorem idx9 (o : Fin 256) (s : Fin 64) (b : Fin 4) (h : Fin 8) (d : Fin 64) :
    idx_main_v9 (ix3 o (bh s b h) d) = ix4 o s b (col h d) :=
  funext fun a => Fin.ext (by
    have ho := o.isLt; have hs := s.isLt; have hb := b.isLt; have hh := h.isLt; have hd := d.isLt
    match a with
    | ⟨0, _⟩ => show ((o.val * 2048 + ((s.val * 4 + b.val) * 8 + h.val)) * 64 + d.val) / 131072 = o.val; omega
    | ⟨1, _⟩ => show ((o.val * 2048 + ((s.val * 4 + b.val) * 8 + h.val)) * 64 + d.val) / 2048 % 64 = s.val; omega
    | ⟨2, _⟩ => show ((o.val * 2048 + ((s.val * 4 + b.val) * 8 + h.val)) * 64 + d.val) / 512 % 4 = b.val; omega
    | ⟨3, _⟩ => show ((o.val * 2048 + ((s.val * 4 + b.val) * 8 + h.val)) * 64 + d.val) % 512 = h.val * 64 + d.val; omega)
theorem idx11 (o : Fin 256) (s : Fin 64) (b : Fin 4) (h : Fin 8) (d : Fin 64) :
    idx_main_v11 (ix3 o (bh s b h) d) = ix4 o s b (col h d) :=
  funext fun a => Fin.ext (by
    have ho := o.isLt; have hs := s.isLt; have hb := b.isLt; have hh := h.isLt; have hd := d.isLt
    match a with
    | ⟨0, _⟩ => show ((o.val * 2048 + ((s.val * 4 + b.val) * 8 + h.val)) * 64 + d.val) / 131072 = o.val; omega
    | ⟨1, _⟩ => show ((o.val * 2048 + ((s.val * 4 + b.val) * 8 + h.val)) * 64 + d.val) / 2048 % 64 = s.val; omega
    | ⟨2, _⟩ => show ((o.val * 2048 + ((s.val * 4 + b.val) * 8 + h.val)) * 64 + d.val) / 512 % 4 = b.val; omega
    | ⟨3, _⟩ => show ((o.val * 2048 + ((s.val * 4 + b.val) * 8 + h.val)) * 64 + d.val) % 512 = h.val * 64 + d.val; omega)
theorem idx13 (o : Fin 256) (s : Fin 64) (b : Fin 4) (h : Fin 8) (d : Fin 64) :
    idx_main_v13 (ix3 o (bh s b h) d) = ix4 o s b (col h d) :=
  funext fun a => Fin.ext (by
    have ho := o.isLt; have hs := s.isLt; have hb := b.isLt; have hh := h.isLt; have hd := d.isLt
    match a with
    | ⟨0, _⟩ => show ((o.val * 2048 + ((s.val * 4 + b.val) * 8 + h.val)) * 64 + d.val) / 131072 = o.val; omega
    | ⟨1, _⟩ => show ((o.val * 2048 + ((s.val * 4 + b.val) * 8 + h.val)) * 64 + d.val) / 2048 % 64 = s.val; omega
    | ⟨2, _⟩ => show ((o.val * 2048 + ((s.val * 4 + b.val) * 8 + h.val)) * 64 + d.val) / 512 % 4 = b.val; omega
    | ⟨3, _⟩ => show ((o.val * 2048 + ((s.val * 4 + b.val) * 8 + h.val)) * 64 + d.val) % 512 = h.val * 64 + d.val; omega)

/-- The scaled queries of head h at (position o, channel d). -/
theorem q_at (x0 : S256x64x4x512.Idx → EReal) (x1 : S1536x512.Idx → EReal) (x2 : S1536.Idx → EReal)
    (s : Fin 64) (b : Fin 4) (h : Fin 8) (o : Fin 256) (d : Fin 64) :
    val_main_v10 (F := Ideal) x0 x1 x2 (ix3 (bh s b h) o d) = qR (Xf x0) (Wf x1) (bIf x2) o s b (col h d) := by
  rw [val_main_v10_apply, idx10, val_main_v9_apply, idx9, val_main_v8_apply, val_main_v4_apply, idx4, v3_at,
    val_main_v7_apply, val_main_cst_apply]
  rfl

/-- The keys of head h at (position i, channel d). -/
theorem k_at (x0 : S256x64x4x512.Idx → EReal) (x1 : S1536x512.Idx → EReal) (x2 : S1536.Idx → EReal)
    (s : Fin 64) (b : Fin 4) (h : Fin 8) (i : Fin 256) (d : Fin 64) :
    val_main_v12 (F := Ideal) x0 x1 x2 (ix3 (bh s b h) i d) = kk (Xf x0) (Wf x1) (bIf x2) i s b (col h d) := by
  rw [val_main_v12_apply, idx12', val_main_v11_apply, idx11, val_main_v5_apply, idx5, v3_at]
  rfl

/-- The values of head h at (position i, channel d). -/
theorem v_at (x0 : S256x64x4x512.Idx → EReal) (x1 : S1536x512.Idx → EReal) (x2 : S1536.Idx → EReal)
    (s : Fin 64) (b : Fin 4) (h : Fin 8) (i : Fin 256) (d : Fin 64) :
    val_main_v14 (F := Ideal) x0 x1 x2 (ix3 (bh s b h) i d) = vv (Xf x0) (Wf x1) (bIf x2) i s b (col h d) := by
  rw [val_main_v14_apply, idx14, val_main_v13_apply, idx13, val_main_v6_apply, idx6, v3_at]
  rfl

/-! ## The masked scores -/

theorem lidx15 (n : Fin 2048) (o i : Fin 256) (k : Fin 64) : lidx_main_v15 (ix3 n o i) k = ix3 n o k :=
  funext fun a => Fin.ext (by match a with | ⟨0, _⟩ => rfl | ⟨1, _⟩ => rfl | ⟨2, _⟩ => rfl)
theorem ridx15 (n : Fin 2048) (o i : Fin 256) (k : Fin 64) : ridx_main_v15 (ix3 n o i) k = ix3 n i k :=
  funext fun a => Fin.ext (by match a with | ⟨0, _⟩ => rfl | ⟨1, _⟩ => rfl | ⟨2, _⟩ => rfl)
theorem idx1617 (n : Fin 2048) (o i : Fin 256) : idx_main_v16 (idx_main_v17 (ix3 n o i)) = ix2 o i :=
  funext fun a => Fin.ext (by match a with | ⟨0, _⟩ => rfl | ⟨1, _⟩ => rfl)

/-- The masked score of head h, query position o against key position i. -/
theorem score_at (x0 : S256x64x4x512.Idx → EReal) (x1 : S1536x512.Idx → EReal) (x2 : S1536.Idx → EReal)
    (x5 : S256x256.Idx → EReal) (s : Fin 64) (b : Fin 4) (h : Fin 8) (o i : Fin 256) :
    val_main_v18 (F := Ideal) x0 x1 x2 x5 (ix3 (bh s b h) o i)
      = score (qR (Xf x0) (Wf x1) (bIf x2)) (kk (Xf x0) (Wf x1) (bIf x2)) (Mf x5) s b h o i := by
  rw [val_main_v18_apply, val_main_v15_apply, val_main_v17_apply, val_main_v16_apply, idx1617]
  simp only [lidx15, ridx15, q_at, k_at, Ideal.addf_def]
  rfl

end Cert.ReferenceIdeal.RefValue

end
-- ==== Proof.RefValueB.lean ====
/-
  The reference program's softmax over the last axis of the [2048, 256, 256] scores, read at coordinates: the row
  maximum taken from -∞, the exponentials of the differences, their sum, the quotient.
-/
import proofs.«124428_j35424890257735_2_alg».proof.Proof.Gen.ReferenceIdeal.Read
import proofs.«124428_j35424890257735_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Attn

/-! ## The row maxima -/

theorem ninf_eq : ninf = ⊥ := by simp [ninf, Ideal.ofBits, Ideal.ieee]

/-- A maximum taken from -∞ is not changed by one more comparison with -∞. -/
theorem max_ninf (x : EReal) : max ninf x = x := by rw [ninf_eq]; exact max_bot_left x

theorem reduces3 : S2048x256x256.Reduces [2] S2048x256 := by decide

theorem lift3 (n : Fin 2048) (o : Fin 256) (k : Fin (S2048x256x256.size 2)) :
    reduces3.lift (ix2 n o) k = ix3 n o (⟨k.val, k.isLt⟩ : Fin 256) := by
  funext c; apply Fin.ext
  fin_cases c <;> rfl

/-- The reduction with a maximum body over the last axis, at row (n, o): the fold of max over the row. -/
theorem rowmax_at (y : S2048x256x256.Idx → EReal) (init : S_.Idx → EReal) (n : Fin 2048) (o : Fin 256) :
    Host.reduce (FloatOps.maximumf (F := Ideal) (φ := .f32)) y init reducesTo_S2048x256x256_S2048x256_d2 h_S_ (ix2 n o)
      = (Finset.univ : Finset (Fin 256)).fold max (init (Shape.Idx.first h_S_)) (fun i => y (ix3 n o i)) := by
  refine (Host.reduce_eq_fold_single (FloatOps.maximumf (F := Ideal) (φ := .f32)) y init
    reducesTo_S2048x256x256_S2048x256_d2 reduces3 h_S_ (ix2 n o)).trans ?_
  have hf : (y ∘ reduces3.lift (ix2 n o)) = fun k : Fin 256 => y (ix3 n o k) :=
    funext fun k => congrArg y (lift3 n o k)
  exact congrArg (fun f => Finset.fold max (init (Shape.Idx.first h_S_)) f (Finset.univ : Finset (Fin 256))) hf

/-- The row maximum the softmax subtracts. -/
theorem m_at (x0 : S256x64x4x512.Idx → EReal) (x1 : S1536x512.Idx → EReal) (x2 : S1536.Idx → EReal)
    (x5 : S256x256.Idx → EReal) (n : Fin 2048) (o : Fin 256) :
    val_main_v21 (F := Ideal) x0 x1 x2 x5 (ix2 n o)
      = (Finset.univ : Finset (Fin 256)).fold max ninf (fun i => val_main_v18 (F := Ideal) x0 x1 x2 x5 (ix3 n o i)) := by
  rw [val_main_v21_apply, val_main_v20_apply, val_main_cst_1_apply]
  unfold val_main_v19
  rw [rowmax_at, val_main_cst_0_apply]
  exact max_ninf _

/-! ## The softmax -/

theorem idx2223 (n : Fin 2048) (o i : Fin 256) : idx_main_v22 (idx_main_v23 (ix3 n o i)) = ix2 n o :=
  funext fun a => Fin.ext (by match a with | ⟨0, _⟩ => rfl | ⟨1, _⟩ => rfl)
theorem idx2728 (n : Fin 2048) (o i : Fin 256) : idx_main_v27 (idx_main_v28 (ix3 n o i)) = ix2 n o :=
  funext fun a => Fin.ext (by match a with | ⟨0, _⟩ => rfl | ⟨1, _⟩ => rfl)
theorem idx26 (n : Fin 2048) (o k : Fin 256) : idx_main_v26 (ix2 n o) k = ix3 n o k :=
  funext fun a => Fin.ext (by match a with | ⟨0, _⟩ => rfl | ⟨1, _⟩ => rfl | ⟨2, _⟩ => rfl)

/-- The exponential of a score's difference from its row's maximum. -/
theorem e_at (x0 : S256x64x4x512.Idx → EReal) (x1 : S1536x512.Idx → EReal) (x2 : S1536.Idx → EReal)
    (x5 : S256x256.Idx → EReal) (n : Fin 2048) (o i : Fin 256) :
    val_main_v25 (F := Ideal) x0 x1 x2 x5 (ix3 n o i)
      = Ideal.exp (val_main_v18 (F := Ideal) x0 x1 x2 x5 (ix3 n o i)
          - (Finset.univ : Finset (Fin 256)).fold max ninf (fun i' => val_main_v18 (F := Ideal) x0 x1 x2 x5 (ix3 n o i'))) := by
  rw [val_main_v25_apply, val_main_v24_apply, val_main_v23_apply, val_main_v22_apply, idx2223, m_at]
  rfl

/-- The row's sum of exponentials. -/
theorem z_at (x0 : S256x64x4x512.Idx → EReal) (x1 : S1536x512.Idx → EReal) (x2 : S1536.Idx → EReal)
    (x5 : S256x256.Idx → EReal) (n : Fin 2048) (o : Fin 256) :
    val_main_v26 (F := Ideal) x0 x1 x2 x5 (ix2 n o)
      = ∑ k : Fin 256, Ideal.exp (val_main_v18 (F := Ideal) x0 x1 x2 x5 (ix3 n o k)
          - (Finset.univ : Finset (Fin 256)).fold max ninf (fun i' => val_main_v18 (F := Ideal) x0 x1 x2 x5 (ix3 n o i'))) := by
  rw [val_main_v26_apply, val_main_cst_2_apply]
  simp only [idx26, e_at, Ideal.ofBits_def, Cert.Attn.zero_eq, zero_add]

/-- The normalized weights of row (n, o) are the softmax of its scores. -/
theorem p_at (x0 : S256x64x4x512.Idx → EReal) (x1 : S1536x512.Idx → EReal) (x2 : S1536.Idx → EReal)
    (x5 : S256x256.Idx → EReal) (n : Fin 2048) (o i : Fin 256) :
    val_main_v29 (F := Ideal) x0 x1 x2 x5 (ix3 n o i)
      = softmax (fun i' => val_main_v18 (F := Ideal) x0 x1 x2 x5 (ix3 n o i')) i := by
  rw [val_main_v29_apply, val_main_v28_apply, val_main_v27_apply, idx2728, z_at, e_at]
  rfl

end Cert.ReferenceIdeal.RefValue

end
-- ==== Proof.RefValueC.lean ====
/-
  The reference program's two results at coordinates: the softmax weights of each head, the attended values put
  back into the [256, 64, 4, 512] layout, the output projection, and the average of the weights over the eight heads.

  Channel e of (o, s, b) is row (o, (s·4+b)·8 + e/64, e%64) of the [256, 2048, 64] layout, and entry (s, b, h, o, i) of
  the [64, 4, 8, 256, 256] weights is entry ((s·4+b)·8+h, o, i) of the [2048, 256, 256] ones.
-/
import proofs.«124428_j35424890257735_2_alg».proof.Proof.RefValueA
import proofs.«124428_j35424890257735_2_alg».proof.Proof.RefValueB

noncomputable section

namespace Cert.ReferenceIdeal.RefValue

open Cert.ReferenceIdeal Cert.ReferenceIdeal.Gen Cert.ReferenceIdeal.Read Idealize.ShloMosaic Idealize.ShloMosaic.ValueIdx Cert.Attn

/-- The softmax weights of head h. -/
theorem prob_at (x0 : S256x64x4x512.Idx → EReal) (x1 : S1536x512.Idx → EReal) (x2 : S1536.Idx → EReal)
    (x5 : S256x256.Idx → EReal) (s : Fin 64) (b : Fin 4) (h : Fin 8) (o i : Fin 256) :
    val_main_v29 (F := Ideal) x0 x1 x2 x5 (ix3 (bh s b h) o i)
      = prob (qR (Xf x0) (Wf x1) (bIf x2)) (kk (Xf x0) (Wf x1) (bIf x2)) (Mf x5) s b h o i := by
  rw [p_at]
  simp only [score_at]
  rfl

/-! ## The attended values -/

theorem lidx30 (n : Fin 2048) (o : Fin 256) (d : Fin 64) (k : Fin 256) : lidx_main_v30 (ix3 n o d) k = ix3 n o k :=
  funext fun a => Fin.ext (by match a with | ⟨0, _⟩ => rfl | ⟨1, _⟩ => rfl | ⟨2, _⟩ => rfl)
theorem ridx30 (n : Fin 2048) (o : Fin 256) (d : Fin 64) (k : Fin 256) : ridx_main_v30 (ix3 n o d) k = ix3 n k d :=
  funext fun a => Fin.ext (by match a with | ⟨0, _⟩ => rfl | ⟨1, _⟩ => rfl | ⟨2, _⟩ => rfl)
theorem idx31 (o : Fin 256) (n : Fin 2048) (d : Fin 64) : idx_main_v31 (ix3 o n d) = ix3 n o d :=
  funext fun a => Fin.ext (by match a with | ⟨0, _⟩ => rfl | ⟨1, _⟩ => rfl | ⟨2, _⟩ => rfl)

/-- A channel's place inside its head. -/
def chan (e : Fin 512) : Fin 64 := ⟨e.val % 64, by omega⟩

theorem col_headOf (e : Fin 512) : col (headOf e) (chan e) = e :=
  Fin.ext (by show e.val / 64 * 64 + e.val % 64 = e.val; omega)

theorem idx32 (o : Fin 256) (s : Fin 64) (b : Fin 4) (e : Fin 512) :
    idx_main_v32 (ix4 o s b e) = ix3 o (bh s b (headOf e)) (chan e) :=
  funext fun a => Fin.ext (by
    have ho := o.isLt; have hs := s.isLt; have hb := b.isLt; have he := e.isLt
    match a with
    | ⟨0, _⟩ => show (((o.val * 64 + s.val) * 4 + b.val) * 512 + e.val) / 131072 = o.val; omega
    | ⟨1, _⟩ => show (((o.val * 64 + s.val) * 4 + b.val) * 512 + e.val) / 64 % 2048 = (s.val * 4 + b.val) * 8 + e.val / 64; omega
    | ⟨2, _⟩ => show (((o.val * 64 + s.val) * 4 + b.val) * 512 + e.val) % 64 = e.val % 64; omega)

/-- The attended values at (o, s, b, e). -/
theorem attn_at (x0 : S256x64x4x512.Idx → EReal) (x1 : S1536x512.Idx → EReal) (x2 : S1536.Idx → EReal)
    (x5 : S256x256.Idx → EReal) (o : Fin 256) (s : Fin 64) (b : Fin 4) (e : Fin 512) :
    val_main_v32 (F := Ideal) x0 x1 x2 x5 (ix4 o s b e)
      = attn (qR (Xf x0) (Wf x1) (bIf x2)) (kk (Xf x0) (Wf x1) (bIf x2)) (vv (Xf x0) (Wf x1) (bIf x2)) (Mf x5) o s b e := by
  rw [val_main_v32_apply, idx32, val_main_v31_apply, idx31, val_main_v30_apply]
  simp only [lidx30, ridx30, prob_at, v_at, col_headOf]
  rfl

/-! ## The first result -/

theorem lidx33 (o : Fin 256) (s : Fin 64) (b : Fin 4) (f k : Fin 512) : lidx_main_v33 (ix4 o s b f) k = ix4 o s b k :=
  funext fun a => Fin.ext (by match a with | ⟨0, _⟩ => rfl | ⟨1, _⟩ => rfl | ⟨2, _⟩ => rfl | ⟨3, _⟩ => rfl)
theorem ridx33 (o : Fin 256) (s : Fin 64) (b : Fin 4) (f k : Fin 512) : ridx_main_v33 (ix4 o s b f) k = ix2 f k :=
  funext fun a => Fin.ext (by match a with | ⟨0, _⟩ => rfl | ⟨1, _⟩ => rfl)
theorem idx3435 (o : Fin 256) (s : Fin 64) (b : Fin 4) (f : Fin 512) : idx_main_v34 (idx_main_v35 (ix4 o s b f)) = ix1 f :=
  funext fun a => Fin.ext (by match a with | ⟨0, _⟩ => rfl)

/-- The first result at (o, s, b, f): the output projection of the attended values. -/
theorem out_eq (x0 : S256x64x4x512.Idx → EReal) (x1 : S1536x512.Idx → EReal) (x2 : S1536.Idx → EReal)
    (x3 : S512x512.Idx → EReal) (x4 : S512.Idx → EReal) (x5 : S256x256.Idx → EReal)
    (o : Fin 256) (s : Fin 64) (b : Fin 4) (f : Fin 512) :
    val_main_v36 (F := Ideal) x0 x1 x2 x3 x4 x5 (ix4 o s b f)
      = out (qR (Xf x0) (Wf x1) (bIf x2)) (kk (Xf x0) (Wf x1) (bIf x2)) (vv (Xf x0) (Wf x1) (bIf x2)) (Mf x5) (Wof x3) (bof x4) o s b f := by
  rw [val_main_v36_apply, val_main_v33_apply, val_main_v35_apply, val_main_v34_apply, idx3435]
  simp only [lidx33, ridx33, attn_at, Ideal.addf_def]
  rfl

/-! ## The second result -/

theorem idx38 (s : Fin 64) (b : Fin 4) (o i : Fin 256) (k : Fin 8) : idx_main_v38 (ix4 s b o i) k = ix5 s b k o i :=
  funext fun a => Fin.ext (by match a with | ⟨0, _⟩ => rfl | ⟨1, _⟩ => rfl | ⟨2, _⟩ => rfl | ⟨3, _⟩ => rfl | ⟨4, _⟩ => rfl)

theorem idx37 (s : Fin 64) (b : Fin 4) (h : Fin 8) (o i : Fin 256) : idx_main_v37 (ix5 s b h o i) = ix3 (bh s b h) o i :=
  funext fun a => Fin.ext (by
    have hs := s.isLt; have hb := b.isLt; have hh := h.isLt; have ho := o.isLt; have hi := i.isLt
    match a with
    | ⟨0, _⟩ => show ((((s.val * 4 + b.val) * 8 + h.val) * 256 + o.val) * 256 + i.val) / 65536 = (s.val * 4 + b.val) * 8 + h.val; omega
    | ⟨1, _⟩ => show ((((s.val * 4 + b.val) * 8 + h.val) * 256 + o.val) * 256 + i.val) / 256 % 256 = o.val; omega
    | ⟨2, _⟩ => show ((((s.val * 4 + b.val) * 8 + h.val) * 256 + o.val) * 256 + i.val) % 256 = i.val; omega)

/-- Dividing by the float 8 is multiplying by the float 1/8. -/
theorem div_eight (x : EReal) : Ideal.div x eight = x * c8 := by
  rw [eight_eq, Ideal.div_coe (by norm_num : (8 : ℝ) ≠ 0), c8_eq]

/-- The second result at (s, b, o, i): the average of the eight heads' weights. -/
theorem wt_eq (x0 : S256x64x4x512.Idx → EReal) (x1 : S1536x512.Idx → EReal) (x2 : S1536.Idx → EReal)
    (x5 : S256x256.Idx → EReal) (s : Fin 64) (b : Fin 4) (o i : Fin 256) :
    val_main_v40 (F := Ideal) x0 x1 x2 x5 (ix4 s b o i)
      = wt (qR (Xf x0) (Wf x1) (bIf x2)) (kk (Xf x0) (Wf x1) (bIf x2)) (Mf x5) s b o i := by
  rw [val_main_v40_apply, val_main_v38_apply, val_main_v39_apply, val_main_cst_4_apply, val_main_cst_3_apply]
  simp only [idx38, val_main_v37_apply, idx37, prob_at, Ideal.hostDivf_def, Ideal.ofBits_def, Cert.Attn.zero_eq, zero_add]
  exact div_eight _

/-! ## The two results as whole arrays -/

theorem out_fun (x0 : S256x64x4x512.Idx → EReal) (x1 : S1536x512.Idx → EReal) (x2 : S1536.Idx → EReal)
    (x3 : S512x512.Idx → EReal) (x4 : S512.Idx → EReal) (x5 : S256x256.Idx → EReal) :
    val_main_v36 (F := Ideal) x0 x1 x2 x3 x4 x5
      = fun j => out (qR (Xf x0) (Wf x1) (bIf x2)) (kk (Xf x0) (Wf x1) (bIf x2)) (vv (Xf x0) (Wf x1) (bIf x2)) (Mf x5) (Wof x3) (bof x4) (j 0) (j 1) (j 2) (j 3) := by
  funext j
  obtain ⟨o, s, b, f, rfl⟩ : ∃ (o : Fin 256) (s : Fin 64) (b : Fin 4) (f : Fin 512), j = ix4 o s b f :=
    ⟨j 0, j 1, j 2, j 3, eq_ix4 j⟩
  exact out_eq x0 x1 x2 x3 x4 x5 o s b f

theorem wt_fun (x0 : S256x64x4x512.Idx → EReal) (x1 : S1536x512.Idx → EReal) (x2 : S1536.Idx → EReal)
    (x5 : S256x256.Idx → EReal) :
    val_main_v40 (F := Ideal) x0 x1 x2 x5
      = fun j => wt (qR (Xf x0) (Wf x1) (bIf x2)) (kk (Xf x0) (Wf x1) (bIf x2)) (Mf x5) (j 0) (j 1) (j 2) (j 3) := by
  funext j
  obtain ⟨s, b, o, i, rfl⟩ : ∃ (s : Fin 64) (b : Fin 4) (o i : Fin 256), j = ix4 s b o i :=
    ⟨j 0, j 1, j 2, j 3, eq_ix4 j⟩
  exact wt_eq x0 x1 x2 x5 s b o i

end Cert.ReferenceIdeal.RefValue

end
-- ==== Proof.Finite.lean ====
/-
  From the precondition to real entries. The precondition evaluates, for each float input, "every entry has absolute
  value below +∞" and conjoins the six answers; where it holds, every entry of every input is a real number. Only the
  activation, the in-projection weight and the in-projection bias are needed downstream (the one law that uses
  distributivity involves no other input).
-/
import proofs.«124428_j35424890257735_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.FiniteInputs

open Idealize.ShloMosaic Cert.Pre_finite_inputs

/-- The rank-0 shape has one index. -/
instance : Subsingleton S_.Idx := ⟨fun a b => funext fun d => d.elim0⟩

/-- On the extended reals, |x| < +∞ says x is neither infinity. -/
theorem real_of_abs_lt (x : EReal)
    (h : FloatOps.cmpf (F := Ideal) (φ := .f32) .olt (FloatOps.absf (F := Ideal) (φ := .f32) x) (Ideal.ofBits .f32 0x7F800000#32) = 1#1) :
    x ≠ ⊤ ∧ x ≠ ⊥ := by
  have htop : Ideal.ofBits .f32 0x7F800000#32 = ⊤ := by simp [Ideal.ofBits, Ideal.ieee]
  rw [htop] at h
  have h' : max x (-x) < ⊤ := by
    have := h
    simp only [Ideal.cmpf_def, Ideal.absf_def, Ideal.cmp] at this
    by_contra hc
    simp [hc] at this
  constructor
  · rintro rfl; simp at h'
  · rintro rfl; simp at h'

variable [hP : Cert.Pre_finite_inputs.Facts]

/-- Where the precondition holds at the ideal values, the activation, the in-projection weight and the in-projection
    bias have real entries. -/
theorem real_entries (a0 : FVec Ideal S256x64x4x512 .f32) (a1 : FVec Ideal S1536x512 .f32) (a2 : FVec Ideal S1536 .f32)
    (a3 : FVec Ideal S512x512 .f32) (a4 : FVec Ideal S512 .f32) (a5 : FVec Ideal S256x256 .f32)
    (h : fn (F := Ideal) a0 a1 a2 a3 a4 a5 = fun _ => 1#1) :
    (∀ i, a0 i ≠ ⊤ ∧ a0 i ≠ ⊥) ∧ (∀ i, a1 i ≠ ⊤ ∧ a1 i ≠ ⊥) ∧ (∀ i, a2 i ≠ ⊤ ∧ a2 i ≠ ⊥) := by
  have h0 := congrFun h ValueIdx.ix0
  dsimp only [fn, fn_part1] at h0
  have e1 := IntOp.andi_eq_one.mp h0
  have e2 := IntOp.andi_eq_one.mp e1.1
  have e3 := IntOp.andi_eq_one.mp e2.1
  have e4 := IntOp.andi_eq_one.mp e3.1
  have e5 := IntOp.andi_eq_one.mp e4.1
  refine ⟨fun i => ?_, fun i => ?_, fun i => ?_⟩
  · exact real_of_abs_lt _ (Host.reduce_andi_all _ _ _ _ _ e5.1 i)
  · exact real_of_abs_lt _ (Host.reduce_andi_all _ _ _ _ _ e5.2 i)
  · exact real_of_abs_lt _ (Host.reduce_andi_all _ _ _ _ _ e4.2 i)

end Cert.FiniteInputs

end
-- ==== Proof.lean ====
/-
  The five claims of this certificate.

  The kernel program runs in four segments — a stretch of host operations (the query scale folded into the first 512
  rows of the in-projection weight and entries of its bias, the weight transposed), a first call (the fused projection
  x · Wᵀ + b over row tiles), a second stretch (a reshape; the output weight transposed), and a second call (per source
  index: four chunks of two heads of masked softmax attention, the head average, the output projection). Each call's
  frame is a run of its body at every grid point; the three frames follow from the run of the four segments.

  For the equality of results at the ideal values: every output array of each call is one function of the call's operand
  arrays (each grid point writes its block of it), the host stretches are read at an index, and the whole is the
  specification's output and averaged weights over the kernel's form of the queries — the scale inside the projection.
  The reference is the same specification over the scaled projection. On finite inputs the two query forms agree
  (c · (Σ x·w + β) = Σ x·(w·c) + β·c on the reals): the one use of the precondition.
-/
import proofs.«124428_j35424890257735_2_alg».proof.Defs
import proofs.«124428_j35424890257735_2_alg».proof.Proof.Gen.Kernel
import proofs.«124428_j35424890257735_2_alg».proof.Proof.Gen.KernelIdeal
import proofs.«124428_j35424890257735_2_alg».proof.Proof.Gen.ReferenceIdeal
import proofs.«124428_j35424890257735_2_alg».proof.Proof.Gen.Pre_finite_inputs
import proofs.«124428_j35424890257735_2_alg».proof.Proof.Gen.ReferenceIdeal.Run
import proofs.«124428_j35424890257735_2_alg».proof.Proof.Gen.ReferenceIdeal.Read
import proofs.«124428_j35424890257735_2_alg».proof.Proof.KRun
import proofs.«124428_j35424890257735_2_alg».proof.Proof.Run
import proofs.«124428_j35424890257735_2_alg».proof.Proof.KernelValue
import proofs.«124428_j35424890257735_2_alg».proof.Proof.RefValueC
import proofs.«124428_j35424890257735_2_alg».proof.Proof.Finite
import Idealize.ShloMosaic.Adequacy
import Idealize.ShloMosaic.Init

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel program runs and leaves its arguments as launched. -/
theorem frame_k : Cert.frame_Kernel := fun m ρ _ => Cert.Kernel.Fr.frame (F := Bits) m ρ

/-- So does the idealized kernel program. -/
theorem frame_ki : Cert.frame_KernelIdeal := fun m ρ _ => Cert.KernelIdeal.Fr.frame (F := Ideal) m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both idealized programs end at the specification's two results over the reference's queries: the kernel's by its
    value and the agreement of the two query forms on finite inputs, the reference's by its reading. -/
theorem algebraic : Cert.algebraic_KernelIdeal_ReferenceIdeal := by
  intro m ρ m' ρ' hpre hagree
  refine ⟨fun c => Cert.ReferenceIdeal.Read.val_main_v36 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.Read.val_main_v40 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Fr.run_all (F := Ideal) m ρ)
    obtain ⟨hX, hW, hb⟩ := Cert.FiniteInputs.real_entries _ _ _ _ _ _ (hpre c)
    refine ⟨(h c _ (Cert.KernelIdeal.Fr.mem_uc Cert.KernelIdeal.main_v19_0 (by decide))).trans ?_,
      (h c _ (Cert.KernelIdeal.Fr.mem_uc Cert.KernelIdeal.main_v19_1 (by decide))).trans ?_,
      (h c _ (Cert.KernelIdeal.Fr.mem_uc Cert.KernelIdeal.main_arg0 (by decide))).trans (Cert.KernelIdeal.Fr.W4_main_arg0 m ρ c),
      (h c _ (Cert.KernelIdeal.Fr.mem_uc Cert.KernelIdeal.main_arg1 (by decide))).trans (Cert.KernelIdeal.Fr.W4_main_arg1 m ρ c),
      (h c _ (Cert.KernelIdeal.Fr.mem_uc Cert.KernelIdeal.main_arg2 (by decide))).trans (Cert.KernelIdeal.Fr.W4_main_arg2 m ρ c),
      (h c _ (Cert.KernelIdeal.Fr.mem_uc Cert.KernelIdeal.main_arg3 (by decide))).trans (Cert.KernelIdeal.Fr.W4_main_arg3 m ρ c),
      (h c _ (Cert.KernelIdeal.Fr.mem_uc Cert.KernelIdeal.main_arg4 (by decide))).trans (Cert.KernelIdeal.Fr.W4_main_arg4 m ρ c),
      (h c _ (Cert.KernelIdeal.Fr.mem_uc Cert.KernelIdeal.main_arg5 (by decide))).trans (Cert.KernelIdeal.Fr.W4_main_arg5 m ρ c)⟩
    · beta_reduce
      rw [Cert.ReferenceIdeal.RefValue.out_fun]
      exact Cert.KernelIdeal.Fr.kernel_out_fun m ρ c hX hW hb
    · beta_reduce
      rw [Cert.ReferenceIdeal.RefValue.wt_fun]
      exact Cert.KernelIdeal.Fr.kernel_wt_fun m ρ c hX hW hb
  · refine (θ_run Cert.ReferenceIdeal.defs _ _).mono (fun r h c => ?_) (Cert.ReferenceIdeal.Value.run (F := Ideal) m' ρ')
    obtain ⟨h36, h40, hrest⟩ := h c
    obtain ⟨a0, a1, a2, a3, a4, a5⟩ := hagree c
    refine ⟨?_, ?_, hrest⟩
    · rw [h36, Cert.ReferenceIdeal.Read.val_main_v36_eq, a0, a1, a2, a3, a4, a5]
    · rw [h40, Cert.ReferenceIdeal.Read.val_main_v40_eq, a0, a1, a2, a5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
